-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S128x64 : Shape := ⟨2, ![128, 64]⟩
abbrev S128 : Shape := ⟨1, ![128]⟩
abbrev S384x128 : Shape := ⟨2, ![384, 128]⟩
abbrev S3x128 : Shape := ⟨2, ![3, 128]⟩
abbrev S64x128 : Shape := ⟨2, ![64, 128]⟩
abbrev S64 : Shape := ⟨1, ![64]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S3x128 : S_.BroadcastsInDim S3x128 (![] : Fin 0 → Fin S3x128.rank)
  reducesTo_S3x128_S_d0_1 : S3x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S3x128 .f32) (main_arg5 : FVec F S64x128 .f32) (main_arg6 : FVec F S64 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S3x128 .f32 := Host.absf main_arg4
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S64x128 .f32 := Host.absf main_arg5
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S1048576x64 .f32) (main_arg1 : FVec F S128x64 .f32) (main_arg2 : FVec F S128 .f32) (main_arg3 : FVec F S384x128 .f32) (main_arg4 : FVec F S3x128 .f32) (main_arg5 : FVec F S64x128 .f32) (main_arg6 : FVec F S64 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S384x128 .f32 := Host.absf main_arg3
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg4 main_arg5 main_arg6 main_v13 main_v16
-- ==== Kernel.lean ====
abbrev S1048576x64 : Shape := ⟨2, ![1048576, 64]⟩
abbrev S128x64 : Shape := ⟨2, ![128, 64]⟩
abbrev S128 : Shape := ⟨1, ![128]⟩
abbrev S384x128 : Shape := ⟨2, ![384, 128]⟩
abbrev S3x128 : Shape := ⟨2, ![3, 128]⟩
abbrev S64x128 : Shape := ⟨2, ![64, 128]⟩
abbrev S64 : Shape := ⟨1, ![64]⟩
abbrev S_ : Shape := ⟨0, ![]⟩
abbrev S128x256 : Shape := ⟨2, ![128, 256]⟩
abbrev S1 : Shape := ⟨1, ![1]⟩
abbrev S2 : Shape := ⟨1, ![2]⟩
abbrev S3x128x128 : Shape := ⟨3, ![3, 128, 128]⟩
abbrev S1x128x128 : Shape := ⟨3, ![1, 128, 128]⟩
abbrev S128x128 : Shape := ⟨2, ![128, 128]⟩
abbrev S256x256 : Shape := ⟨2, ![256, 256]⟩
abbrev S768x256 : Shape := ⟨2, ![768, 256]⟩
abbrev S256x128 : Shape := ⟨2, ![256, 128]⟩
abbrev S256 : Shape := ⟨1, ![256]⟩
abbrev S3x256 : Shape := ⟨2, ![3, 256]⟩
abbrev S524288x128 : Shape := ⟨2, ![524288, 128]⟩
abbrev S4096x128 : Shape := ⟨2, ![4096, 128]⟩
abbrev S4096x256 : Shape := ⟨2, ![4096, 256]⟩
abbrev S1x256 : Shape := ⟨2, ![1, 256]⟩
abbrev S1x128 : Shape := ⟨2, ![1, 128]⟩

abbrev nBuf : Space → Nat
  | .hbm => 99
  | .vmem => 10
  | .smem => 0
  | _ => 0

abbrev bufTy : (tb : Table) → Fin (tcTables nBuf tb) → BufTy
  | .hbm, ⟨0, _⟩ => ⟨S1048576x64, .f32⟩
  | .hbm, ⟨1, _⟩ => ⟨S128x64, .f32⟩
  | .hbm, ⟨2, _⟩ => ⟨S128, .f32⟩
  | .hbm, ⟨3, _⟩ => ⟨S384x128, .f32⟩
  | .hbm, ⟨4, _⟩ => ⟨S3x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S_, .f32⟩
  | .hbm, ⟨9, _⟩ => ⟨S128x256, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S128x256, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S128x256, .f32⟩
  | .hbm, ⟨22, _⟩ => ⟨S128x256, .bf16⟩
  | .hbm, ⟨23, _⟩ => ⟨S3x128x128, .f32⟩
  | .hbm, ⟨24, _⟩ => ⟨S1x128x128, .f32⟩
  | .hbm, ⟨25, _⟩ => ⟨S128x128, .f32⟩
  | .hbm, ⟨26, _⟩ => ⟨S128x128, .f32⟩
  | .hbm, ⟨27, _⟩ => ⟨S_, .f32⟩
  | .hbm, ⟨28, _⟩ => ⟨S256x256, .f32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S256x256, .f32⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S2, .i32⟩
  | .hbm, ⟨40, _⟩ => ⟨S256x256, .f32⟩
  | .hbm, ⟨41, _⟩ => ⟨S1x128x128, .f32⟩
  | .hbm, ⟨42, _⟩ => ⟨S128x128, .f32⟩
  | .hbm, ⟨43, _⟩ => ⟨S128x128, .f32⟩
  | .hbm, ⟨44, _⟩ => ⟨S_, .f32⟩
  | .hbm, ⟨45, _⟩ => ⟨S256x256, .f32⟩
  | .hbm, ⟨46, _⟩ => ⟨S_, .i32⟩
  | .hbm, ⟨47, _⟩ => ⟨S1, .i32⟩
  | .hbm, ⟨48, _⟩ => ⟨S_, .i32⟩
  | .hbm, ⟨49, _⟩ => ⟨S1, .i32⟩
  | .hbm, ⟨50, _⟩ => ⟨S2, .i32⟩
  | .hbm, ⟨51, _⟩ => ⟨S256x256, .f32⟩
  | .hbm, ⟨52, _⟩ => ⟨S_, .i32⟩
  | .hbm, ⟨53, _⟩ => ⟨S1, .i32⟩
  | .hbm, ⟨54, _⟩ => ⟨S_, .i32⟩
  | .hbm, ⟨55, _⟩ => ⟨S1, .i32⟩
  | .hbm, ⟨56, _⟩ => ⟨S2, .i32⟩
  | .hbm, ⟨57, _⟩ => ⟨S256x256, .f32⟩
  | .hbm, ⟨58, _⟩ => ⟨S1x128x128, .f32⟩
  | .hbm, ⟨59, _⟩ => ⟨S128x128, .f32⟩
  | .hbm, ⟨60, _⟩ => ⟨S128x128, .f32⟩
  | .hbm, ⟨61, _⟩ => ⟨S_, .f32⟩
  | .hbm, ⟨62, _⟩ => ⟨S256x256, .f32⟩
  | .hbm, ⟨63, _⟩ => ⟨S_, .i32⟩
  | .hbm, ⟨64, _⟩ => ⟨S1, .i32⟩
  | .hbm, ⟨65, _⟩ => ⟨S_, .i32⟩
  | .hbm, ⟨66, _⟩ => ⟨S1, .i32⟩
  | .hbm, ⟨67, _⟩ => ⟨S2, .i32⟩
  | .hbm, ⟨68, _⟩ => ⟨S256x256, .f32⟩
  | .hbm, ⟨69, _⟩ => ⟨S_, .i32⟩
  | .hbm, ⟨70, _⟩ => ⟨S1, .i32⟩
  | .hbm, ⟨71, _⟩ => ⟨S_, .i32⟩
  | .hbm, ⟨72, _⟩ => ⟨S1, .i32⟩
  | .hbm, ⟨73, _⟩ => ⟨S2, .i32⟩
  | .hbm, ⟨74, _⟩ => ⟨S256x256, .f32⟩
  | .hbm, ⟨75, _⟩ => ⟨S768x256, .f32⟩
  | .hbm, ⟨76, _⟩ => ⟨S768x256, .bf16⟩
  | .hbm, ⟨77, _⟩ => ⟨S128x64, .f32⟩
  | .hbm, ⟨78, _⟩ => ⟨S_, .f32⟩
  | .hbm, ⟨79, _⟩ => ⟨S256x128, .f32⟩
  | .hbm, ⟨80, _⟩ => ⟨S_, .i32⟩
  | .hbm, ⟨81, _⟩ => ⟨S1, .i32⟩
  | .hbm, ⟨82, _⟩ => ⟨S_, .i32⟩
  | .hbm, ⟨83, _⟩ => ⟨S1, .i32⟩
  | .hbm, ⟨84, _⟩ => ⟨S2, .i32⟩
  | .hbm, ⟨85, _⟩ => ⟨S256x128, .f32⟩
  | .hbm, ⟨86, _⟩ => ⟨S_, .i32⟩
  | .hbm, ⟨87, _⟩ => ⟨S1, .i32⟩
  | .hbm, ⟨88, _⟩ => ⟨S_, .i32⟩
  | .hbm, ⟨89, _⟩ => ⟨S1, .i32⟩
  | .hbm, ⟨90, _⟩ => ⟨S2, .i32⟩
  | .hbm, ⟨91, _⟩ => ⟨S256x128, .f32⟩
  | .hbm, ⟨92, _⟩ => ⟨S256x128, .bf16⟩
  | .hbm, ⟨93, _⟩ => ⟨S256, .f32⟩
  | .hbm, ⟨94, _⟩ => ⟨S3x256, .f32⟩
  | .hbm, ⟨95, _⟩ => ⟨S128, .f32⟩
  | .hbm, ⟨96, _⟩ => ⟨S524288x128, .f32⟩
  | .hbm, ⟨97, _⟩ => ⟨S524288x128, .f32⟩
  | .hbm, ⟨98, _⟩ => ⟨S1048576x64, .f32⟩
  | .local _ .vmem, ⟨0, _⟩ => ⟨S4096x128, .f32⟩
  | .local _ .vmem, ⟨1, _⟩ => ⟨S4096x128, .f32⟩
  | .local _ .vmem, ⟨2, _⟩ => ⟨S128x256, .bf16⟩
  | .local _ .vmem, ⟨3, _⟩ => ⟨S256, .f32⟩
  | .local _ .vmem, ⟨4, _⟩ => ⟨S768x256, .bf16⟩
  | .local _ .vmem, ⟨5, _⟩ => ⟨S3x256, .f32⟩
  | .local _ .vmem, ⟨6, _⟩ => ⟨S256x128, .bf16⟩
  | .local _ .vmem, ⟨7, _⟩ => ⟨S128, .f32⟩
  | .local _ .vmem, ⟨8, _⟩ => ⟨S4096x128, .f32⟩
  | .local _ .vmem, ⟨9, _⟩ => ⟨S4096x128, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_c_7 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_c_9 : Ref sig .tc := ⟨.hbm, 46, rfl⟩
abbrev main_v28 : Ref sig .tc := ⟨.hbm, 47, rfl⟩
abbrev main_c_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_11 : Ref sig .tc := ⟨.hbm, 52, rfl⟩
abbrev main_v32 : Ref sig .tc := ⟨.hbm, 53, rfl⟩
abbrev main_c_12 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_13 : Ref sig .tc := ⟨.hbm, 61, rfl⟩
abbrev main_v39 : Ref sig .tc := ⟨.hbm, 62, rfl⟩
abbrev main_c_14 : Ref sig .tc := ⟨.hbm, 63, rfl⟩
abbrev main_v40 : Ref sig .tc := ⟨.hbm, 64, rfl⟩
abbrev main_c_15 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_16 : Ref sig .tc := ⟨.hbm, 69, rfl⟩
abbrev main_v44 : Ref sig .tc := ⟨.hbm, 70, rfl⟩
abbrev main_c_17 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_18 : Ref sig .tc := ⟨.hbm, 78, rfl⟩
abbrev main_v51 : Ref sig .tc := ⟨.hbm, 79, rfl⟩
abbrev main_c_19 : Ref sig .tc := ⟨.hbm, 80, rfl⟩
abbrev main_v52 : Ref sig .tc := ⟨.hbm, 81, rfl⟩
abbrev main_c_20 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_21 : Ref sig .tc := ⟨.hbm, 86, rfl⟩
abbrev main_v56 : Ref sig .tc := ⟨.hbm, 87, rfl⟩
abbrev main_c_22 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S128x64_S64x128_1_0 : S128x64.Transposes [1, 0] S64x128
  bcast_S_S128x256 : S_.BroadcastsInDim S128x256 (![] : Fin 0 → Fin S128x256.rank)
  bcast_S_S1 : S_.BroadcastsInDim S1 (![] : Fin 0 → Fin S1.rank)
  concatenates_S1_S1_S2_d0 : Shape.Concatenates [S1, S1] S2 0
  bitsLt_bf16_f32 : FTy.bits .bf16 < FTy.bits .f32
  shapeCasts_S384x128_S3x128x128 : S384x128.ShapeCasts S3x128x128
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  bcast_S_S256x256 : S_.BroadcastsInDim S256x256 (![] : Fin 0 → Fin S256x256.rank)
  slices_S3x128x128_S1x128x128_1_0_0 : S3x128x128.Slices ![1, 0, 0] S1x128x128
  slices_S3x128x128_S1x128x128_2_0_0 : S3x128x128.Slices ![2, 0, 0] S1x128x128
  concatenates_S256x256_S256x256_S256x256_S768x256_d0 : Shape.Concatenates [S256x256, S256x256, S256x256] S768x256 0
  transposes_S64x128_S128x64_1_0 : S64x128.Transposes [1, 0] S128x64
  bcast_S_S256x128 : S_.BroadcastsInDim S256x128 (![] : Fin 0 → Fin S256x128.rank)
  concatenates_S128_S128_S256_d0 : Shape.Concatenates [S128, S128] S256 0
  concatenates_S3x128_S3x128_S3x256_d1 : Shape.Concatenates [S3x128, S3x128] S3x256 1
  concatenates_S64_S64_S128_d0 : Shape.Concatenates [S64, S64] S128 0
  shapeCasts_S1048576x64_S524288x128 : S1048576x64.ShapeCasts S524288x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S4096x256 : S1x256.Broadcasts S4096x256
  inb_S768x256_S256x256_0_0 : ∀ a, (![0, 0] : Fin 2 → Nat) a + S256x256.size a ≤ S768x256.size a
  h_S256x256 : 0 < S256x256.numel
  shapeCasts_S256x256_S256x256 : S256x256.ShapeCasts S256x256
  inb_S3x256_S1x256_0_0 : ∀ a, (![0, 0] : Fin 2 → Nat) a + S1x256.size a ≤ S3x256.size a
  h_S1x256 : 0 < S1x256.numel
  shapeCasts_S1x256_S256 : S1x256.ShapeCasts S256
  inb_S768x256_S256x256_256_0 : ∀ a, (![256, 0] : Fin 2 → Nat) a + S256x256.size a ≤ S768x256.size a
  inb_S3x256_S1x256_1_0 : ∀ a, (![1, 0] : Fin 2 → Nat) a + S1x256.size a ≤ S3x256.size a
  inb_S768x256_S256x256_512_0 : ∀ a, (![512, 0] : Fin 2 → Nat) a + S256x256.size a ≤ S768x256.size a
  inb_S3x256_S1x256_2_0 : ∀ a, (![2, 0] : Fin 2 → Nat) a + S1x256.size a ≤ S3x256.size a
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S4096x128 : S1x128.Broadcasts S4096x128
  shapeCasts_S524288x128_S1048576x64 : S524288x128.ShapeCasts S1048576x64
  scatter_S128x256_S2_S64x128_01_n_01_0_wf : ScatterDims.WF S128x256 S2 S64x128 [0, 1] [] [0, 1] 0
  scatter_S256x256_S2_S128x128_01_n_01_0_wf : ScatterDims.WF S256x256 S2 S128x128 [0, 1] [] [0, 1] 0
  scatter_S256x128_S2_S128x64_01_n_01_0_wf : ScatterDims.WF S256x128 S2 S128x64 [0, 1] [] [0, 1] 0
  dot_S4096x128_S128x256_S4096x256_1_0_0_1_n_n_wf : DotDims.WF S4096x128 S128x256 S4096x256 [1] [0] [0] [1] [] []
  dot_S4096x256_S256x256_S4096x256_1_0_0_1_n_n_wf : DotDims.WF S4096x256 S256x256 S4096x256 [1] [0] [0] [1] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S524288x128.size a
  hwx0_0 : ∀ i : grid0.Coords, EltTy.bits .f32 = 32 ∨ (Rect.block (s := S524288x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x256.size a ≤ S768x256.size a
  hwx0_3 : ∀ i : grid0.Coords, EltTy.bits .bf16 = 32 ∨ (Rect.block (s := S768x256) S768x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x256.size a ≤ S3x256.size a
  hwx0_4 : ∀ i : grid0.Coords, EltTy.bits .f32 = 32 ∨ (Rect.block (s := S3x256) S3x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x128.size a ≤ S524288x128.size a
  hwx0_7 : ∀ i : grid0.Coords, EltTy.bits .f32 = 32 ∨ (Rect.block (s := S524288x128) S4096x128.size (cc0_transform_7 i) (hinb0_7 i)).WholeWords (EltTy.packing .f32)

variable [Facts₀]

def scatter_S128x256_S2_S64x128_01_n_01_0 : ScatterDims S128x256 S2 S64x128 where
  updateWindowDims := [0, 1]
  insertedWindowDims := []
  scatterDimsToOperandDims := [0, 1]
  indexVectorDim := 0
  wf := scatter_S128x256_S2_S64x128_01_n_01_0_wf
def scatter_S256x256_S2_S128x128_01_n_01_0 : ScatterDims S256x256 S2 S128x128 where
  updateWindowDims := [0, 1]
  insertedWindowDims := []
  scatterDimsToOperandDims := [0, 1]
  indexVectorDim := 0
  wf := scatter_S256x256_S2_S128x128_01_n_01_0_wf
def scatter_S256x128_S2_S128x64_01_n_01_0 : ScatterDims S256x128 S2 S128x64 where
  updateWindowDims := [0, 1]
  insertedWindowDims := []
  scatterDimsToOperandDims := [0, 1]
  indexVectorDim := 0
  wf := scatter_S256x128_S2_S128x64_01_n_01_0_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_v64) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v61) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v49) S768x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v62) S3x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v60) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v63) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v65) S4096x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S128x64 : Shape := ⟨2, ![128, 64]⟩
abbrev S128 : Shape := ⟨1, ![128]⟩
abbrev S384x128 : Shape := ⟨2, ![384, 128]⟩
abbrev S3x128 : Shape := ⟨2, ![3, 128]⟩
abbrev S64x128 : Shape := ⟨2, ![64, 128]⟩
abbrev S64 : Shape := ⟨1, ![64]⟩
abbrev S3x128x128 : Shape := ⟨3, ![3, 128, 128]⟩
abbrev S1048576x128 : Shape := ⟨2, ![1048576, 128]⟩
abbrev S1x128 : Shape := ⟨2, ![1, 128]⟩
abbrev S_ : Shape := ⟨0, ![]⟩
abbrev S1x128x128 : Shape := ⟨3, ![1, 128, 128]⟩
abbrev S128x128 : Shape := ⟨2, ![128, 128]⟩
abbrev S1x64 : Shape := ⟨2, ![1, 64]⟩

abbrev nBuf : Space → Nat
  | .hbm => 52
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S128x64, .f32⟩
  | .hbm, ⟨2, _⟩ => ⟨S128, .f32⟩
  | .hbm, ⟨3, _⟩ => ⟨S384x128, .f32⟩
  | .hbm, ⟨4, _⟩ => ⟨S3x128, .f32⟩
  | .hbm, ⟨5, _⟩ => ⟨S64x128, .f32⟩
  | .hbm, ⟨6, _⟩ => ⟨S64, .f32⟩
  | .hbm, ⟨7, _⟩ => ⟨S3x128x128, .f32⟩
  | .hbm, ⟨8, _⟩ => ⟨S1048576x128, .f32⟩
  | .hbm, ⟨9, _⟩ => ⟨S1x128, .f32⟩
  | .hbm, ⟨10, _⟩ => ⟨S1048576x128, .f32⟩
  | .hbm, ⟨11, _⟩ => ⟨S1048576x128, .f32⟩
  | .hbm, ⟨12, _⟩ => ⟨S_, .f32⟩
  | .hbm, ⟨13, _⟩ => ⟨S1048576x128, .f32⟩
  | .hbm, ⟨14, _⟩ => ⟨S1048576x128, .f32⟩
  | .hbm, ⟨15, _⟩ => ⟨S1x128x128, .f32⟩
  | .hbm, ⟨16, _⟩ => ⟨S128x128, .f32⟩
  | .hbm, ⟨17, _⟩ => ⟨S1048576x128, .f32⟩
  | .hbm, ⟨18, _⟩ => ⟨S1x128, .f32⟩
  | .hbm, ⟨19, _⟩ => ⟨S128, .f32⟩
  | .hbm, ⟨20, _⟩ => ⟨S1x128, .f32⟩
  | .hbm, ⟨21, _⟩ => ⟨S1048576x128, .f32⟩
  | .hbm, ⟨22, _⟩ => ⟨S1048576x128, .f32⟩
  | .hbm, ⟨23, _⟩ => ⟨S_, .f32⟩
  | .hbm, ⟨24, _⟩ => ⟨S1048576x128, .f32⟩
  | .hbm, ⟨25, _⟩ => ⟨S1048576x128, .f32⟩
  | .hbm, ⟨26, _⟩ => ⟨S1x128x128, .f32⟩
  | .hbm, ⟨27, _⟩ => ⟨S128x128, .f32⟩
  | .hbm, ⟨28, _⟩ => ⟨S1048576x128, .f32⟩
  | .hbm, ⟨29, _⟩ => ⟨S1x128, .f32⟩
  | .hbm, ⟨30, _⟩ => ⟨S128, .f32⟩
  | .hbm, ⟨31, _⟩ => ⟨S1x128, .f32⟩
  | .hbm, ⟨32, _⟩ => ⟨S1048576x128, .f32⟩
  | .hbm, ⟨33, _⟩ => ⟨S1048576x128, .f32⟩
  | .hbm, ⟨34, _⟩ => ⟨S_, .f32⟩
  | .hbm, ⟨35, _⟩ => ⟨S1048576x128, .f32⟩
  | .hbm, ⟨36, _⟩ => ⟨S1048576x128, .f32⟩
  | .hbm, ⟨37, _⟩ => ⟨S1x128x128, .f32⟩
  | .hbm, ⟨38, _⟩ => ⟨S128x128, .f32⟩
  | .hbm, ⟨39, _⟩ => ⟨S1048576x128, .f32⟩
  | .hbm, ⟨40, _⟩ => ⟨S1x128, .f32⟩
  | .hbm, ⟨41, _⟩ => ⟨S128, .f32⟩
  | .hbm, ⟨42, _⟩ => ⟨S1x128, .f32⟩
  | .hbm, ⟨43, _⟩ => ⟨S1048576x128, .f32⟩
  | .hbm, ⟨44, _⟩ => ⟨S1048576x128, .f32⟩
  | .hbm, ⟨45, _⟩ => ⟨S_, .f32⟩
  | .hbm, ⟨46, _⟩ => ⟨S1048576x128, .f32⟩
  | .hbm, ⟨47, _⟩ => ⟨S1048576x128, .f32⟩
  | .hbm, ⟨48, _⟩ => ⟨S1048576x64, .f32⟩
  | .hbm, ⟨49, _⟩ => ⟨S1x64, .f32⟩
  | .hbm, ⟨50, _⟩ => ⟨S1048576x64, .f32⟩
  | .hbm, ⟨51, _⟩ => ⟨S1048576x64, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call1_cst : Ref sig .tc := ⟨.hbm, 23, rfl⟩
abbrev main_call1_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call2_cst : Ref sig .tc := ⟨.hbm, 34, rfl⟩
abbrev main_call2_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call3_cst : Ref sig .tc := ⟨.hbm, 45, rfl⟩
abbrev main_call3_v0 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]

class Facts₀ : Prop where
  shapeCasts_S384x128_S3x128x128 : S384x128.ShapeCasts S3x128x128
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  bcast_S_S1048576x128 : S_.BroadcastsInDim S1048576x128 (![] : Fin 0 → Fin S1048576x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  dot_S1048576x64_S128x64_S1048576x128_1_1_0_0_n_n_wf : DotDims.WF S1048576x64 S128x64 S1048576x128 [1] [1] [0] [0] [] []
  dot_S1048576x128_S128x128_S1048576x128_1_1_0_0_n_n_wf : DotDims.WF S1048576x128 S128x128 S1048576x128 [1] [1] [0] [0] [] []
  dot_S1048576x128_S64x128_S1048576x64_1_1_0_0_n_n_wf : DotDims.WF S1048576x128 S64x128 S1048576x64 [1] [1] [0] [0] [] []

variable [Facts₀]

def dot_S1048576x64_S128x64_S1048576x128_1_1_0_0_n_n : DotDims S1048576x64 S128x64 S1048576x128 where
  lhsContracting := [1]
  rhsContracting := [1]
  lhsNonContracting := [0]
  rhsNonContracting := [0]
  lhsBatch := []
  rhsBatch := []
  wf := dot_S1048576x64_S128x64_S1048576x128_1_1_0_0_n_n_wf
def dot_S1048576x128_S128x128_S1048576x128_1_1_0_0_n_n : DotDims S1048576x128 S128x128 S1048576x128 where
  lhsContracting := [1]
  rhsContracting := [1]
  lhsNonContracting := [0]
  rhsNonContracting := [0]
  lhsBatch := []
  rhsBatch := []
  wf := dot_S1048576x128_S128x128_S1048576x128_1_1_0_0_n_n_wf
def dot_S1048576x128_S64x128_S1048576x64_1_1_0_0_n_n : DotDims S1048576x128 S64x128 S1048576x64 where
  lhsContracting := [1]
  rhsContracting := [1]
  lhsNonContracting := [0]
  rhsNonContracting := [0]
  lhsBatch := []
  rhsBatch := []
  wf := dot_S1048576x128_S64x128_S1048576x64_1_1_0_0_n_n_wf

class Facts : Prop extends Facts₀ where

variable [Facts]
-- ==== Proof.K.Entry.lean ====
/-
  The contents of the TensorCore's buffers when the one region of the program is entered.

  The program is: ninety host operations (the block-diagonal weights, the doubled biases, the packed input), the
  region, one host operation (the reshape of the packed result). `V0 m c` is core `c`'s buffer contents after the
  ninety, as a fold of the operations over the launch memory `m`; `V m c b` reads it at a TensorCore reference.
  Both are kept folded everywhere: what an array holds is read off them one array at a time.
-/
import proofs.«174390_j25202868092982_2_alg».proof.Proof.Gen.Kernel.Launch

noncomputable section

namespace Cert.Kernel.Fr

open Idealize.ShloMosaic Idealize.ShloMosaic.TcCoe Idealize.SL.Sem
open Cert.Kernel Cert.Kernel.Gen

variable {F : FTy → Type} [FloatOps F]
variable (m : (ℓ : Loc nD τ sig) → Buf (Elt F) ℓ)

/-- Core `c`'s TensorCore buffer contents when the region is entered, as a valuation. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

end Cert.Kernel.Fr

end
-- ==== Proof.K.Host.lean ====
/-
  The host lines of the program around its one region.

  The program is ninety host operations, the region, one host operation. None of the ninety-one allocates a
  buffer, each writes exactly one buffer (its result), and no result buffer is an argument of the program: so the
  region finds every argument array as launched, and every argument array ends as launched. The one operation
  after the region (the reshape of the packed result) writes no array of the pipeline either.
-/
import proofs.«174390_j25202868092982_2_alg».proof.Proof.K.Entry
import Idealize.ShloMosaic.Lib.Pipeline.FrameBody
import Idealize.ShloMosaic.Lib.Pipeline.FrameSuffix
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## No host operation allocates -/

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## The program around the region -/

/-- The program at the variants `𝒱₀`: the host lines before the region, the region, the host line after it. It
    reduces to the region continued by the later line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches unscoped TensorCore buffers only: arrays of the pipeline or buffers that
    bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: it writes its own result, which is none of the eight. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-! ## The argument arrays when the region is entered, and at the end -/

set_option maxHeartbeats 4000000 in
/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

set_option maxHeartbeats 4000000 in
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

set_option maxHeartbeats 4000000 in
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

set_option maxHeartbeats 4000000 in
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

set_option maxHeartbeats 4000000 in
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

set_option maxHeartbeats 4000000 in
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

set_option maxHeartbeats 4000000 in
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- The host operation after the region does not write argument 0, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The host operation after the region does not write argument 1, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The host operation after the region does not write argument 2, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- The host operation after the region does not write argument 3, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- The host operation after the region does not write argument 4, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- The host operation after the region does not write argument 5, and no window stages it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- The host operation after the region does not write argument 6, and no window stages it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

end Cert.Kernel.Fr

end
-- ==== Proof.K.Body.lean ====
/-
  The kernel body of the one region, on whole staging buffers.

  The body reads its seven inputs through literal rectangles (the packed rows, the first weight, the first bias,
  the three stacked weights a block of 256 rows each, the three stacked biases a row each, the last weight, the
  last bias), computes, reads the output buffer once (the value is unused) and writes the whole output buffer
  once. So what it leaves in the output buffer is one piece covering it: the last payload over the loaded values.
-/
import proofs.«174390_j25202868092982_2_alg».proof.Proof.Gen.Kernel.Launch
import proofs.«174390_j25202868092982_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's rectangles -/

/-- The whole packed block of rows (the input block, and the output block). -/
abbrev rRows : Rect S4096x128 := Rect.unit (s := S4096x128) ![0, 0] S4096x128.size inb_S4096x128_S4096x128_0_0
/-- The whole first weight. -/
abbrev rW1 : Rect S128x256 := Rect.unit (s := S128x256) ![0, 0] S128x256.size inb_S128x256_S128x256_0_0
/-- The whole first bias. -/
abbrev rB1 : Rect S256 := Rect.unit (s := S256) ![0] S256.size inb_S256_S256_0
/-- The three stacked hidden weights: rows 0.., 256.., 512... -/
abbrev rWh0 : Rect S768x256 := Rect.unit (s := S768x256) ![0, 0] S256x256.size inb_S768x256_S256x256_0_0
abbrev rWh1 : Rect S768x256 := Rect.unit (s := S768x256) ![256, 0] S256x256.size inb_S768x256_S256x256_256_0
abbrev rWh2 : Rect S768x256 := Rect.unit (s := S768x256) ![512, 0] S256x256.size inb_S768x256_S256x256_512_0
/-- The three stacked hidden biases: rows 0, 1, 2. -/
abbrev rBh0 : Rect S3x256 := Rect.unit (s := S3x256) ![0, 0] S1x256.size inb_S3x256_S1x256_0_0
abbrev rBh1 : Rect S3x256 := Rect.unit (s := S3x256) ![1, 0] S1x256.size inb_S3x256_S1x256_1_0
abbrev rBh2 : Rect S3x256 := Rect.unit (s := S3x256) ![2, 0] S1x256.size inb_S3x256_S1x256_2_0
/-- The whole last weight. -/
abbrev rW5 : Rect S256x128 := Rect.unit (s := S256x128) ![0, 0] S256x128.size inb_S256x128_S256x128_0_0
/-- The whole last bias. -/
abbrev rB5 : Rect S128 := Rect.unit (s := S128) ![0] S128.size inb_S128_S128_0

/-! ## What the body leaves in the output buffer -/

/-- The output buffer after the body, from the seven input buffers' contents: its one store as a piece. -/
def out0_7 (x0 : Vec F S4096x128 .f32) (x1 : Vec F S128x256 .bf16) (x2 : Vec F S256 .f32) (x3 : Vec F S768x256 .bf16) (x4 : Vec F S3x256 .f32) (x5 : Vec F S256x128 .bf16) (x6 : Vec F S128 .f32) : Vec F S4096x128 .f32 :=
  View.canon [⟨rRows, k0_pay1 (k0_pay2 (View.ld x0 rRows) (View.ld x1 rW1) (View.ld x2 rB1) (View.ld x3 rWh0) (View.ld x4 rBh0) (View.ld x3 rWh1) (View.ld x4 rBh1)) (k0_pay3 (View.ld x3 rWh2)) (View.ld x4 rBh2) (View.ld x5 rW5) (View.ld x6 rB5)⟩]

/-- The one store is the whole buffer, so it covers it. -/
theorem cover0_7 (p0 : Vec F S4096x128 .f32) (y : S4096x128.Idx) :
    ∃ pc ∈ ([⟨rRows, p0⟩] : List (View.Piece (Elt F) S4096x128 .f32)), y ∈ pc.1.set :=
  View.cover_of_tiled [⟨rRows, p0⟩] S4096x128.size (by rfl) y

/-! ## The body's triple -/

set_option maxHeartbeats 4000000 in
/-- The kernel body on whole staging buffers, the inputs' at contents `x0 … x6` and the output's at anything, runs
    to the continuation holding the inputs' as they were and the output's at `out0_7` of the inputs'. -/
theorem sound_kernel (c : Dev nD) (E : Set ℕ) (i : grid0.Coords) (arg1 : Memref sig .tc .vmem S4096x128 .f32) (harg1 : arg1.IsWhole) (arg2 : Memref sig .tc .vmem S128x256 .bf16) (harg2 : arg2.IsWhole) (arg3 : Memref sig .tc .vmem S256 .f32) (harg3 : arg3.IsWhole) (arg4 : Memref sig .tc .vmem S768x256 .bf16) (harg4 : arg4.IsWhole) (arg5 : Memref sig .tc .vmem S3x256 .f32) (harg5 : arg5.IsWhole) (arg6 : Memref sig .tc .vmem S256x128 .bf16) (harg6 : arg6.IsWhole) (arg7 : Memref sig .tc .vmem S128 .f32) (harg7 : arg7.IsWhole) (arg8 : Memref sig .tc .vmem S4096x128 .f32) (harg8 : arg8.IsWhole)
    (x0 : Vec F S4096x128 .f32) (x1 : Vec F S128x256 .bf16) (x2 : Vec F S256 .f32) (x3 : Vec F S768x256 .bf16) (x4 : Vec F S3x256 .f32) (x5 : Vec F S256x128 .bf16) (x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__mlp_kernel_packed i arg1 harg1 arg2 harg2 arg3 harg3 arg4 harg4 arg5 harg5 arg6 harg6 arg7 harg7 arg8 harg8) K := by
  simp only [cc0__mlp_kernel_packed_eq_skeleton]; unfold cc0__mlp_kernel_packed_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover0_7 _)

end Cert.Kernel.Fr

end
-- ==== Proof.K.Frame.lean ====
/-
  The frame of the program: it runs, terminates without fault, and ends with its seven argument arrays as launched.

  The one region is a pipeline over 128 points with eight windows. Windows 0-6 are inputs: window 0 is the packed
  input blocked by rows, windows 1-6 (the weights and biases) have constant index maps, so each is fetched at the
  first point only and stays in its buffer. Window 7 is the result, written back at every point. The body reads its
  inputs through literal rectangles and writes the whole output block once, so the proof data is closed: each
  input's buffer holds its block (`iblk`), the output's holds `out0_7` of the input blocks. The body obligation at a
  generic point is the body's triple; the run is the library's run of a program with host lines on both sides of
  its region; and no host line writes an argument array.
-/
import proofs.«174390_j25202868092982_2_alg».proof.Proof.K.Host
import proofs.«174390_j25202868092982_2_alg».proof.Proof.K.Body
import proofs.«174390_j25202868092982_2_alg».proof.Proof.Gen.Kernel.Points

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof
    data whose array is the region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not, for any proof
    data whose array is the region-entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post, read at the
    seven argument arrays (none is staged by a window: each is left as the line after the region leaves it, which is
    as launched), is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c)⟩) h

/-! ## The pipeline's proof data -/

/-- The proof data of the pipeline on core `c`: the arrays as the region finds them; after the body at point `t`
    each input's buffer at its block and the output's at `out0_7` of the input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents (the definition projected, the fold never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 4000000 in
/-- The body at any point: the inputs' buffers hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the library theorem's implicit arguments are found by unifying its conclusion with this one, which takes unfolding
-- plain definitions in a metavariable's type
set_option backward.isDefEq.respectTransparency.types false in
/-- At the compiled mesh, for any values, from any memory with zero counters: every weakly fair execution of the
    program on the TensorCores terminates, and every final state has every array of the pipeline at what the library
    computes from the proof data and every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.Kernel.Fr.run_main' depends on axioms: [propext, Classical.choice, Quot.sound] -/
#guard_msgs in #print axioms run_main

/-- The frame: the program runs, and its seven argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Fr

end
-- ==== Proof.KI.Entry.lean ====
/-
  The contents of the TensorCore's buffers when the one region of the program is entered.

  The program is: ninety host operations (the block-diagonal weights, the doubled biases, the packed input), the
  region, one host operation (the reshape of the packed result). `V0 m c` is core `c`'s buffer contents after the
  ninety, as a fold of the operations over the launch memory `m`; `V m c b` reads it at a TensorCore reference.
  Both are kept folded everywhere: what an array holds is read off them one array at a time.
-/
import proofs.«174390_j25202868092982_2_alg».proof.Proof.Gen.KernelIdeal.Launch

noncomputable section

namespace Cert.KernelIdeal.Fr

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- Core `c`'s TensorCore buffer contents when the region is entered, as a valuation. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

end Cert.KernelIdeal.Fr

end
-- ==== Proof.KI.Host.lean ====
/-
  The host lines of the program around its one region.

  The program is ninety host operations, the region, one host operation. None of the ninety-one allocates a
  buffer, each writes exactly one buffer (its result), and no result buffer is an argument of the program: so the
  region finds every argument array as launched, and every argument array ends as launched. The one operation
  after the region (the reshape of the packed result) writes no array of the pipeline either.
-/
import proofs.«174390_j25202868092982_2_alg».proof.Proof.KI.Entry
import Idealize.ShloMosaic.Lib.Pipeline.FrameBody
import Idealize.ShloMosaic.Lib.Pipeline.FrameSuffix
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## No host operation allocates -/

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## The program around the region -/

/-- The program at the variants `𝒱₀`: the host lines before the region, the region, the host line after it. It
    reduces to the region continued by the later line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches unscoped TensorCore buffers only: arrays of the pipeline or buffers that
    bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: it writes its own result, which is none of the eight. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-! ## The argument arrays when the region is entered, and at the end -/

set_option maxHeartbeats 4000000 in
/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

set_option maxHeartbeats 4000000 in
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

set_option maxHeartbeats 4000000 in
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

set_option maxHeartbeats 4000000 in
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

set_option maxHeartbeats 4000000 in
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

set_option maxHeartbeats 4000000 in
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

set_option maxHeartbeats 4000000 in
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- The host operation after the region does not write argument 0, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The host operation after the region does not write argument 1, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The host operation after the region does not write argument 2, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- The host operation after the region does not write argument 3, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- The host operation after the region does not write argument 4, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- The host operation after the region does not write argument 5, and no window stages it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- The host operation after the region does not write argument 6, and no window stages it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

end Cert.KernelIdeal.Fr

end
-- ==== Proof.KI.Body.lean ====
/-
  The kernel body of the one region, on whole staging buffers.

  The body reads its seven inputs through literal rectangles (the packed rows, the first weight, the first bias,
  the three stacked weights a block of 256 rows each, the three stacked biases a row each, the last weight, the
  last bias), computes, reads the output buffer once (the value is unused) and writes the whole output buffer
  once. So what it leaves in the output buffer is one piece covering it: the last payload over the loaded values.
-/
import proofs.«174390_j25202868092982_2_alg».proof.Proof.Gen.KernelIdeal.Launch
import proofs.«174390_j25202868092982_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's rectangles -/

/-- The whole packed block of rows (the input block, and the output block). -/
abbrev rRows : Rect S4096x128 := Rect.unit (s := S4096x128) ![0, 0] S4096x128.size inb_S4096x128_S4096x128_0_0
/-- The whole first weight. -/
abbrev rW1 : Rect S128x256 := Rect.unit (s := S128x256) ![0, 0] S128x256.size inb_S128x256_S128x256_0_0
/-- The whole first bias. -/
abbrev rB1 : Rect S256 := Rect.unit (s := S256) ![0] S256.size inb_S256_S256_0
/-- The three stacked hidden weights: rows 0.., 256.., 512... -/
abbrev rWh0 : Rect S768x256 := Rect.unit (s := S768x256) ![0, 0] S256x256.size inb_S768x256_S256x256_0_0
abbrev rWh1 : Rect S768x256 := Rect.unit (s := S768x256) ![256, 0] S256x256.size inb_S768x256_S256x256_256_0
abbrev rWh2 : Rect S768x256 := Rect.unit (s := S768x256) ![512, 0] S256x256.size inb_S768x256_S256x256_512_0
/-- The three stacked hidden biases: rows 0, 1, 2. -/
abbrev rBh0 : Rect S3x256 := Rect.unit (s := S3x256) ![0, 0] S1x256.size inb_S3x256_S1x256_0_0
abbrev rBh1 : Rect S3x256 := Rect.unit (s := S3x256) ![1, 0] S1x256.size inb_S3x256_S1x256_1_0
abbrev rBh2 : Rect S3x256 := Rect.unit (s := S3x256) ![2, 0] S1x256.size inb_S3x256_S1x256_2_0
/-- The whole last weight. -/
abbrev rW5 : Rect S256x128 := Rect.unit (s := S256x128) ![0, 0] S256x128.size inb_S256x128_S256x128_0_0
/-- The whole last bias. -/
abbrev rB5 : Rect S128 := Rect.unit (s := S128) ![0] S128.size inb_S128_S128_0

/-! ## What the body leaves in the output buffer -/

/-- The output buffer after the body, from the seven input buffers' contents: its one store as a piece. -/
def out0_7 (x0 : Vec F S4096x128 .f32) (x1 : Vec F S128x256 .bf16) (x2 : Vec F S256 .f32) (x3 : Vec F S768x256 .bf16) (x4 : Vec F S3x256 .f32) (x5 : Vec F S256x128 .bf16) (x6 : Vec F S128 .f32) : Vec F S4096x128 .f32 :=
  View.canon [⟨rRows, k0_pay1 (k0_pay2 (View.ld x0 rRows) (View.ld x1 rW1) (View.ld x2 rB1) (View.ld x3 rWh0) (View.ld x4 rBh0) (View.ld x3 rWh1) (View.ld x4 rBh1)) (k0_pay3 (View.ld x3 rWh2)) (View.ld x4 rBh2) (View.ld x5 rW5) (View.ld x6 rB5)⟩]

/-- The one store is the whole buffer, so it covers it. -/
theorem cover0_7 (p0 : Vec F S4096x128 .f32) (y : S4096x128.Idx) :
    ∃ pc ∈ ([⟨rRows, p0⟩] : List (View.Piece (Elt F) S4096x128 .f32)), y ∈ pc.1.set :=
  View.cover_of_tiled [⟨rRows, p0⟩] S4096x128.size (by rfl) y

/-! ## The body's triple -/

set_option maxHeartbeats 4000000 in
/-- The kernel body on whole staging buffers, the inputs' at contents `x0 … x6` and the output's at anything, runs
    to the continuation holding the inputs' as they were and the output's at `out0_7` of the inputs'. -/
theorem sound_kernel (c : Dev nD) (E : Set ℕ) (i : grid0.Coords) (arg1 : Memref sig .tc .vmem S4096x128 .f32) (harg1 : arg1.IsWhole) (arg2 : Memref sig .tc .vmem S128x256 .bf16) (harg2 : arg2.IsWhole) (arg3 : Memref sig .tc .vmem S256 .f32) (harg3 : arg3.IsWhole) (arg4 : Memref sig .tc .vmem S768x256 .bf16) (harg4 : arg4.IsWhole) (arg5 : Memref sig .tc .vmem S3x256 .f32) (harg5 : arg5.IsWhole) (arg6 : Memref sig .tc .vmem S256x128 .bf16) (harg6 : arg6.IsWhole) (arg7 : Memref sig .tc .vmem S128 .f32) (harg7 : arg7.IsWhole) (arg8 : Memref sig .tc .vmem S4096x128 .f32) (harg8 : arg8.IsWhole)
    (x0 : Vec F S4096x128 .f32) (x1 : Vec F S128x256 .bf16) (x2 : Vec F S256 .f32) (x3 : Vec F S768x256 .bf16) (x4 : Vec F S3x256 .f32) (x5 : Vec F S256x128 .bf16) (x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__mlp_kernel_packed i arg1 harg1 arg2 harg2 arg3 harg3 arg4 harg4 arg5 harg5 arg6 harg6 arg7 harg7 arg8 harg8) K := by
  simp only [cc0__mlp_kernel_packed_eq_skeleton]; unfold cc0__mlp_kernel_packed_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover0_7 _)

end Cert.KernelIdeal.Fr

end
-- ==== Proof.KI.Frame.lean ====
/-
  The frame of the program: it runs, terminates without fault, and ends with its seven argument arrays as launched.

  The one region is a pipeline over 128 points with eight windows. Windows 0-6 are inputs: window 0 is the packed
  input blocked by rows, windows 1-6 (the weights and biases) have constant index maps, so each is fetched at the
  first point only and stays in its buffer. Window 7 is the result, written back at every point. The body reads its
  inputs through literal rectangles and writes the whole output block once, so the proof data is closed: each
  input's buffer holds its block (`iblk`), the output's holds `out0_7` of the input blocks. The body obligation at a
  generic point is the body's triple; the run is the library's run of a program with host lines on both sides of
  its region; and no host line writes an argument array.
-/
import proofs.«174390_j25202868092982_2_alg».proof.Proof.KI.Host
import proofs.«174390_j25202868092982_2_alg».proof.Proof.KI.Body
import proofs.«174390_j25202868092982_2_alg».proof.Proof.Gen.KernelIdeal.Points

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof
    data whose array is the region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not, for any proof
    data whose array is the region-entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post, read at the
    seven argument arrays (none is staged by a window: each is left as the line after the region leaves it, which is
    as launched), is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c)⟩) h

/-! ## The pipeline's proof data -/

/-- The proof data of the pipeline on core `c`: the arrays as the region finds them; after the body at point `t`
    each input's buffer at its block and the output's at `out0_7` of the input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents (the definition projected, the fold never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 4000000 in
/-- The body at any point: the inputs' buffers hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the library theorem's implicit arguments are found by unifying its conclusion with this one, which takes unfolding
-- plain definitions in a metavariable's type
set_option backward.isDefEq.respectTransparency.types false in
/-- At the compiled mesh, for any values, from any memory with zero counters: every weakly fair execution of the
    program on the TensorCores terminates, and every final state has every array of the pipeline at what the library
    computes from the proof data and every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.KernelIdeal.Fr.run_main' depends on axioms: [propext, Classical.choice, Quot.sound] -/
#guard_msgs in #print axioms run_main

/-- The frame: the program runs, and its seven argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Fr

end
-- ==== Proof.Spec.lean ====
/-
  What both programs compute, as one function of the argument arrays over the extended reals, and the algebra that
  joins the two arrangements of it.

  The network: an input layer 64 → 128, three hidden layers 128 → 128 and an output layer 128 → 64, each layer
  `y h = (∑ k, v k · w h k) + b h` (weights stored one ROW per output unit), the first four followed by
  `max · 0`. `mlp … n o` is output unit `o` for sample `n`.

  The packed arrangement: two samples share one row — sample `2p` in the low half of row `p`, sample `2p + 1` in
  the high half — and every weight matrix is replaced by the block-diagonal matrix carrying two copies of its
  transpose, every bias by two copies of itself. A sum over the doubled axis is the sum over its low half plus
  the sum over its high half (`sum_two_halves`); against a block-diagonal matrix one of the two is a sum of
  products with zero, which vanishes on the extended reals whatever the other factor is (`x · 0 = 0` also at
  `±∞`), so each half of a packed row goes through the layer as its own sample does (`pdense_lo`, `pdense_hi`).
  No finiteness is used anywhere.
-/
import Idealize.ShloMosaic.PureOps.Ideal

noncomputable section

namespace Cert.Mlp

open scoped BigOperators

/-! ## The network -/

/-- One layer before its activation: output unit `h`, from the activations `v`, the weight rows `w` and the bias `b`. -/
def dense {K H : Nat} (v : Fin K → EReal) (w : Fin H → Fin K → EReal) (b : Fin H → EReal) (h : Fin H) : EReal :=
  (∑ k : Fin K, v k * w h k) + b h

/-- The activation. -/
def relu (z : EReal) : EReal := max z 0

/-- The three hidden layers' weights are stacked by rows: unit `h` of hidden layer `l` is row `128 l + h`. -/
def hidRow (l : Fin 3) (h : Fin 128) : Fin 384 := ⟨128 * l.val + h.val, by have := l.isLt; have := h.isLt; omega⟩

section Net
variable (x : Fin 1048576 → Fin 64 → EReal) (wIn : Fin 128 → Fin 64 → EReal) (bIn : Fin 128 → EReal)
  (wHid : Fin 384 → Fin 128 → EReal) (bHid : Fin 3 → Fin 128 → EReal)
  (wOut : Fin 64 → Fin 128 → EReal) (bOut : Fin 64 → EReal)

/-- Hidden layer `l`'s weight rows. -/
def hidW (l : Fin 3) (h k : Fin 128) : EReal := wHid (hidRow l h) k

/-- Sample `n` after the input layer. -/
def act0 (n : Fin 1048576) (h : Fin 128) : EReal := relu (dense (x n) wIn bIn h)
/-- … after the first, second and third hidden layer. -/
def act1 (n : Fin 1048576) (h : Fin 128) : EReal := relu (dense (act0 x wIn bIn n) (hidW wHid 0) (bHid 0) h)
def act2 (n : Fin 1048576) (h : Fin 128) : EReal := relu (dense (act1 x wIn bIn wHid bHid n) (hidW wHid 1) (bHid 1) h)
def act3 (n : Fin 1048576) (h : Fin 128) : EReal := relu (dense (act2 x wIn bIn wHid bHid n) (hidW wHid 2) (bHid 2) h)
/-- The network: output unit `o` for sample `n` (no activation after the last layer). -/
def mlp (n : Fin 1048576) (o : Fin 64) : EReal := dense (act3 x wIn bIn wHid bHid n) wOut bOut o

end Net

/-! ## Two copies on one axis -/

/-- Position `d` of the low copy on an axis of two copies of length `K`. -/
def lo {K K2 : Nat} (h2 : K + K = K2) (d : Fin K) : Fin K2 := ⟨d.val, by have := d.isLt; omega⟩
/-- Position `d` of the high copy. -/
def hi {K K2 : Nat} (h2 : K + K = K2) (d : Fin K) : Fin K2 := ⟨K + d.val, by have := d.isLt; omega⟩

theorem lo_val {K K2 : Nat} (h2 : K + K = K2) (d : Fin K) : (lo h2 d).val = d.val := rfl
theorem hi_val {K K2 : Nat} (h2 : K + K = K2) (d : Fin K) : (hi h2 d).val = K + d.val := rfl

/-- Every position on the doubled axis is in the low copy or in the high copy. -/
theorem lo_or_hi {K K2 : Nat} (h2 : K + K = K2) (k : Fin K2) : (∃ d, k = lo h2 d) ∨ (∃ d, k = hi h2 d) := by
  by_cases h : k.val < K
  · exact Or.inl ⟨⟨k.val, h⟩, Fin.ext rfl⟩
  · exact Or.inr ⟨⟨k.val - K, by have := k.isLt; omega⟩, Fin.ext (by show k.val = K + (k.val - K); omega)⟩

/-- A sum over the doubled axis is the sum over the low copy plus the sum over the high copy. -/
theorem sum_two_halves {K K2 : Nat} (h2 : K + K = K2) (f : Fin K2 → EReal) :
    ∑ k : Fin K2, f k = (∑ d : Fin K, f (lo h2 d)) + ∑ d : Fin K, f (hi h2 d) := by
  subst h2
  rw [Fin.sum_univ_add]
  rfl

/-- The sample the low (`s = 0`) or high (`s = 1`) half of packed row `p` holds. -/
def smp (p : Fin 524288) (s : Fin 2) : Fin 1048576 := ⟨2 * p.val + s.val, by have := p.isLt; have := s.isLt; omega⟩

/-! ## A layer on a packed row -/

/-- One layer as the packed program spells it: column `j` of the staged matrix `W` (one ROW per input) against the
    row `v`, plus the staged bias. -/
def pdense {K H : Nat} (v : Fin K → EReal) (W : Fin K → Fin H → EReal) (bb : Fin H → EReal) (j : Fin H) : EReal :=
  (∑ k : Fin K, v k * W k j) + bb j

/-- On the low half of the outputs a block-diagonal matrix sees only the low half of the inputs. -/
theorem pdense_lo {K H K2 H2 : Nat} (hK : K + K = K2) (hH : H + H = H2) (v : Fin K2 → EReal)
    (W : Fin K2 → Fin H2 → EReal) (bb : Fin H2 → EReal) (w : Fin H → Fin K → EReal) (b : Fin H → EReal)
    (hll : ∀ d h, W (lo hK d) (lo hH h) = w h d) (hhl : ∀ d h, W (hi hK d) (lo hH h) = 0)
    (hb : ∀ h, bb (lo hH h) = b h) (h : Fin H) :
    pdense v W bb (lo hH h) = dense (fun d => v (lo hK d)) w b h := by
  unfold pdense dense
  rw [sum_two_halves hK]
  simp only [hll, hhl, hb, mul_zero, Finset.sum_const_zero, add_zero]

/-- On the high half of the outputs it sees only the high half of the inputs. -/
theorem pdense_hi {K H K2 H2 : Nat} (hK : K + K = K2) (hH : H + H = H2) (v : Fin K2 → EReal)
    (W : Fin K2 → Fin H2 → EReal) (bb : Fin H2 → EReal) (w : Fin H → Fin K → EReal) (b : Fin H → EReal)
    (hhh : ∀ d h, W (hi hK d) (hi hH h) = w h d) (hlh : ∀ d h, W (lo hK d) (hi hH h) = 0)
    (hb : ∀ h, bb (hi hH h) = b h) (h : Fin H) :
    pdense v W bb (hi hH h) = dense (fun d => v (hi hK d)) w b h := by
  unfold pdense dense
  rw [sum_two_halves hK]
  simp only [hhh, hlh, hb, mul_zero, Finset.sum_const_zero, zero_add]

end Cert.Mlp

end
-- ==== Proof.KI.Args.lean ====
/-
  The argument arrays as the program is launched with them, read as functions of literal coordinates: the form in
  which the specification (`Cert.Mlp.mlp`) takes them.
-/
import proofs.«174390_j25202868092982_2_alg».proof.Proof.KI.Entry
import proofs.«174390_j25202868092982_2_alg».proof.Proof.Spec
import Idealize.ShloMosaic.Lib.ValueIdx

noncomputable section

namespace Cert.KernelIdeal.Fr

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-- The samples, one row each. -/
abbrev argX : Fin 1048576 → Fin 64 → EReal := fun n d => (m ((c : Thread nD τ).loc main_arg0) : S1048576x64.Idx → EReal) (ix2 n d)
/-- The input layer's weights (one row per unit) and bias. -/
abbrev argWIn : Fin 128 → Fin 64 → EReal := fun h d => (m ((c : Thread nD τ).loc main_arg1) : S128x64.Idx → EReal) (ix2 h d)
abbrev argBIn : Fin 128 → EReal := fun h => (m ((c : Thread nD τ).loc main_arg2) : S128.Idx → EReal) (ix1 h)
/-- The three hidden layers' weights, stacked by rows, and their biases, one row per layer. -/
abbrev argWHid : Fin 384 → Fin 128 → EReal := fun r k => (m ((c : Thread nD τ).loc main_arg3) : S384x128.Idx → EReal) (ix2 r k)
abbrev argBHid : Fin 3 → Fin 128 → EReal := fun l h => (m ((c : Thread nD τ).loc main_arg4) : S3x128.Idx → EReal) (ix2 l h)
/-- The output layer's weights and bias. -/
abbrev argWOut : Fin 64 → Fin 128 → EReal := fun o k => (m ((c : Thread nD τ).loc main_arg5) : S64x128.Idx → EReal) (ix2 o k)
abbrev argBOut : Fin 64 → EReal := fun o => (m ((c : Thread nD τ).loc main_arg6) : S64.Idx → EReal) (ix1 o)

/-- Row `k` of hidden layer `l`'s block in the staged stack of three 256-row blocks. -/
def hrow (l : Fin 3) (k : Fin 256) : Fin 768 := ⟨256 * l.val + k.val, by have := l.isLt; have := k.isLt; omega⟩

theorem hrow_val (l : Fin 3) (k : Fin 256) : (hrow l k).val = 256 * l.val + k.val := rfl

/-- The two halves of an axis of 128 = 64 + 64, and of 256 = 128 + 128. -/
abbrev lo64 : Fin 64 → Fin 128 := Cert.Mlp.lo (K := 64) (K2 := 128) rfl
abbrev hi64 : Fin 64 → Fin 128 := Cert.Mlp.hi (K := 64) (K2 := 128) rfl
abbrev lo128 : Fin 128 → Fin 256 := Cert.Mlp.lo (K := 128) (K2 := 256) rfl
abbrev hi128 : Fin 128 → Fin 256 := Cert.Mlp.hi (K := 128) (K2 := 256) rfl

end Cert.KernelIdeal.Fr

end
-- ==== Proof.KI.Tail.lean ====
/-
  After the region: the program's result buffer and its argument arrays at the end of the run.

  The one host operation after the region reshapes the packed result array [524288,128] into the result
  [1048576,64]: row 2p + s of the result is the half s (columns 64 s ..) of packed row p. So once the packed result
  array's final contents are known as one function G, the result buffer is the reshape of G, read coordinate by
  coordinate below; and the seven argument arrays end as launched.
-/
import proofs.«174390_j25202868092982_2_alg».proof.Proof.KI.Frame
import proofs.«174390_j25202868092982_2_alg».proof.Proof.KI.Args
import Idealize.ShloMosaic.Lib.Pipeline.Value
import Idealize.ShloMosaic.Lib.ValueIdx
import Idealize.ShloMosaic.Lib.StableHlo.Run

noncomputable section

namespace Cert.KernelIdeal.Val

open Cert.KernelIdeal Cert.KernelIdeal.Gen Cert.KernelIdeal.Fr Cert.Mlp
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The program's result buffer after the run's host tail is the reshape of the packed result array. -/
theorem tail_eq (c : Dev nD) (G : S524288x128.Idx → EReal) (hfin : ((dats m 0 c).arrAt 7 cfg0.N : S524288x128.Idx → EReal) = G) :
    (Pipeline.afterTail₀ cfgs (dats m) 0 (V0 m) [hostOps1] c main_v66 : S1048576x64.Idx → EReal) = shapeCast S1048576x64 G shapeCasts_S524288x128_S1048576x64 := by
  unfold Pipeline.afterTail₀
  show StableHlo.after hostOps1 _ (Proc.devRef .tc main_v66) = _
  after_results
  have hw := (Pipeline.withArrays_arr spec0 launch0.win.arr_inj c (V0 m c) (fun w => (dats m 0 c).arrAt w (cfgs 0).N) 7).trans hfin
  funext i
  exact congrArg (fun X : S524288x128.Idx → EReal => shapeCast S1048576x64 X shapeCasts_S524288x128_S1048576x64 i) hw

/-- Row `n = 2p + s`, column `o` of the [1048576,64] reshape is row `p`, column `64 s + o` of the packed array: the
    low half. -/
theorem unpack_lo (G : S524288x128.Idx → EReal) (p : Fin 524288) (o : Fin 64) :
    (shapeCast S1048576x64 G shapeCasts_S524288x128_S1048576x64 : S1048576x64.Idx → EReal) (ix2 (smp p 0) o) = G (ix2 p (lo64 o)) := by
  refine shapeCast_apply G shapeCasts_S524288x128_S1048576x64 (ix2 (smp p 0) o) (ix2 p (lo64 o)) ?_
  rewrite [Shape.rowMajor_val_two, Shape.rowMajor_val_two]
  have hp : p.val < 524288 := p.isLt
  have ho : o.val < 64 := o.isLt
  show p.val * 128 + o.val = (2 * p.val + 0) * 64 + o.val
  omega

/-- The same for the high half. -/
theorem unpack_hi (G : S524288x128.Idx → EReal) (p : Fin 524288) (o : Fin 64) :
    (shapeCast S1048576x64 G shapeCasts_S524288x128_S1048576x64 : S1048576x64.Idx → EReal) (ix2 (smp p 1) o) = G (ix2 p (hi64 o)) := by
  refine shapeCast_apply G shapeCasts_S524288x128_S1048576x64 (ix2 (smp p 1) o) (ix2 p (hi64 o)) ?_
  rewrite [Shape.rowMajor_val_two, Shape.rowMajor_val_two]
  have hp : p.val < 524288 := p.isLt
  have ho : o.val < 64 := o.isLt
  show p.val * 128 + (64 + o.val) = (2 * p.val + 1) * 64 + o.val
  omega

/-- Every row of the result is a half of a packed row. -/
theorem smp_surj (n : Fin 1048576) : ∃ (p : Fin 524288) (s : Fin 2), n = smp p s := by
  have hn : n.val < 1048576 := n.isLt
  refine ⟨⟨n.val / 2, by omega⟩, ⟨n.val % 2, by omega⟩, Fin.ext ?_⟩
  show n.val = 2 * (n.val / 2) + n.val % 2
  omega

/-- The run, re-posted: the result buffer at the reshape of `G`, the seven arguments as launched. -/
theorem run_of (G : (c : Dev nD) → S524288x128.Idx → EReal) (hfin : ∀ c, ((dats m 0 c).arrAt 7 cfg0.N : S524288x128.Idx → EReal) = G c) :
    θ_run defs (onTc (τ := τ) (main (F := Ideal))) ⟨m, fun _ => 0, ρ⟩ (fun r => ∀ c : Dev nD,
      r.2.mem ((c.tc : Thread nD τ).loc main_v66) = (shapeCast S1048576x64 (G c) shapeCasts_S524288x128_S1048576x64 : S1048576x64.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨((h c).2 main_v66 (Pipeline.mem_restRefs_of main_v66 (by decide) (by decide))).trans (tail_eq m c (G c) (hfin c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Val

end
-- ==== Proof.KI.Blocks.lean ====
/-
  The kernel's result as one function of the arrays the region stages.

  The region's grid has 128 points; point `t` is handed rows `4096 t … 4096 t + 4095` of the packed input and the
  whole of each staged weight and bias, and writes back rows `4096 t …` of the packed result. The body puts every
  one of its 4096 rows through the five packed layers, so what point `t` writes back is block `t` of ONE function
  `G` of the staged arrays — row `p`, column `j` of `G` is the packed row `p` of the input through the five
  layers, read at column `j` — and since the 128 blocks tile the result array, the array ends holding `G`.
  This module reads the blocks (which element of which staged array a position of a block is) and the body's
  eleven loads (the three hidden layers' weights are three row blocks of one staged array, their biases its
  three rows).
-/
import proofs.«174390_j25202868092982_2_alg».proof.Proof.KI.Frame
import proofs.«174390_j25202868092982_2_alg».proof.Proof.KI.Args
import Idealize.ShloMosaic.Lib.Pipeline.Value
import Idealize.ShloMosaic.Lib.ValueIdx

noncomputable section

namespace Cert.KernelIdeal.Val

open Cert.KernelIdeal Cert.KernelIdeal.Gen Cert.KernelIdeal.Fr Cert.Mlp
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The staged arrays at literal coordinates -/

/-- Packed row `p` of the input. -/
abbrev sX (c : Dev nD) (p : Fin 524288) : Fin 128 → EReal := fun k => (V m c main_v64 : S524288x128.Idx → EReal) (ix2 p k)
/-- The first layer's staged weight and bias. -/
abbrev sW1 (c : Dev nD) : Fin 128 → Fin 256 → EReal := fun k j => (V m c main_v10 : S128x256.Idx → EReal) (ix2 k j)
abbrev sB1 (c : Dev nD) : Fin 256 → EReal := fun j => (V m c main_v61 : S256.Idx → EReal) (ix1 j)
/-- Hidden layer `l`'s staged weight (rows `256 l …` of the stack) and bias (row `l`). -/
abbrev sWH (c : Dev nD) (l : Fin 3) : Fin 256 → Fin 256 → EReal := fun k j => (V m c main_v49 : S768x256.Idx → EReal) (ix2 (hrow l k) j)
abbrev sBH (c : Dev nD) (l : Fin 3) : Fin 256 → EReal := fun j => (V m c main_v62 : S3x256.Idx → EReal) (ix2 l j)
/-- The last layer's staged weight and bias. -/
abbrev sW5 (c : Dev nD) : Fin 256 → Fin 128 → EReal := fun k j => (V m c main_v60 : S256x128.Idx → EReal) (ix2 k j)
abbrev sB5 (c : Dev nD) : Fin 128 → EReal := fun j => (V m c main_v63 : S128.Idx → EReal) (ix1 j)

/-! ## The index maps, decided over the grid -/

/-- The input's and the result's blocks move with the point along the rows; every other window stays at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- The packed row a block row is: row `r` of point `t`'s block is row `4096 t + r`. -/
def prowOf (t : Fin cfg0.N) (r : Fin 4096) : Fin 524288 :=
  ⟨4096 * t.val + r.val, by have h : t.val < 128 := lt_of_lt_of_eq t.isLt N_0; have := r.isLt; omega⟩

theorem prowOf_val (t : Fin cfg0.N) (r : Fin 4096) : (prowOf t r).val = 4096 * t.val + r.val := rfl

/-! ## The input blocks -/

/-- Point `t`'s block of the packed input is rows `4096 t …` of it. -/
theorem iblk0_apply (c : Dev nD) (t : Fin cfg0.N) (r : Fin 4096) (k : Fin 128) :
    (iblk m c 0 t : Vec Ideal S4096x128 .f32) (ix2 r k) = sX m c (prowOf t r) k := by
  obtain ⟨e0, e1, -⟩ := idx_facts t
  unfold iblk
  rw [View.read_apply]
  show (V m c main_v64 : S524288x128.Idx → EReal) _ = (V m c main_v64 : S524288x128.Idx → EReal) _
  refine congrArg (V m c main_v64 : S524288x128.Idx → EReal) ?_
  funext a
  apply Fin.ext
  match a with
  | ⟨0, _⟩ => show win0_0.index t (0 : Fin 2) * 4096 + 1 * r.val = 4096 * t.val + r.val; omega
  | ⟨1, _⟩ => show win0_0.index t (1 : Fin 2) * 128 + 1 * k.val = k.val; omega

/-- Every other input window's block is its whole array, at every point. -/
theorem iblk1_apply (c : Dev nD) (t : Fin cfg0.N) (k : Fin 128) (j : Fin 256) :
    (iblk m c 1 t : Vec Ideal S128x256 .bf16) (ix2 k j) = sW1 m c k j := by
  obtain ⟨-, -, e0, e1, -⟩ := idx_facts t
  unfold iblk
  rw [View.read_apply]
  show (V m c main_v10 : S128x256.Idx → EReal) _ = (V m c main_v10 : S128x256.Idx → EReal) _
  refine congrArg (V m c main_v10 : S128x256.Idx → EReal) ?_
  funext a
  apply Fin.ext
  match a with
  | ⟨0, _⟩ => show win0_1.index t (0 : Fin 2) * 128 + 1 * k.val = k.val; omega
  | ⟨1, _⟩ => show win0_1.index t (1 : Fin 2) * 256 + 1 * j.val = j.val; omega

theorem iblk2_apply (c : Dev nD) (t : Fin cfg0.N) (j : Fin 256) :
    (iblk m c 2 t : Vec Ideal S256 .f32) (ix1 j) = sB1 m c j := by
  obtain ⟨-, -, -, -, e0, -⟩ := idx_facts t
  unfold iblk
  rw [View.read_apply]
  show (V m c main_v61 : S256.Idx → EReal) _ = (V m c main_v61 : S256.Idx → EReal) _
  refine congrArg (V m c main_v61 : S256.Idx → EReal) ?_
  funext a
  apply Fin.ext
  match a with
  | ⟨0, _⟩ => show win0_2.index t (0 : Fin 1) * 256 + 1 * j.val = j.val; omega

theorem iblk3_apply (c : Dev nD) (t : Fin cfg0.N) (r : Fin 768) (j : Fin 256) :
    (iblk m c 3 t : Vec Ideal S768x256 .bf16) (ix2 r j) = (V m c main_v49 : S768x256.Idx → EReal) (ix2 r j) := by
  obtain ⟨-, -, -, -, -, e0, e1, -⟩ := idx_facts t
  unfold iblk
  rw [View.read_apply]
  show (V m c main_v49 : S768x256.Idx → EReal) _ = (V m c main_v49 : S768x256.Idx → EReal) _
  refine congrArg (V m c main_v49 : S768x256.Idx → EReal) ?_
  funext a
  apply Fin.ext
  match a with
  | ⟨0, _⟩ => show win0_3.index t (0 : Fin 2) * 768 + 1 * r.val = r.val; omega
  | ⟨1, _⟩ => show win0_3.index t (1 : Fin 2) * 256 + 1 * j.val = j.val; omega

theorem iblk4_apply (c : Dev nD) (t : Fin cfg0.N) (l : Fin 3) (j : Fin 256) :
    (iblk m c 4 t : Vec Ideal S3x256 .f32) (ix2 l j) = sBH m c l j := by
  obtain ⟨-, -, -, -, -, -, -, e0, e1, -⟩ := idx_facts t
  unfold iblk
  rw [View.read_apply]
  show (V m c main_v62 : S3x256.Idx → EReal) _ = (V m c main_v62 : S3x256.Idx → EReal) _
  refine congrArg (V m c main_v62 : S3x256.Idx → EReal) ?_
  funext a
  apply Fin.ext
  match a with
  | ⟨0, _⟩ => show win0_4.index t (0 : Fin 2) * 3 + 1 * l.val = l.val; omega
  | ⟨1, _⟩ => show win0_4.index t (1 : Fin 2) * 256 + 1 * j.val = j.val; omega

theorem iblk5_apply (c : Dev nD) (t : Fin cfg0.N) (k : Fin 256) (j : Fin 128) :
    (iblk m c 5 t : Vec Ideal S256x128 .bf16) (ix2 k j) = sW5 m c k j := by
  obtain ⟨-, -, -, -, -, -, -, -, -, e0, e1, -⟩ := idx_facts t
  unfold iblk
  rw [View.read_apply]
  show (V m c main_v60 : S256x128.Idx → EReal) _ = (V m c main_v60 : S256x128.Idx → EReal) _
  refine congrArg (V m c main_v60 : S256x128.Idx → EReal) ?_
  funext a
  apply Fin.ext
  match a with
  | ⟨0, _⟩ => show win0_5.index t (0 : Fin 2) * 256 + 1 * k.val = k.val; omega
  | ⟨1, _⟩ => show win0_5.index t (1 : Fin 2) * 128 + 1 * j.val = j.val; omega

theorem iblk6_apply (c : Dev nD) (t : Fin cfg0.N) (j : Fin 128) :
    (iblk m c 6 t : Vec Ideal S128 .f32) (ix1 j) = sB5 m c j := by
  obtain ⟨-, -, -, -, -, -, -, -, -, -, -, e0, -⟩ := idx_facts t
  unfold iblk
  rw [View.read_apply]
  show (V m c main_v63 : S128.Idx → EReal) _ = (V m c main_v63 : S128.Idx → EReal) _
  refine congrArg (V m c main_v63 : S128.Idx → EReal) ?_
  funext a
  apply Fin.ext
  match a with
  | ⟨0, _⟩ => show win0_6.index t (0 : Fin 1) * 128 + 1 * j.val = j.val; omega

/-! ## The body's loads -/

/-- The load of hidden layer `l`'s weight reads rows `256 l …` of the staged stack. -/
theorem ldWh0 (x3 : Vec Ideal S768x256 .bf16) (k j : Fin 256) : View.ld x3 rWh0 (ix2 k j) = x3 (ix2 (hrow 0 k) j) := by
  show x3 _ = x3 _
  refine congrArg x3 ?_
  funext a
  apply Fin.ext
  match a with
  | ⟨0, _⟩ => show 0 + 1 * k.val = 256 * 0 + k.val; omega
  | ⟨1, _⟩ => show 0 + 1 * j.val = j.val; omega
theorem ldWh1 (x3 : Vec Ideal S768x256 .bf16) (k j : Fin 256) : View.ld x3 rWh1 (ix2 k j) = x3 (ix2 (hrow 1 k) j) := by
  show x3 _ = x3 _
  refine congrArg x3 ?_
  funext a
  apply Fin.ext
  match a with
  | ⟨0, _⟩ => show 256 + 1 * k.val = 256 * 1 + k.val; omega
  | ⟨1, _⟩ => show 0 + 1 * j.val = j.val; omega
theorem ldWh2 (x3 : Vec Ideal S768x256 .bf16) (k j : Fin 256) : View.ld x3 rWh2 (ix2 k j) = x3 (ix2 (hrow 2 k) j) := by
  show x3 _ = x3 _
  refine congrArg x3 ?_
  funext a
  apply Fin.ext
  match a with
  | ⟨0, _⟩ => show 512 + 1 * k.val = 256 * 2 + k.val; omega
  | ⟨1, _⟩ => show 0 + 1 * j.val = j.val; omega

/-- The load of hidden layer `l`'s bias reads row `l` of the staged stack. -/
theorem ldBh0 (x4 : Vec Ideal S3x256 .f32) (j : Fin 256) : View.ld x4 rBh0 (ix2 (0 : Fin 1) j) = x4 (ix2 (0 : Fin 3) j) := by
  show x4 _ = x4 _
  refine congrArg x4 ?_
  funext a
  apply Fin.ext
  match a with
  | ⟨0, _⟩ => rfl
  | ⟨1, _⟩ => show 0 + 1 * j.val = j.val; omega
theorem ldBh1 (x4 : Vec Ideal S3x256 .f32) (j : Fin 256) : View.ld x4 rBh1 (ix2 (0 : Fin 1) j) = x4 (ix2 (1 : Fin 3) j) := by
  show x4 _ = x4 _
  refine congrArg x4 ?_
  funext a
  apply Fin.ext
  match a with
  | ⟨0, _⟩ => rfl
  | ⟨1, _⟩ => show 0 + 1 * j.val = j.val; omega
theorem ldBh2 (x4 : Vec Ideal S3x256 .f32) (j : Fin 256) : View.ld x4 rBh2 (ix2 (0 : Fin 1) j) = x4 (ix2 (2 : Fin 3) j) := by
  show x4 _ = x4 _
  refine congrArg x4 ?_
  funext a
  apply Fin.ext
  match a with
  | ⟨0, _⟩ => rfl
  | ⟨1, _⟩ => show 0 + 1 * j.val = j.val; omega

theorem hz2 : (![0, 0] : Fin 2 → Nat) = fun _ => 0 := funext fun a => by fin_cases a <;> rfl
theorem hz1 : (![0] : Fin 1 → Nat) = fun _ => 0 := funext fun a => by fin_cases a <;> rfl

end Cert.KernelIdeal.Val

end
-- ==== Proof.KI.Payload.lean ====
/-
  The kernel body's stored value read at one position of the output block, over the extended reals.

  The body is five layers. Each layer rounds its input to the narrower format (the identity on the extended reals),
  multiplies it by a staged weight matrix into a zero accumulator (at an output position the sum, over the
  contracted axis, of the products of the input row and the weight column), adds a bias row repeated over all
  rows, and — every layer but the last — takes the maximum with zero. Read at row `r` and column `j` this is
  `pdense` of the previous layer's row `r`, the weight matrix and the bias, under `relu` for the first four.
-/
import proofs.«174390_j25202868092982_2_alg».proof.Proof.Gen.KernelIdeal.Skeleton
import proofs.«174390_j25202868092982_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.Mlp
open scoped BigOperators

/-! ## The product `[4096, 128] × [128, 256]` at a position -/

/-- The left operand's index keeps the output row … -/
theorem mmIn_lhs0 (i : S4096x256.Idx) (q : dot_S4096x128_S128x256_S4096x256_1_0_0_1_n_n.contr.Idx) :
    (dot_S4096x128_S128x256_S4096x256_1_0_0_1_n_n.lhsIdx i q 0).val = (i 0).val := by
  unfold DotDims.lhsIdx
  rw [dif_neg (show ¬(0 : Fin S4096x128.rank) ∈ dot_S4096x128_S128x256_S4096x256_1_0_0_1_n_n.lhsBatch by decide), dif_pos (show (0 : Fin S4096x128.rank) ∈ dot_S4096x128_S128x256_S4096x256_1_0_0_1_n_n.lhsNonContracting by decide)]
  rfl
/-- … and takes the contraction coordinate on its second axis. -/
theorem mmIn_lhs1 (i : S4096x256.Idx) (q : dot_S4096x128_S128x256_S4096x256_1_0_0_1_n_n.contr.Idx) :
    (dot_S4096x128_S128x256_S4096x256_1_0_0_1_n_n.lhsIdx i q 1).val = (q ⟨0, by decide⟩).val :=
  dot_S4096x128_S128x256_S4096x256_1_0_0_1_n_n.lhsIdx_val_of_single rfl i q
/-- The right operand's index takes the contraction coordinate on its first axis … -/
theorem mmIn_rhs0 (i : S4096x256.Idx) (q : dot_S4096x128_S128x256_S4096x256_1_0_0_1_n_n.contr.Idx) :
    (dot_S4096x128_S128x256_S4096x256_1_0_0_1_n_n.rhsIdx i q 0).val = (q ⟨0, by decide⟩).val :=
  dot_S4096x128_S128x256_S4096x256_1_0_0_1_n_n.rhsIdx_val_of_single rfl i q
/-- … and keeps the output column. -/
theorem mmIn_rhs1 (i : S4096x256.Idx) (q : dot_S4096x128_S128x256_S4096x256_1_0_0_1_n_n.contr.Idx) :
    (dot_S4096x128_S128x256_S4096x256_1_0_0_1_n_n.rhsIdx i q 1).val = (i 1).val := by
  unfold DotDims.rhsIdx
  rw [dif_neg (show ¬(1 : Fin S128x256.rank) ∈ dot_S4096x128_S128x256_S4096x256_1_0_0_1_n_n.rhsBatch by decide), dif_pos (show (1 : Fin S128x256.rank) ∈ dot_S4096x128_S128x256_S4096x256_1_0_0_1_n_n.rhsNonContracting by decide)]
  rfl

/-- Into the zero accumulator, position `(r, j)` of the product is the sum over `k` of the left operand at `(r, k)`
    times the right operand at `(k, j)`. -/
theorem mmIn_apply (A : FVec Ideal S4096x128 .bf16) (W : FVec Ideal S128x256 .bf16) (r : Fin 4096) (j : Fin 256) :
    matmul dot_S4096x128_S128x256_S4096x256_1_0_0_1_n_n none A W (constant S4096x256 .f32 0x00000000#32) (ix2 r j)
      = ∑ k : Fin 128, A (ix2 r k) * W (ix2 k j) := by
  refine (Ideal.matmul_constant_zero_apply dot_S4096x128_S128x256_S4096x256_1_0_0_1_n_n none A W (ix2 r j)).trans ?_
  rw [← Equiv.sum_comp (contrEquiv1 dot_S4096x128_S128x256_S4096x256_1_0_0_1_n_n 128 rfl rfl).symm]
  refine Finset.sum_congr rfl fun k _ => ?_
  have hk := contrEquiv1_symm_val dot_S4096x128_S128x256_S4096x256_1_0_0_1_n_n 128 rfl rfl k
  have el : dot_S4096x128_S128x256_S4096x256_1_0_0_1_n_n.lhsIdx (ix2 r j) ((contrEquiv1 dot_S4096x128_S128x256_S4096x256_1_0_0_1_n_n 128 rfl rfl).symm k) = ix2 r k := funext fun a => Fin.ext (by
    match a with
    | ⟨0, _⟩ => exact mmIn_lhs0 _ _
    | ⟨1, _⟩ => exact (mmIn_lhs1 _ _).trans hk)
  have er : dot_S4096x128_S128x256_S4096x256_1_0_0_1_n_n.rhsIdx (ix2 r j) ((contrEquiv1 dot_S4096x128_S128x256_S4096x256_1_0_0_1_n_n 128 rfl rfl).symm k) = ix2 k j := funext fun a => Fin.ext (by
    match a with
    | ⟨0, _⟩ => exact (mmIn_rhs0 _ _).trans hk
    | ⟨1, _⟩ => exact mmIn_rhs1 _ _)
  rw [el, er]

/-! ## The product `[4096, 256] × [256, 256]` at a position -/

/-- The left operand's index keeps the output row … -/
theorem mmHid_lhs0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
/-- … and takes the contraction coordinate on its second axis. -/
theorem mmHid_lhs1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
/-- The right operand's index takes the contraction coordinate on its first axis … -/
theorem mmHid_rhs0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
/-- … and keeps the output column. -/
theorem mmHid_rhs1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- Into the zero accumulator, position `(r, j)` of the product is the sum over `k` of the left operand at `(r, k)`
    times the right operand at `(k, j)`. -/
theorem mmHid_apply (A : FVec Ideal S4096x256 .bf16) (W : FVec Ideal S256x256 .bf16) (r : Fin 4096) (j : Fin 256) :
    matmul dot_S4096x256_S256x256_S4096x256_1_0_0_1_n_n none A W (constant S4096x256 .f32 0x00000000#32) (ix2 r j)
      = ∑ k : Fin 256, A (ix2 r k) * W (ix2 k j) := by
  refine (Ideal.matmul_constant_zero_apply dot_S4096x256_S256x256_S4096x256_1_0_0_1_n_n none A W (ix2 r j)).trans ?_
  rw [← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 r j) ((contrEquiv1 dot_S4096x256_S256x256_S4096x256_1_0_0_1_n_n 256 rfl rfl).symm k) = ix2 r k := funext fun a => Fin.ext (by
    match a with
    | ⟨0, _⟩ => exact mmHid_lhs0 _ _
    | ⟨1, _⟩ => exact (mmHid_lhs1 _ _).trans hk)
  have er : dot_S4096x256_S256x256_S4096x256_1_0_0_1_n_n.rhsIdx (ix2 r j) ((contrEquiv1 dot_S4096x256_S256x256_S4096x256_1_0_0_1_n_n 256 rfl rfl).symm k) = ix2 k j := funext fun a => Fin.ext (by
    match a with
    | ⟨0, _⟩ => exact (mmHid_rhs0 _ _).trans hk
    | ⟨1, _⟩ => exact mmHid_rhs1 _ _)
  rw [el, er]

/-! ## The product `[4096, 256] × [256, 128]` at a position -/

/-- The left operand's index keeps the output row … -/
theorem mmOut_lhs0 (i : S4096x128.Idx) (q : dot_S4096x256_S256x128_S4096x128_1_0_0_1_n_n.contr.Idx) :
    (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide), dif_pos (show (0 : Fin S4096x256.rank) ∈ dot_S4096x256_S256x128_S4096x128_1_0_0_1_n_n.lhsNonContracting by decide)]
  rfl
/-- … and takes the contraction coordinate on its second axis. -/
theorem mmOut_lhs1 (i : S4096x128.Idx) (q : dot_S4096x256_S256x128_S4096x128_1_0_0_1_n_n.contr.Idx) :
    (dot_S4096x256_S256x128_S4096x128_1_0_0_1_n_n.lhsIdx i q 1).val = (q ⟨0, by decide⟩).val :=
  dot_S4096x256_S256x128_S4096x128_1_0_0_1_n_n.lhsIdx_val_of_single rfl i q
/-- The right operand's index takes the contraction coordinate on its first axis … -/
theorem mmOut_rhs0 (i : S4096x128.Idx) (q : dot_S4096x256_S256x128_S4096x128_1_0_0_1_n_n.contr.Idx) :
    (dot_S4096x256_S256x128_S4096x128_1_0_0_1_n_n.rhsIdx i q 0).val = (q ⟨0, by decide⟩).val :=
  dot_S4096x256_S256x128_S4096x128_1_0_0_1_n_n.rhsIdx_val_of_single rfl i q
/-- … and keeps the output column. -/
theorem mmOut_rhs1 (i : S4096x128.Idx) (q : dot_S4096x256_S256x128_S4096x128_1_0_0_1_n_n.contr.Idx) :
    (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide), dif_pos (show (1 : Fin S256x128.rank) ∈ dot_S4096x256_S256x128_S4096x128_1_0_0_1_n_n.rhsNonContracting by decide)]
  rfl

/-- Into the zero accumulator, position `(r, j)` of the product is the sum over `k` of the left operand at `(r, k)`
    times the right operand at `(k, j)`. -/
theorem mmOut_apply (A : FVec Ideal S4096x256 .bf16) (W : FVec Ideal S256x128 .bf16) (r : Fin 4096) (j : Fin 128) :
    matmul dot_S4096x256_S256x128_S4096x128_1_0_0_1_n_n none A W (constant S4096x128 .f32 0x00000000#32) (ix2 r j)
      = ∑ k : Fin 256, A (ix2 r k) * W (ix2 k j) := by
  refine (Ideal.matmul_constant_zero_apply dot_S4096x256_S256x128_S4096x128_1_0_0_1_n_n none A W (ix2 r j)).trans ?_
  rw [← Equiv.sum_comp (contrEquiv1 dot_S4096x256_S256x128_S4096x128_1_0_0_1_n_n 256 rfl rfl).symm]
  refine Finset.sum_congr rfl fun k _ => ?_
  have hk := contrEquiv1_symm_val dot_S4096x256_S256x128_S4096x128_1_0_0_1_n_n 256 rfl rfl k
  have el : dot_S4096x256_S256x128_S4096x128_1_0_0_1_n_n.lhsIdx (ix2 r j) ((contrEquiv1 dot_S4096x256_S256x128_S4096x128_1_0_0_1_n_n 256 rfl rfl).symm k) = ix2 r k := funext fun a => Fin.ext (by
    match a with
    | ⟨0, _⟩ => exact mmOut_lhs0 _ _
    | ⟨1, _⟩ => exact (mmOut_lhs1 _ _).trans hk)
  have er : dot_S4096x256_S256x128_S4096x128_1_0_0_1_n_n.rhsIdx (ix2 r j) ((contrEquiv1 dot_S4096x256_S256x128_S4096x128_1_0_0_1_n_n 256 rfl rfl).symm k) = ix2 k j := funext fun a => Fin.ext (by
    match a with
    | ⟨0, _⟩ => exact (mmOut_rhs0 _ _).trans hk
    | ⟨1, _⟩ => exact mmOut_rhs1 _ _)
  rw [el, er]

/-! ## The pieces of a layer at a position -/

/-- The maximum with the broadcast zero word is `relu`. -/
theorem relu_apply {s : Shape} (x : FVec Ideal s .f32) (i : s.Idx) :
    maximumf x (broadcast s (Scalar.ofBits (F := Ideal) .f32 0x00000000#32)) i = relu (x i) := by
  show max (x i) (Ideal.ofBits .f32 0x00000000#32) = max (x i) 0
  rw [Ideal.ofBits_zero_f32]

/-- A bias vector of length `n`, given a unit leading axis and repeated over `m` rows, reads its entry `j` at `(r, j)`. -/
theorem biasVec_apply {m n : ℕ} (b : (⟨1, ![n]⟩ : Shape).Idx → EReal) (h : (⟨1, ![n]⟩ : Shape).ShapeCasts ⟨2, ![1, n]⟩)
    (h' : (⟨2, ![1, n]⟩ : Shape).Broadcasts ⟨2, ![m, n]⟩) (r : Fin m) (j : Fin n) :
    broadcastTo ⟨2, ![m, n]⟩ (shapeCast ⟨2, ![1, n]⟩ b h) h' (ix2 r j) = b (ix1 j) :=
  (broadcastTo_1b_ab_apply _ h' r j).trans (shapeCast_a_1a_apply b h 0 j)

/-- A bias row `[1, n]`, flattened, given its unit axis back and repeated over `m` rows, reads its entry `(0, j)` at `(r, j)`. -/
theorem biasRow_apply {m n : ℕ} (b : (⟨2, ![1, n]⟩ : Shape).Idx → EReal) (h₀ : (⟨2, ![1, n]⟩ : Shape).ShapeCasts ⟨1, ![n]⟩)
    (h : (⟨1, ![n]⟩ : Shape).ShapeCasts ⟨2, ![1, n]⟩)
    (h' : (⟨2, ![1, n]⟩ : Shape).Broadcasts ⟨2, ![m, n]⟩) (r : Fin m) (j : Fin n) :
    broadcastTo ⟨2, ![m, n]⟩ (shapeCast ⟨2, ![1, n]⟩ (shapeCast ⟨1, ![n]⟩ b h₀) h) h' (ix2 r j) = b (ix2 (0 : Fin 1) j) :=
  (biasVec_apply _ h h' r j).trans (shapeCast_1a_a_apply b h₀ j)

/-! ## The layers at a position -/

/-- The input layer before its activation. -/
theorem layerIn_apply (a : FVec Ideal S4096x128 .f32) (W : Vec Ideal S128x256 .bf16) (b : Vec Ideal S256 .f32)
    (r : Fin 4096) (j : Fin 256) :
    addf (matmul dot_S4096x128_S128x256_S4096x256_1_0_0_1_n_n none (truncf .bf16 a bitsLt_bf16_f32)
        (shapeCast S128x256 W shapeCasts_S128x256_S128x256 : FVec Ideal S128x256 .bf16) (constant S4096x256 .f32 0x00000000#32))
      (broadcastTo S4096x256 (shapeCast S1x256 (shapeCast S256 b shapeCasts_S256_S256) shapeCasts_S256_S1x256)
        broadcasts_S1x256_S4096x256) (ix2 r j)
      = pdense (fun k => a (ix2 r k)) (fun k j => W (ix2 k j)) (fun j => b (ix1 j)) j := by
  rw [shapeCast_self, shapeCast_self]
  refine congrArg₂ (· + ·) ?_ ?_
  · exact mmIn_apply _ _ r j
  · exact biasVec_apply b _ _ r j

/-- A hidden layer before its activation, its weight block already in place. -/
theorem layerHid_apply (a : FVec Ideal S4096x256 .f32) (W : FVec Ideal S256x256 .bf16) (b : Vec Ideal S1x256 .f32)
    (r : Fin 4096) (j : Fin 256) :
    addf (matmul dot_S4096x256_S256x256_S4096x256_1_0_0_1_n_n none (truncf .bf16 a bitsLt_bf16_f32)
        W (constant S4096x256 .f32 0x00000000#32))
      (broadcastTo S4096x256 (shapeCast S1x256 (shapeCast S256 b shapeCasts_S1x256_S256) shapeCasts_S256_S1x256)
        broadcasts_S1x256_S4096x256) (ix2 r j)
      = pdense (fun k => a (ix2 r k)) (fun k j => W (ix2 k j)) (fun j => b (ix2 (0 : Fin 1) j)) j := by
  refine congrArg₂ (· + ·) ?_ ?_
  · exact mmHid_apply _ _ r j
  · exact biasRow_apply b _ _ _ r j

/-- The output layer (no activation after it). -/
theorem layerOut_apply (a : FVec Ideal S4096x256 .f32) (W : Vec Ideal S256x128 .bf16) (b : Vec Ideal S128 .f32)
    (r : Fin 4096) (j : Fin 128) :
    addf (matmul dot_S4096x256_S256x128_S4096x128_1_0_0_1_n_n none (truncf .bf16 a bitsLt_bf16_f32)
        (shapeCast S256x128 W shapeCasts_S256x128_S256x128 : FVec Ideal S256x128 .bf16) (constant S4096x128 .f32 0x00000000#32))
      (broadcastTo S4096x128 (shapeCast S1x128 (shapeCast S128 b shapeCasts_S128_S128) shapeCasts_S128_S1x128)
        broadcasts_S1x128_S4096x128) (ix2 r j)
      = pdense (fun k => a (ix2 r k)) (fun k j => W (ix2 k j)) (fun j => b (ix1 j)) j := by
  rw [shapeCast_self, shapeCast_self]
  refine congrArg₂ (· + ·) ?_ ?_
  · exact mmOut_apply _ _ r j
  · exact biasVec_apply b _ _ r j

/-- A hidden layer before its activation, its weight block cast to its own shape first. -/
theorem layerHidC_apply (a : FVec Ideal S4096x256 .f32) (W : Vec Ideal S256x256 .bf16) (b : Vec Ideal S1x256 .f32)
    (r : Fin 4096) (j : Fin 256) :
    addf (matmul dot_S4096x256_S256x256_S4096x256_1_0_0_1_n_n none (truncf .bf16 a bitsLt_bf16_f32)
        (shapeCast S256x256 W shapeCasts_S256x256_S256x256 : FVec Ideal S256x256 .bf16) (constant S4096x256 .f32 0x00000000#32))
      (broadcastTo S4096x256 (shapeCast S1x256 (shapeCast S256 b shapeCasts_S1x256_S256) shapeCasts_S256_S1x256)
        broadcasts_S1x256_S4096x256) (ix2 r j)
      = pdense (fun k => a (ix2 r k)) (fun k j => W (ix2 k j)) (fun j => b (ix2 (0 : Fin 1) j)) j := by
  rw [shapeCast_self]
  exact layerHid_apply a W b r j

/-! ## The stored value at a position -/

/-- The value the body stores, read at row `r` and column `j`: the five layers applied to row `r` of the input block. -/
theorem pay_at (v0 : Vec Ideal S4096x128 .f32) (v3 : Vec Ideal S128x256 .bf16) (v6 : Vec Ideal S256 .f32)
    (v13 v24 v35 : Vec Ideal S256x256 .bf16) (v15 v26 v37 : Vec Ideal S1x256 .f32) (v47 : Vec Ideal S256x128 .bf16)
    (v50 : Vec Ideal S128 .f32) (r : Fin 4096) (j : Fin 128) :
    k0_pay1 (F := Ideal) (k0_pay2 v0 v3 v6 v13 v15 v24 v26) (k0_pay3 v35) v37 v47 v50 (ix2 r j)
      = pdense (fun k => relu (pdense (fun k => relu (pdense (fun k => relu (pdense (fun k => relu (pdense
            (fun k : Fin 128 => v0 (ix2 r k)) (fun (k : Fin 128) (j : Fin 256) => v3 (ix2 k j)) (fun j : Fin 256 => v6 (ix1 j)) k))
            (fun (k : Fin 256) (j : Fin 256) => v13 (ix2 k j)) (fun j : Fin 256 => v15 (ix2 (0 : Fin 1) j)) k))
            (fun (k : Fin 256) (j : Fin 256) => v24 (ix2 k j)) (fun j : Fin 256 => v26 (ix2 (0 : Fin 1) j)) k))
            (fun (k : Fin 256) (j : Fin 256) => v35 (ix2 k j)) (fun j : Fin 256 => v37 (ix2 (0 : Fin 1) j)) k))
          (fun (k : Fin 256) (j : Fin 128) => v47 (ix2 k j)) (fun j : Fin 128 => v50 (ix1 j)) j := by
  have e3 : k0_pay3 (F := Ideal) v35 = v35 := shapeCast_self v35 _
  rw [e3]
  unfold k0_pay1
  refine (layerOut_apply _ v47 v50 r j).trans ?_
  refine congrArg (fun f => pdense f _ _ j) (funext fun k4 => ?_)
  refine (relu_apply _ _).trans (congrArg relu ?_)
  refine (layerHid_apply _ v35 v37 r k4).trans ?_
  refine congrArg (fun f => pdense f _ _ k4) (funext fun k3 => ?_)
  unfold k0_pay2
  refine (relu_apply _ _).trans (congrArg relu ?_)
  refine (layerHidC_apply _ v24 v26 r k3).trans ?_
  refine congrArg (fun f => pdense f _ _ k3) (funext fun k2 => ?_)
  refine (relu_apply _ _).trans (congrArg relu ?_)
  refine (layerHidC_apply _ v13 v15 r k2).trans ?_
  refine congrArg (fun f => pdense f _ _ k2) (funext fun k1 => ?_)
  refine (relu_apply _ _).trans (congrArg relu ?_)
  rw [shapeCast_self]
  exact layerIn_apply v0 v3 v6 r k1

end Cert.KernelIdeal.Pay

end
-- ==== Proof.KI.Final.lean ====
/-
  The packed result array after the region, as one function of the staged arrays.

  `G m c` at row `p`, column `j`: packed row `p` of the input through the five packed layers — four times a
  product with a staged weight plus a staged bias followed by `max · 0`, then a last product plus bias — read at
  column `j`. Point `t` of the grid writes back what the body stored, and the body's stored value at a block
  position is exactly that expression of the body's loads; the loads are the staged arrays at explicit positions,
  so what point `t` writes back is block `t` of `G`. Row `p` lies in the block of point `p / 4096`: the blocks
  cover the array, and the array ends holding `G`.
-/
import proofs.«174390_j25202868092982_2_alg».proof.Proof.KI.Blocks
import proofs.«174390_j25202868092982_2_alg».proof.Proof.KI.Payload

noncomputable section

namespace Cert.KernelIdeal.Val

open Cert.KernelIdeal Cert.KernelIdeal.Gen Cert.KernelIdeal.Fr Cert.Mlp
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The packed result: row `i 0` of the packed input through the five packed layers, at column `i 1`. -/
def G (c : Dev nD) : S524288x128.Idx → EReal := fun i =>
  pdense (fun k => relu (pdense (fun k => relu (pdense (fun k => relu (pdense (fun k => relu (pdense
      (sX m c (i 0)) (sW1 m c) (sB1 m c) k)) (sWH m c 0) (sBH m c 0) k)) (sWH m c 1) (sBH m c 1) k))
      (sWH m c 2) (sBH m c 2) k)) (sW5 m c) (sB5 m c) (i 1)

/-- Two packed layers agree at a column when their rows, their matrices' entries and their biases do. -/
theorem pdense_congr {K H : Nat} {v v' : Fin K → EReal} {W W' : Fin K → Fin H → EReal} {bb bb' : Fin H → EReal}
    (hv : ∀ k, v k = v' k) (hW : ∀ k j, W k j = W' k j) (hb : ∀ j, bb j = bb' j) (j : Fin H) :
    pdense v W bb j = pdense v' W' bb' j := by
  unfold pdense
  rw [hb j]
  refine congrArg (· + bb' j) ?_
  exact Finset.sum_congr rfl fun k _ => by rw [hv k, hW k j]

/-! ## The body's eleven loads, at point `t`, as the staged arrays -/

theorem L0 (c : Dev nD) (t : Fin cfg0.N) (r : Fin 4096) (k : Fin 128) :
    View.ld (iblk m c 0 t : Vec Ideal S4096x128 .f32) rRows (ix2 r k) = sX m c (prowOf t r) k :=
  (congrFun (View.ld_unit_zero (S := S4096x128) hz2 inb_S4096x128_S4096x128_0_0 (iblk m c 0 t : Vec Ideal S4096x128 .f32)) (ix2 r k)).trans
    (iblk0_apply m c t r k)
theorem L1 (c : Dev nD) (t : Fin cfg0.N) (k : Fin 128) (j : Fin 256) :
    View.ld (iblk m c 1 t : Vec Ideal S128x256 .bf16) rW1 (ix2 k j) = sW1 m c k j :=
  (congrFun (View.ld_unit_zero (S := S128x256) hz2 inb_S128x256_S128x256_0_0 (iblk m c 1 t : Vec Ideal S128x256 .bf16)) (ix2 k j)).trans
    (iblk1_apply m c t k j)
theorem L2 (c : Dev nD) (t : Fin cfg0.N) (j : Fin 256) :
    View.ld (iblk m c 2 t : Vec Ideal S256 .f32) rB1 (ix1 j) = sB1 m c j :=
  (congrFun (View.ld_unit_zero (S := S256) hz1 inb_S256_S256_0 (iblk m c 2 t : Vec Ideal S256 .f32)) (ix1 j)).trans
    (iblk2_apply m c t j)
theorem L3a (c : Dev nD) (t : Fin cfg0.N) (k j : Fin 256) :
    View.ld (iblk m c 3 t : Vec Ideal S768x256 .bf16) rWh0 (ix2 k j) = sWH m c 0 k j :=
  (ldWh0 _ k j).trans (iblk3_apply m c t (hrow 0 k) j)
theorem L3b (c : Dev nD) (t : Fin cfg0.N) (k j : Fin 256) :
    View.ld (iblk m c 3 t : Vec Ideal S768x256 .bf16) rWh1 (ix2 k j) = sWH m c 1 k j :=
  (ldWh1 _ k j).trans (iblk3_apply m c t (hrow 1 k) j)
theorem L3c (c : Dev nD) (t : Fin cfg0.N) (k j : Fin 256) :
    View.ld (iblk m c 3 t : Vec Ideal S768x256 .bf16) rWh2 (ix2 k j) = sWH m c 2 k j :=
  (ldWh2 _ k j).trans (iblk3_apply m c t (hrow 2 k) j)
theorem L4a (c : Dev nD) (t : Fin cfg0.N) (j : Fin 256) :
    View.ld (iblk m c 4 t : Vec Ideal S3x256 .f32) rBh0 (ix2 (0 : Fin 1) j) = sBH m c 0 j :=
  (ldBh0 _ j).trans (iblk4_apply m c t 0 j)
theorem L4b (c : Dev nD) (t : Fin cfg0.N) (j : Fin 256) :
    View.ld (iblk m c 4 t : Vec Ideal S3x256 .f32) rBh1 (ix2 (0 : Fin 1) j) = sBH m c 1 j :=
  (ldBh1 _ j).trans (iblk4_apply m c t 1 j)
theorem L4c (c : Dev nD) (t : Fin cfg0.N) (j : Fin 256) :
    View.ld (iblk m c 4 t : Vec Ideal S3x256 .f32) rBh2 (ix2 (0 : Fin 1) j) = sBH m c 2 j :=
  (ldBh2 _ j).trans (iblk4_apply m c t 2 j)
theorem L5 (c : Dev nD) (t : Fin cfg0.N) (k : Fin 256) (j : Fin 128) :
    View.ld (iblk m c 5 t : Vec Ideal S256x128 .bf16) rW5 (ix2 k j) = sW5 m c k j :=
  (congrFun (View.ld_unit_zero (S := S256x128) hz2 inb_S256x128_S256x128_0_0 (iblk m c 5 t : Vec Ideal S256x128 .bf16)) (ix2 k j)).trans
    (iblk5_apply m c t k j)
theorem L6 (c : Dev nD) (t : Fin cfg0.N) (j : Fin 128) :
    View.ld (iblk m c 6 t : Vec Ideal S128 .f32) rB5 (ix1 j) = sB5 m c j :=
  (congrFun (View.ld_unit_zero (S := S128) hz1 inb_S128_S128_0 (iblk m c 6 t : Vec Ideal S128 .f32)) (ix1 j)).trans
    (iblk6_apply m c t j)

/-- What point `t` writes back is block `t` of `G`. -/
theorem flushed_eq (c : Dev nD) (t : Fin cfg0.N) :
    (dats m 0 c).flushed 7 t = ((cfg0.win 7).blk t).view.read (Elt Ideal) (G m c) := by
  obtain ⟨-, -, -, -, -, -, -, -, -, -, -, -, e0, e1⟩ := idx_facts t
  show (cfg0.win 7).cut (grid0.coords t) ((dats m 0 c).after 7 t) = _
  rw [after0_7]
  unfold out0_7
  rw [View.canon_unit_zero hz2]
  refine funext fun (y : S4096x128.Idx) => ?_
  obtain ⟨r, j, rfl⟩ : ∃ (r : Fin 4096) (j : Fin 128), y = ix2 r j := ⟨y 0, y 1, eq_ix2 y⟩
  rw [View.read_apply]
  have hemb : ((cfg0.win 7).blk t).view.emb (ix2 r j) = ix2 (prowOf t r) j := by
    funext a
    apply Fin.ext
    match a with
    | ⟨0, _⟩ => show win0_7.index t (0 : Fin 2) * 4096 + 1 * r.val = 4096 * t.val + r.val; omega
    | ⟨1, _⟩ => show win0_7.index t (1 : Fin 2) * 128 + 1 * j.val = j.val; omega
  rw [hemb]
  refine (Cert.KernelIdeal.Pay.pay_at _ _ _ _ _ _ _ _ _ _ _ r j).trans ?_
  show _ = G m c (ix2 (prowOf t r) j)
  unfold G
  exact pdense_congr (fun k => congrArg relu (pdense_congr (fun k => congrArg relu (pdense_congr (fun k =>
      congrArg relu (pdense_congr (fun k => congrArg relu (pdense_congr
        (fun k => L0 m c t r k) (fun k j => L1 m c t k j) (fun j => L2 m c t j) k))
        (fun k j => L3a m c t k j) (fun j => L4a m c t j) k))
        (fun k j => L3b m c t k j) (fun j => L4b m c t j) k))
        (fun k j => L3c m c t k j) (fun j => L4c m c t j) k))
    (fun k j => L5 m c t k j) (fun j => L6 m c t j) j

/-- An index of the result array is in point `t`'s block iff each coordinate is in the block's range. -/
theorem mem_blk (t : Fin cfg0.N) (i : S524288x128.Idx) :
    i ∈ ((cfg0.win 7).blk t).view.set ↔ ∀ a : Fin 2, win0_7.index t a * S4096x128.size a ≤ (i a).val
      ∧ (i a).val < win0_7.index t a * S4096x128.size a + S4096x128.size a := by
  show i ∈ ((View.whole main_v65).slice (win0_7.rect t)).set ↔ _
  rw [View.set_slice_whole, Rect.mem_set_unit]
  exact Iff.rfl

/-- Row `p` is in the block of point `p / 4096`: the blocks cover the array. -/
theorem cover (i : S524288x128.Idx) :
    ∃ t : Fin cfg0.N, (cfg0.win 7).flush t = true ∧ i ∈ ((cfg0.win 7).blk t).view.set := by
  have hi0 : (i 0).val < 524288 := (i 0).isLt
  have hi1 : (i 1).val < 128 := (i 1).isLt
  let t : Fin cfg0.N := ⟨(i 0).val / 4096, lt_of_lt_of_eq (by omega : (i 0).val / 4096 < 128) N_0.symm⟩
  have ht : t.val = (i 0).val / 4096 := rfl
  obtain ⟨-, -, -, -, -, -, -, -, -, -, -, -, e0, e1⟩ := idx_facts t
  refine ⟨t, flush0_7 t, ?_⟩
  rw [mem_blk]
  intro a
  match a with
  | ⟨0, _⟩ => show win0_7.index t (0 : Fin 2) * 4096 ≤ (i 0).val ∧ (i 0).val < win0_7.index t (0 : Fin 2) * 4096 + 4096; omega
  | ⟨1, _⟩ => show win0_7.index t (1 : Fin 2) * 128 ≤ (i 1).val ∧ (i 1).val < win0_7.index t (1 : Fin 2) * 128 + 128; omega

/-- So the result array ends holding `G`. -/
theorem final (c : Dev nD) : ((dats m 0 c).arrAt 7 cfg0.N : S524288x128.Idx → EReal) = G m c :=
  (dats m 0 c).arrAt_eq_of_cover 7 (G m c) (fun t _ => flushed_eq m c t) (cover)

end Cert.KernelIdeal.Val

end
-- ==== Proof.KI.PrologueA.lean ====
/-
  What the staged arrays hold when the region is entered, read at an index: the packed input and the three doubled
  biases.

  Ninety host operations run before the region. Each writes one buffer, so what a staged array holds is the
  composition of the few operations that feed it, applied to the argument arrays as launched. The packed input is
  the samples' array reshaped from [1048576, 64] to [524288, 128]: row `p` holds sample `2 p` in columns
  `0 … 63` and sample `2 p + 1` in columns `64 … 127`. Each staged bias is the bias concatenated with itself, so
  both halves of the doubled axis read the same bias entry.
-/
import proofs.«174390_j25202868092982_2_alg».proof.Proof.KI.Args
import Idealize.ShloMosaic.Lib.StableHlo.Run
import Idealize.ShloMosaic.Lib.Pipeline.Value
import Idealize.ShloMosaic.Lib.ValueLayout

noncomputable section

namespace Cert.KernelIdeal.Pro

open Idealize.ShloMosaic Idealize.ShloMosaic.TcCoe Idealize.SL.Sem Idealize.ShloMosaic.ValueIdx
open Cert.KernelIdeal Cert.KernelIdeal.Gen Cert.KernelIdeal.Fr Cert.Mlp

variable (m : (ℓ : Loc nD τ sig) → Buf (Elt Ideal) ℓ) (c : Dev nD)

/-! ## What the staged arrays are, as terms over the argument arrays

Each is the composition of exactly the host operations that feed it; every other operation of the ninety writes
another buffer. -/

section Extract
open Idealize.ShloMosaic.StableHlo

set_option maxRecDepth 4096 in
set_option maxHeartbeats 4000000 in
/-- The packed input is the samples' array reshaped: two samples to a row. -/
theorem v64_eq : (V m c main_v64 : S524288x128.Idx → EReal) = shapeCast S524288x128 (m ((c : Thread nD τ).loc main_arg0)) shapeCasts_S1048576x64_S524288x128 := by
  dsimp only [V, V0]
  simp only [hostOps0, List.flatten_cons, List.flatten_nil, List.append_nil]
  after_results <;> rfl

set_option maxRecDepth 4096 in
set_option maxHeartbeats 4000000 in
/-- The input layer's staged bias is the bias twice. -/
theorem v61_eq : (V m c main_v61 : S256.Idx → EReal) = concatenate S256 0 [⟨S128, (m ((c : Thread nD τ).loc main_arg2))⟩, ⟨S128, (m ((c : Thread nD τ).loc main_arg2))⟩] concatenates_S128_S128_S256_d0 := by
  dsimp only [V, V0]
  simp only [hostOps0, List.flatten_cons, List.flatten_nil, List.append_nil]
  after_results <;> rfl

set_option maxRecDepth 4096 in
set_option maxHeartbeats 4000000 in
/-- The hidden layers' staged biases are each row twice. -/
theorem v62_eq : (V m c main_v62 : S3x256.Idx → EReal) = concatenate S3x256 1 [⟨S3x128, (m ((c : Thread nD τ).loc main_arg4))⟩, ⟨S3x128, (m ((c : Thread nD τ).loc main_arg4))⟩] concatenates_S3x128_S3x128_S3x256_d1 := by
  dsimp only [V, V0]
  simp only [hostOps0, List.flatten_cons, List.flatten_nil, List.append_nil]
  after_results <;> rfl

set_option maxRecDepth 4096 in
set_option maxHeartbeats 4000000 in
/-- The output layer's staged bias is the bias twice. -/
theorem v63_eq : (V m c main_v63 : S128.Idx → EReal) = concatenate S128 0 [⟨S64, (m ((c : Thread nD τ).loc main_arg6))⟩, ⟨S64, (m ((c : Thread nD τ).loc main_arg6))⟩] concatenates_S64_S64_S128_d0 := by
  dsimp only [V, V0]
  simp only [hostOps0, List.flatten_cons, List.flatten_nil, List.append_nil]
  after_results <;> rfl

end Extract

/-! ## The packed input

Row `p`, column `k` of the packed array is flat position `128 p + k = 64 (2 p + k / 64) + k % 64` of the samples:
columns `0 … 63` of row `p` are sample `2 p`, columns `64 … 127` are sample `2 p + 1`. -/

theorem x_lo (p : Fin 524288) (d : Fin 64) : (V m c main_v64 : S524288x128.Idx → EReal) (ix2 p (lo64 d)) = argX m c (smp p 0) d := by
  refine (congrFun (v64_eq m c) _).trans ?_
  exact shapeCast_apply _ shapeCasts_S1048576x64_S524288x128 (ix2 p (lo64 d)) (ix2 (smp p 0) d) (by
    rw [Shape.rowMajor_val_two, Shape.rowMajor_val_two]
    show (2 * p.val + 0) * 64 + d.val = p.val * 128 + d.val
    omega)

theorem x_hi (p : Fin 524288) (d : Fin 64) : (V m c main_v64 : S524288x128.Idx → EReal) (ix2 p (hi64 d)) = argX m c (smp p 1) d := by
  refine (congrFun (v64_eq m c) _).trans ?_
  exact shapeCast_apply _ shapeCasts_S1048576x64_S524288x128 (ix2 p (hi64 d)) (ix2 (smp p 1) d) (by
    rw [Shape.rowMajor_val_two, Shape.rowMajor_val_two]
    show (2 * p.val + 1) * 64 + d.val = p.val * 128 + (64 + d.val)
    omega)

/-! ## The doubled biases

Each is its argument concatenated with itself: the low copy reads the first piece, the high copy the second. -/

theorem bin_lo (h : Fin 128) : (V m c main_v61 : S256.Idx → EReal) (ix1 (lo128 h)) = argBIn m c h := by
  refine (congrFun (v61_eq m c) _).trans ?_
  exact concatenate_pair_apply_left (0 : Fin S256.rank) _ _ concatenates_S128_S128_S256_d0 (ix1 (lo128 h)) rfl (ix1 h)
    (fun b => match b with | ⟨0, _⟩ => rfl)

theorem bin_hi (h : Fin 128) : (V m c main_v61 : S256.Idx → EReal) (ix1 (hi128 h)) = argBIn m c h := by
  refine (congrFun (v61_eq m c) _).trans ?_
  exact concatenate_pair_apply_right (0 : Fin S256.rank) _ _ concatenates_S128_S128_S256_d0 (ix1 (hi128 h)) rfl rfl (ix1 h)
    (fun b => match b with | ⟨0, _⟩ => fun hb => absurd rfl hb)
    (by show h.val + 128 = 128 + h.val; omega)

theorem bhid_lo (l : Fin 3) (h : Fin 128) : (V m c main_v62 : S3x256.Idx → EReal) (ix2 l (lo128 h)) = argBHid m c l h := by
  refine (congrFun (v62_eq m c) _).trans ?_
  exact concatenate_pair_apply_left (1 : Fin S3x256.rank) _ _ concatenates_S3x128_S3x128_S3x256_d1 (ix2 l (lo128 h)) rfl (ix2 l h)
    (fun b => match b with | ⟨0, _⟩ => rfl | ⟨1, _⟩ => rfl)

theorem bhid_hi (l : Fin 3) (h : Fin 128) : (V m c main_v62 : S3x256.Idx → EReal) (ix2 l (hi128 h)) = argBHid m c l h := by
  refine (congrFun (v62_eq m c) _).trans ?_
  exact concatenate_pair_apply_right (1 : Fin S3x256.rank) _ _ concatenates_S3x128_S3x128_S3x256_d1 (ix2 l (hi128 h)) rfl rfl (ix2 l h)
    (fun b => match b with | ⟨0, _⟩ => fun _ => rfl | ⟨1, _⟩ => fun hb => absurd rfl hb)
    (by show h.val + 128 = 128 + h.val; omega)

theorem bout_lo (o : Fin 64) : (V m c main_v63 : S128.Idx → EReal) (ix1 (lo64 o)) = argBOut m c o := by
  refine (congrFun (v63_eq m c) _).trans ?_
  exact concatenate_pair_apply_left (0 : Fin S128.rank) _ _ concatenates_S64_S64_S128_d0 (ix1 (lo64 o)) rfl (ix1 o)
    (fun b => match b with | ⟨0, _⟩ => rfl)

theorem bout_hi (o : Fin 64) : (V m c main_v63 : S128.Idx → EReal) (ix1 (hi64 o)) = argBOut m c o := by
  refine (congrFun (v63_eq m c) _).trans ?_
  exact concatenate_pair_apply_right (0 : Fin S128.rank) _ _ concatenates_S64_S64_S128_d0 (ix1 (hi64 o)) rfl rfl (ix1 o)
    (fun b => match b with | ⟨0, _⟩ => fun hb => absurd rfl hb)
    (by show o.val + 64 = 64 + o.val; omega)

end Cert.KernelIdeal.Pro

end
-- ==== Proof.LibScatterSet.lean ====
/-
  A scatter whose body returns the update ("set"), read at one index of the result.

  `Host.scatter d f x idx upd` is the left fold, over the update indices in row-major order, of point writes: update
  index `j` replaces the element at `d.resultIdx? j idx` (when that is an index of the operand) by `f` of the old
  element and `upd j`. With `f = fun _ b => b` each write stores the update itself. Hence, at a result index `i`:
    * if no update index lands at `i`, the result there is the operand's element (`scatter_set_of_miss`);
    * if exactly one update index `j0` lands at `i`, the result there is `upd j0` (`scatter_set_of_unique_hit`).
  Both follow from the same two statements about a left fold of point writes over an arbitrary list
  (`foldl_write_of_miss`, `foldl_write_of_unique_hit`), proved by induction on the list.
  This file is general: it depends on no particular program and may be reused wherever a "set" scatter is read.
-/
import Idealize.ShloMosaic.PureOps.ShapeOps

namespace Cert.ScatterSet

open Idealize.ShloMosaic

section Fold
variable {α β ι : Type}

/-- A left fold of steps none of which changes the element at `i` leaves that element as it was: `g` is the step,
    `tgt n` the index step `n` writes (if any); the hypothesis `hmiss` says a step that does not write `i` keeps
    the element at `i`. -/
theorem foldl_write_of_miss (g : (ι → α) → β → (ι → α)) (tgt : β → Option ι) (i : ι)
    (hmiss : ∀ r n, tgt n ≠ some i → g r n i = r i) :
    ∀ (l : List β) (r : ι → α), (∀ n ∈ l, tgt n ≠ some i) → l.foldl g r i = r i := by
  intro l
  induction l with
  | nil => intro r _; rfl
  | cons a t ih =>
    intro r h
    rw [List.foldl_cons, ih (g r a) (fun n hn => h n (List.mem_cons_of_mem _ hn))]
    exact hmiss r a (h a List.mem_cons_self)

/-- A left fold of point writes over a list without repeats in which exactly one step, `n0`, writes the element at
    `i`, leaves there the value that step writes, `val n0`: a step that does not write `i` keeps the element
    (`hmiss`), a step that writes `i` stores its own value whatever was there (`hhit`). -/
theorem foldl_write_of_unique_hit (g : (ι → α) → β → (ι → α)) (tgt : β → Option ι) (val : β → α) (i : ι)
    (hmiss : ∀ r n, tgt n ≠ some i → g r n i = r i)
    (hhit : ∀ r n, tgt n = some i → g r n i = val n) (n0 : β) (h0 : tgt n0 = some i) :
    ∀ (l : List β) (r : ι → α), l.Nodup → n0 ∈ l → (∀ n ∈ l, tgt n = some i → n = n0) → l.foldl g r i = val n0 := by
  intro l
  induction l with
  | nil => intro r _ hmem; exact absurd hmem List.not_mem_nil
  | cons a t ih =>
    intro r hnd hmem huniq
    rw [List.foldl_cons]
    rcases List.mem_cons.1 hmem with rfl | hmem'
    · -- the head is the one writing step: no later step writes `i`
      have hnot : n0 ∉ t := (List.nodup_cons.1 hnd).1
      rw [foldl_write_of_miss g tgt i hmiss t (g r n0) (fun n hn hsome =>
        hnot (huniq n (List.mem_cons_of_mem _ hn) hsome ▸ hn))]
      exact hhit r n0 h0
    · exact ih (g r a) (List.nodup_cons.1 hnd).2 hmem' (fun n hn => huniq n (List.mem_cons_of_mem _ hn))

end Fold

section Scatter
variable {s si u : Shape} {α : Type} {w : Nat}

/-- One step of a "set" scatter at an index it does not write keeps the element. -/
private theorem step_of_miss (d : ScatterDims s si u) (idx : IVec si w) (upd : u.Idx → α) (i : s.Idx)
    (r : s.Idx → α) (n : Fin u.numel) (h : d.resultIdx? (u.rowMajor.symm n) idx ≠ some i) :
    (match d.resultIdx? (u.rowMajor.symm n) idx with
      | some i1 => fun i' => if i' = i1 then (fun _ b => b) (r i1) (upd (u.rowMajor.symm n)) else r i'
      | none => r) i = r i := by
  cases hc : d.resultIdx? (u.rowMajor.symm n) idx with
  | none => rfl
  | some i1 =>
    have hne : i ≠ i1 := fun e => h (by rw [hc, e])
    simp only [if_neg hne]

/-- One step of a "set" scatter at the index it writes stores the update. -/
private theorem step_of_hit (d : ScatterDims s si u) (idx : IVec si w) (upd : u.Idx → α) (i : s.Idx)
    (r : s.Idx → α) (n : Fin u.numel) (h : d.resultIdx? (u.rowMajor.symm n) idx = some i) :
    (match d.resultIdx? (u.rowMajor.symm n) idx with
      | some i1 => fun i' => if i' = i1 then (fun _ b => b) (r i1) (upd (u.rowMajor.symm n)) else r i'
      | none => r) i = upd (u.rowMajor.symm n) := by
  rw [h]
  simp only [if_true]

/-- A "set" scatter at a result index no update lands at: the operand's element. -/
theorem scatter_set_of_miss (d : ScatterDims s si u) (x : s.Idx → α) (idx : IVec si w) (upd : u.Idx → α) (i : s.Idx)
    (h : ∀ j, d.resultIdx? j idx ≠ some i) :
    Host.scatter d (fun _ b => b) x idx upd i = x i := by
  unfold Host.scatter
  exact foldl_write_of_miss _ (fun n => d.resultIdx? (u.rowMajor.symm n) idx) i
    (fun r n hn => step_of_miss d idx upd i r n hn) _ x (fun n _ => h _)

/-- A "set" scatter at a result index exactly one update index `j0` lands at: that update. -/
theorem scatter_set_of_unique_hit (d : ScatterDims s si u) (x : s.Idx → α) (idx : IVec si w) (upd : u.Idx → α)
    (i : s.Idx) (j0 : u.Idx) (h0 : d.resultIdx? j0 idx = some i)
    (huniq : ∀ j, d.resultIdx? j idx = some i → j = j0) :
    Host.scatter d (fun _ b => b) x idx upd i = upd j0 := by
  unfold Host.scatter
  have key := foldl_write_of_unique_hit _ (fun n => d.resultIdx? (u.rowMajor.symm n) idx)
    (fun n => upd (u.rowMajor.symm n)) i
    (fun r n hn => step_of_miss d idx upd i r n hn) (fun r n hn => step_of_hit d idx upd i r n hn)
    (u.rowMajor j0) (by simpa using h0) (List.finRange u.numel) x (List.nodup_finRange _) (List.mem_finRange _)
    (fun n _ hn => by
      have := huniq _ hn
      rw [← this, Equiv.apply_symm_apply])
  have e : upd (u.rowMajor.symm (u.rowMajor j0)) = upd j0 := by rw [Equiv.symm_apply_apply]
  rw [← e]
  exact key

end Scatter

end Cert.ScatterSet
-- ==== Proof.LibWindowScatter.lean ====
/-
  A "set" scatter of ONE rectangular window into a matrix, read at an index; and two such windows on the diagonal.

  The operand is an `A × B` matrix, the update a `ua × ub` matrix, the scatter indices ONE index vector of two
  words `(r0, c0)` (read signed), and the dimension numbers say: both update axes are window axes, no operand axis
  is inserted, word `0` of the index vector is the start on operand axis `0` and word `1` the start on axis `1`.
  Then update element `(a, b)` lands at `(r0 + a, c0 + b)` (`resultIdx_eq`), which is inside the operand when
  `r0 + ua ≤ A` and `c0 + ub ≤ B`. Distinct update elements land at distinct places, so by the two general facts
  about a "set" scatter (one update lands there: that update; none does: the operand) the result is the update on
  the window `[r0, r0 + ua) × [c0, c0 + ub)` (`window_hit`) and the operand elsewhere (`window_miss`).

  Writing the same update twice, at `(0, 0)` and at `(ua, ub)`, into a `(ua + ua) × (ub + ub)` matrix `z` gives the
  block-diagonal matrix with two copies of the update: the update on the two diagonal blocks (`diag_ll`,
  `diag_hh`), `z` on the two off-diagonal blocks (`diag_hl`, `diag_lh`).
  This file is general: it depends on no particular program.
-/
import Idealize.ShloMosaic.PureOps.ShapeOps
import Idealize.ShloMosaic.Lib.ValueIdx
import proofs.«174390_j25202868092982_2_alg».proof.Proof.LibScatterSet

namespace Cert.WindowScatter

open Idealize.ShloMosaic Idealize.ShloMosaic.ValueIdx

section
variable {A B ua ub w : Nat}

/-! ## Where an update element lands -/

theorem siIdx_eq (wf) (j : (⟨2, ![ua, ub]⟩ : Shape).Idx) (c : Fin 2) :
    (⟨[0, 1], [], [0, 1], 0, wf⟩ : ScatterDims ⟨2, ![A, B]⟩ ⟨1, ![2]⟩ ⟨2, ![ua, ub]⟩).siIdx j c = ix1 c := by
  funext b
  match b with
  | ⟨0, _⟩ =>
    unfold ScatterDims.siIdx
    exact dif_pos rfl

theorem window_eq (wf) (j : (⟨2, ![ua, ub]⟩ : Shape).Idx) (a : Fin 2) :
    (⟨[0, 1], [], [0, 1], 0, wf⟩ : ScatterDims ⟨2, ![A, B]⟩ ⟨1, ![2]⟩ ⟨2, ![ua, ub]⟩).window j a = (j a).val := by
  unfold ScatterDims.window
  match a with
  | ⟨0, _⟩ => exact dif_pos (List.Mem.head _)
  | ⟨1, _⟩ => exact dif_pos (List.Mem.tail _ (List.Mem.head _))

theorem start_eq (wf) (j : (⟨2, ![ua, ub]⟩ : Shape).Idx) (idx : IVec ⟨1, ![2]⟩ w) (a : Fin 2) :
    (⟨[0, 1], [], [0, 1], 0, wf⟩ : ScatterDims ⟨2, ![A, B]⟩ ⟨1, ![2]⟩ ⟨2, ![ua, ub]⟩).start j idx a = (idx (ix1 a)).toInt := by
  unfold ScatterDims.start
  match a with
  | ⟨0, _⟩ =>
    refine (dif_pos (List.Mem.head _)).trans ?_
    rw [siIdx_eq]
    rfl
  | ⟨1, _⟩ =>
    refine (dif_pos (List.Mem.tail _ (List.Mem.head _))).trans ?_
    rw [siIdx_eq]
    rfl

theorem start_add_window (wf) (j : (⟨2, ![ua, ub]⟩ : Shape).Idx) (idx : IVec ⟨1, ![2]⟩ w) (a : Fin 2) :
    (⟨[0, 1], [], [0, 1], 0, wf⟩ : ScatterDims ⟨2, ![A, B]⟩ ⟨1, ![2]⟩ ⟨2, ![ua, ub]⟩).start j idx a
      + (((⟨[0, 1], [], [0, 1], 0, wf⟩ : ScatterDims ⟨2, ![A, B]⟩ ⟨1, ![2]⟩ ⟨2, ![ua, ub]⟩).window j a : Nat) : Int)
      = (idx (ix1 a)).toInt + (((j a).val : Nat) : Int) := by
  rw [start_eq, window_eq]

theorem resultIdx_eq (d : ScatterDims ⟨2, ![A, B]⟩ ⟨1, ![2]⟩ ⟨2, ![ua, ub]⟩)
    (hd : d.updateWindowDims = [0, 1]) (hi : d.insertedWindowDims = []) (hs : d.scatterDimsToOperandDims = [0, 1])
    (hv : d.indexVectorDim = 0) (idx : IVec ⟨1, ![2]⟩ w) (r0 c0 : Nat)
    (h0 : (idx (ix1 0)).toInt = (r0 : Int)) (h1 : (idx (ix1 1)).toInt = (c0 : Int))
    (hr : r0 + ua ≤ A) (hc : c0 + ub ≤ B) (j : (⟨2, ![ua, ub]⟩ : Shape).Idx) :
    d.resultIdx? j idx = some (ix2 (⟨r0 + (j 0).val, by have := idx2_lt0 j; omega⟩ : Fin A)
      (⟨c0 + (j 1).val, by have := idx2_lt1 j; omega⟩ : Fin B)) := by
  obtain ⟨uw, iw, sd, iv, wf⟩ := d
  subst hd hi hs hv
  have hb : ∀ a : Fin 2,
      0 ≤ ScatterDims.start ⟨[0, 1], [], [0, 1], 0, wf⟩ j idx a + ((ScatterDims.window ⟨[0, 1], [], [0, 1], 0, wf⟩ j a : Nat) : Int) ∧
      ScatterDims.start ⟨[0, 1], [], [0, 1], 0, wf⟩ j idx a + ((ScatterDims.window ⟨[0, 1], [], [0, 1], 0, wf⟩ j a : Nat) : Int)
        < (((⟨2, ![A, B]⟩ : Shape).size a : Nat) : Int) := by
    intro a
    rw [start_add_window]
    match a with
    | ⟨0, h⟩ =>
      have hj : (j ⟨0, h⟩).val < ua := (j ⟨0, h⟩).isLt
      have h0' : (idx (ix1 ⟨0, h⟩)).toInt = (r0 : Int) := h0
      rw [h0']
      exact ⟨by omega, by show (r0 : Int) + (((j ⟨0, h⟩).val : Nat) : Int) < ((A : Nat) : Int); omega⟩
    | ⟨1, h⟩ =>
      have hj : (j ⟨1, h⟩).val < ub := (j ⟨1, h⟩).isLt
      have h1' : (idx (ix1 ⟨1, h⟩)).toInt = (c0 : Int) := h1
      rw [h1']
      exact ⟨by omega, by show (c0 : Int) + (((j ⟨1, h⟩).val : Nat) : Int) < ((B : Nat) : Int); omega⟩
  unfold ScatterDims.resultIdx?
  rw [dif_pos hb]
  refine congrArg some (funext fun a => Fin.ext ?_)
  show (ScatterDims.start ⟨[0, 1], [], [0, 1], 0, wf⟩ j idx a + ((ScatterDims.window ⟨[0, 1], [], [0, 1], 0, wf⟩ j a : Nat) : Int)).toNat = _
  rw [start_add_window]
  match a with
  | ⟨0, h⟩ =>
    have h0' : (idx (ix1 ⟨0, h⟩)).toInt = (r0 : Int) := h0
    rw [h0']
    show ((r0 : Int) + (((j ⟨0, h⟩).val : Nat) : Int)).toNat = r0 + (j ⟨0, h⟩).val
    omega
  | ⟨1, h⟩ =>
    have h1' : (idx (ix1 ⟨1, h⟩)).toInt = (c0 : Int) := h1
    rw [h1']
    show ((c0 : Int) + (((j ⟨1, h⟩).val : Nat) : Int)).toNat = c0 + (j ⟨1, h⟩).val
    omega

/-! ## One window -/

section OneWindow
variable {α : Type} (d : ScatterDims ⟨2, ![A, B]⟩ ⟨1, ![2]⟩ ⟨2, ![ua, ub]⟩)
  (hd : d.updateWindowDims = [0, 1]) (hi : d.insertedWindowDims = []) (hs : d.scatterDimsToOperandDims = [0, 1])
  (hv : d.indexVectorDim = 0) (x : (⟨2, ![A, B]⟩ : Shape).Idx → α) (idx : IVec ⟨1, ![2]⟩ w)
  (upd : (⟨2, ![ua, ub]⟩ : Shape).Idx → α) (r0 c0 : Nat)
  (h0 : (idx (ix1 0)).toInt = (r0 : Int)) (h1 : (idx (ix1 1)).toInt = (c0 : Int))
  (hr : r0 + ua ≤ A) (hc : c0 + ub ≤ B)
include hd hi hs hv h0 h1 hr hc

/-- Inside the window the result is the update: position `(r0 + a, c0 + b)` holds update element `(a, b)`. -/
theorem window_hit (r : Fin A) (c : Fin B) (a : Fin ua) (b : Fin ub) (hra : r.val = r0 + a.val) (hcb : c.val = c0 + b.val) :
    Host.scatter d (fun _ b => b) x idx upd (ix2 r c) = upd (ix2 a b) := by
  refine Cert.ScatterSet.scatter_set_of_unique_hit d x idx upd (ix2 r c) (ix2 a b) ?_ ?_
  · rw [resultIdx_eq d hd hi hs hv idx r0 c0 h0 h1 hr hc]
    refine congrArg some (funext fun q => ?_)
    match q with
    | ⟨0, _⟩ => exact Fin.ext hra.symm
    | ⟨1, _⟩ => exact Fin.ext hcb.symm
  · intro j hj
    rw [resultIdx_eq d hd hi hs hv idx r0 c0 h0 h1 hr hc] at hj
    have e := Option.some.inj hj
    have e0 : r0 + (j 0).val = r.val := congrArg (fun i : (⟨2, ![A, B]⟩ : Shape).Idx => (i 0).val) e
    have e1 : c0 + (j 1).val = c.val := congrArg (fun i : (⟨2, ![A, B]⟩ : Shape).Idx => (i 1).val) e
    have q0 : j 0 = a := Fin.ext (by omega)
    have q1 : j 1 = b := Fin.ext (by omega)
    funext q
    match q with
    | ⟨0, _⟩ => exact q0
    | ⟨1, _⟩ => exact q1

/-- Outside the window the result is the operand. -/
theorem window_miss (r : Fin A) (c : Fin B)
    (h : ¬(r0 ≤ r.val ∧ r.val < r0 + ua ∧ c0 ≤ c.val ∧ c.val < c0 + ub)) :
    Host.scatter d (fun _ b => b) x idx upd (ix2 r c) = x (ix2 r c) := by
  refine Cert.ScatterSet.scatter_set_of_miss d x idx upd (ix2 r c) (fun j hj => h ?_)
  rw [resultIdx_eq d hd hi hs hv idx r0 c0 h0 h1 hr hc] at hj
  have e := Option.some.inj hj
  have e0 : r0 + (j 0).val = r.val := congrArg (fun i : (⟨2, ![A, B]⟩ : Shape).Idx => (i 0).val) e
  have e1 : c0 + (j 1).val = c.val := congrArg (fun i : (⟨2, ![A, B]⟩ : Shape).Idx => (i 1).val) e
  have hj0 := idx2_lt0 j
  have hj1 := idx2_lt1 j
  omega

end OneWindow

/-! ## Two windows on the diagonal -/

section Diagonal
variable {α : Type} (d : ScatterDims ⟨2, ![A, B]⟩ ⟨1, ![2]⟩ ⟨2, ![ua, ub]⟩)
  (hd : d.updateWindowDims = [0, 1]) (hi : d.insertedWindowDims = []) (hs : d.scatterDimsToOperandDims = [0, 1])
  (hv : d.indexVectorDim = 0) (z : (⟨2, ![A, B]⟩ : Shape).Idx → α) (i0 i1 : IVec ⟨1, ![2]⟩ w)
  (U : (⟨2, ![ua, ub]⟩ : Shape).Idx → α)
  (h00 : (i0 (ix1 0)).toInt = ((0 : Nat) : Int)) (h01 : (i0 (ix1 1)).toInt = ((0 : Nat) : Int))
  (h10 : (i1 (ix1 0)).toInt = (ua : Int)) (h11 : (i1 (ix1 1)).toInt = (ub : Int))
  (hA : ua + ua = A) (hB : ub + ub = B)
include hd hi hs hv h00 h01 h10 h11 hA hB

/-- The low-low block holds the update: the second write misses it, the first wrote it. -/
theorem diag_ll (r : Fin A) (c : Fin B) (a : Fin ua) (b : Fin ub) (hra : r.val = a.val) (hcb : c.val = b.val) :
    Host.scatter d (fun _ b => b) (Host.scatter d (fun _ b => b) z i0 U) i1 U (ix2 r c) = U (ix2 a b) := by
  have ha := a.isLt
  have hb := b.isLt
  rw [window_miss d hd hi hs hv _ i1 U ua ub h10 h11 (by omega) (by omega) r c (by omega)]
  exact window_hit d hd hi hs hv z i0 U 0 0 h00 h01 (by omega) (by omega) r c a b (by omega) (by omega)

/-- The high-high block holds the update: the second write wrote it. -/
theorem diag_hh (r : Fin A) (c : Fin B) (a : Fin ua) (b : Fin ub) (hra : r.val = ua + a.val) (hcb : c.val = ub + b.val) :
    Host.scatter d (fun _ b => b) (Host.scatter d (fun _ b => b) z i0 U) i1 U (ix2 r c) = U (ix2 a b) :=
  window_hit d hd hi hs hv _ i1 U ua ub h10 h11 (by omega) (by omega) r c a b hra hcb

/-- The high-low block is untouched: its columns are left of the second window, its rows below the first. -/
theorem diag_hl (r : Fin A) (c : Fin B) (hra : ua ≤ r.val) (hcb : c.val < ub) :
    Host.scatter d (fun _ b => b) (Host.scatter d (fun _ b => b) z i0 U) i1 U (ix2 r c) = z (ix2 r c) := by
  rw [window_miss d hd hi hs hv _ i1 U ua ub h10 h11 (by omega) (by omega) r c (by omega)]
  exact window_miss d hd hi hs hv z i0 U 0 0 h00 h01 (by omega) (by omega) r c (by omega)

/-- The low-high block is untouched: its rows are above the second window, its columns right of the first. -/
theorem diag_lh (r : Fin A) (c : Fin B) (hra : r.val < ua) (hcb : ub ≤ c.val) :
    Host.scatter d (fun _ b => b) (Host.scatter d (fun _ b => b) z i0 U) i1 U (ix2 r c) = z (ix2 r c) := by
  rw [window_miss d hd hi hs hv _ i1 U ua ub h10 h11 (by omega) (by omega) r c (by omega)]
  exact window_miss d hd hi hs hv z i0 U 0 0 h00 h01 (by omega) (by omega) r c (by omega)

end Diagonal

end
end Cert.WindowScatter
-- ==== Proof.KI.BlockDiag.lean ====
/-
  The block-diagonal weight matrices the program stages, read at an index.

  Each is built on the host from an array of zeros by writing the same matrix `U` twice: once with its corner at
  `(0, 0)`, once with its corner at `(rows U, cols U)`. The result has `U` on its two diagonal blocks and zero on its
  two off-diagonal blocks. The corner of a write is a vector of two 32-bit words, each a broadcast constant; read
  signed they are the naturals `0, 0` and `rows U, cols U`.
-/
import proofs.«174390_j25202868092982_2_alg».proof.Proof.KI.Args
import proofs.«174390_j25202868092982_2_alg».proof.Proof.LibWindowScatter
import Idealize.ShloMosaic.PureOps.Ideal.Laws
import Idealize.ShloMosaic.Lib.IdealHost
import Idealize.ShloMosaic.Lib.Pipeline.Value

noncomputable section

namespace Cert.KernelIdeal.BD

open Idealize.ShloMosaic Idealize.ShloMosaic.ValueIdx Cert.KernelIdeal Cert.KernelIdeal.Gen Cert.KernelIdeal.Fr

/-! ## The corner of a write -/

/-- The index vector of a write with its corner at `(r0, c0)`: two broadcast constants, concatenated. -/
def idxPair (r0 c0 : BitVec 32) : (⟨S2, .i32⟩ : BufTy).Contents (Elt Ideal) :=
  concatenate S2 0 [⟨S1, broadcastInDim S1 ![] bcast_S_S1 (constantI S_ 32 r0)⟩, ⟨S1, broadcastInDim S1 ![] bcast_S_S1 (constantI S_ 32 c0)⟩] concatenates_S1_S1_S2_d0

/-- Its first word is the row. -/
theorem idxPair_0 (r0 c0 : BitVec 32) : idxPair r0 c0 (ix1 0) = r0 := by
  unfold idxPair
  refine (concatenate_pair_apply_left (0 : Fin S2.rank) _ _ concatenates_S1_S1_S2_d0 (ix1 (0 : Fin 2)) rfl (ix1 (0 : Fin 1))
    (fun b => by match b with | ⟨0, _⟩ => rfl)).trans ?_
  rw [broadcastInDim_scalar_apply]
  rfl

/-- Its second word is the column. -/
theorem idxPair_1 (r0 c0 : BitVec 32) : idxPair r0 c0 (ix1 1) = c0 := by
  unfold idxPair
  refine (concatenate_pair_apply_right (0 : Fin S2.rank) _ _ concatenates_S1_S1_S2_d0 (ix1 (1 : Fin 2)) rfl rfl (ix1 (0 : Fin 1))
    (fun b hb => absurd (by match b with | ⟨0, _⟩ => rfl) hb) rfl).trans ?_
  rw [broadcastInDim_scalar_apply]
  rfl

/-- The row word read signed. -/
theorem idxPair_toInt_0 (r0 c0 : BitVec 32) (n : Nat) (h : r0.toInt = (n : Int)) :
    ((idxPair r0 c0 : S2.Idx → BitVec 32) (ix1 0)).toInt = (n : Int) := by
  rw [idxPair_0]; exact h

/-- The column word read signed. -/
theorem idxPair_toInt_1 (r0 c0 : BitVec 32) (n : Nat) (h : c0.toInt = (n : Int)) :
    ((idxPair r0 c0 : S2.Idx → BitVec 32) (ix1 1)).toInt = (n : Int) := by
  rw [idxPair_1]; exact h

/-! ## The array of zeros -/

/-- The broadcast of the constant zero reads zero everywhere. -/
theorem zeros_apply {T : Shape} (h : S_.BroadcastsInDim T ![]) (i : T.Idx) :
    (broadcastInDim T ![] h (constant (F := Ideal) S_ .f32 0x00000000#32) : T.Idx → EReal) i = (0 : EReal) := by
  rw [broadcastInDim_scalar_apply, constant_apply]
  exact Ideal.ofBits_zero_f32

/-! ## The input layer's matrix: two copies of a `64 × 128` matrix in a `128 × 256` one -/

def bdIn (U : (⟨S64x128, .f32⟩ : BufTy).Contents (Elt Ideal)) : (⟨S128x256, .f32⟩ : BufTy).Contents (Elt Ideal) :=
  Host.scatter scatter_S128x256_S2_S64x128_01_n_01_0 (fun _ b => b)
    (Host.scatter scatter_S128x256_S2_S64x128_01_n_01_0 (fun _ b => b)
      (broadcastInDim S128x256 ![] bcast_S_S128x256 (constant (F := Ideal) S_ .f32 0x00000000#32)) (idxPair 0#32 0#32) U)
    (idxPair 64#32 128#32) U

/-- The low-low block of `bdIn U` is `U`. -/
theorem bdIn_ll (U : (⟨S64x128, .f32⟩ : BufTy).Contents (Elt Ideal)) (d : Fin 64) (h : Fin 128) :
    (bdIn U : S128x256.Idx → EReal) (ix2 (lo64 d) (lo128 h)) = U (ix2 d h) :=
  Cert.WindowScatter.diag_ll scatter_S128x256_S2_S64x128_01_n_01_0 rfl rfl rfl rfl
    (broadcastInDim S128x256 ![] bcast_S_S128x256 (constant (F := Ideal) S_ .f32 0x00000000#32)) (idxPair 0#32 0#32) (idxPair 64#32 128#32) U
    (idxPair_toInt_0 0#32 0#32 0 (by decide)) (idxPair_toInt_1 0#32 0#32 0 (by decide))
    (idxPair_toInt_0 64#32 128#32 64 (by decide)) (idxPair_toInt_1 64#32 128#32 128 (by decide)) rfl rfl
    (lo64 d) (lo128 h) d h rfl rfl

/-- The high-high block of `bdIn U` is `U`. -/
theorem bdIn_hh (U : (⟨S64x128, .f32⟩ : BufTy).Contents (Elt Ideal)) (d : Fin 64) (h : Fin 128) :
    (bdIn U : S128x256.Idx → EReal) (ix2 (hi64 d) (hi128 h)) = U (ix2 d h) :=
  Cert.WindowScatter.diag_hh scatter_S128x256_S2_S64x128_01_n_01_0 rfl rfl rfl rfl
    (broadcastInDim S128x256 ![] bcast_S_S128x256 (constant (F := Ideal) S_ .f32 0x00000000#32)) (idxPair 0#32 0#32) (idxPair 64#32 128#32) U
    (idxPair_toInt_0 0#32 0#32 0 (by decide)) (idxPair_toInt_1 0#32 0#32 0 (by decide))
    (idxPair_toInt_0 64#32 128#32 64 (by decide)) (idxPair_toInt_1 64#32 128#32 128 (by decide)) rfl rfl
    (hi64 d) (hi128 h) d h rfl rfl

/-- The high-low block of `bdIn U` is zero. -/
theorem bdIn_hl (U : (⟨S64x128, .f32⟩ : BufTy).Contents (Elt Ideal)) (d : Fin 64) (h : Fin 128) :
    (bdIn U : S128x256.Idx → EReal) (ix2 (hi64 d) (lo128 h)) = (0 : EReal) :=
  (Cert.WindowScatter.diag_hl scatter_S128x256_S2_S64x128_01_n_01_0 rfl rfl rfl rfl
    (broadcastInDim S128x256 ![] bcast_S_S128x256 (constant (F := Ideal) S_ .f32 0x00000000#32)) (idxPair 0#32 0#32) (idxPair 64#32 128#32) U
    (idxPair_toInt_0 0#32 0#32 0 (by decide)) (idxPair_toInt_1 0#32 0#32 0 (by decide))
    (idxPair_toInt_0 64#32 128#32 64 (by decide)) (idxPair_toInt_1 64#32 128#32 128 (by decide)) rfl rfl
    (hi64 d) (lo128 h) (Nat.le_add_right _ _) h.isLt).trans (zeros_apply bcast_S_S128x256 (ix2 (hi64 d) (lo128 h)))

/-- The low-high block of `bdIn U` is zero. -/
theorem bdIn_lh (U : (⟨S64x128, .f32⟩ : BufTy).Contents (Elt Ideal)) (d : Fin 64) (h : Fin 128) :
    (bdIn U : S128x256.Idx → EReal) (ix2 (lo64 d) (hi128 h)) = (0 : EReal) :=
  (Cert.WindowScatter.diag_lh scatter_S128x256_S2_S64x128_01_n_01_0 rfl rfl rfl rfl
    (broadcastInDim S128x256 ![] bcast_S_S128x256 (constant (F := Ideal) S_ .f32 0x00000000#32)) (idxPair 0#32 0#32) (idxPair 64#32 128#32) U
    (idxPair_toInt_0 0#32 0#32 0 (by decide)) (idxPair_toInt_1 0#32 0#32 0 (by decide))
    (idxPair_toInt_0 64#32 128#32 64 (by decide)) (idxPair_toInt_1 64#32 128#32 128 (by decide)) rfl rfl
    (lo64 d) (hi128 h) d.isLt (Nat.le_add_right _ _)).trans (zeros_apply bcast_S_S128x256 (ix2 (lo64 d) (hi128 h)))

/-! ## A hidden layer's matrix: two copies of a `128 × 128` matrix in a `256 × 256` one -/

def bdHid (U : (⟨S128x128, .f32⟩ : BufTy).Contents (Elt Ideal)) : (⟨S256x256, .f32⟩ : BufTy).Contents (Elt Ideal) :=
  Host.scatter scatter_S256x256_S2_S128x128_01_n_01_0 (fun _ b => b)
    (Host.scatter scatter_S256x256_S2_S128x128_01_n_01_0 (fun _ b => b)
      (broadcastInDim S256x256 ![] bcast_S_S256x256 (constant (F := Ideal) S_ .f32 0x00000000#32)) (idxPair 0#32 0#32) U)
    (idxPair 128#32 128#32) U

/-- The low-low block of `bdHid U` is `U`. -/
theorem bdHid_ll (U : (⟨S128x128, .f32⟩ : BufTy).Contents (Elt Ideal)) (d : Fin 128) (h : Fin 128) :
    (bdHid U : S256x256.Idx → EReal) (ix2 (lo128 d) (lo128 h)) = U (ix2 d h) :=
  Cert.WindowScatter.diag_ll scatter_S256x256_S2_S128x128_01_n_01_0 rfl rfl rfl rfl
    (broadcastInDim S256x256 ![] bcast_S_S256x256 (constant (F := Ideal) S_ .f32 0x00000000#32)) (idxPair 0#32 0#32) (idxPair 128#32 128#32) U
    (idxPair_toInt_0 0#32 0#32 0 (by decide)) (idxPair_toInt_1 0#32 0#32 0 (by decide))
    (idxPair_toInt_0 128#32 128#32 128 (by decide)) (idxPair_toInt_1 128#32 128#32 128 (by decide)) rfl rfl
    (lo128 d) (lo128 h) d h rfl rfl

/-- The high-high block of `bdHid U` is `U`. -/
theorem bdHid_hh (U : (⟨S128x128, .f32⟩ : BufTy).Contents (Elt Ideal)) (d : Fin 128) (h : Fin 128) :
    (bdHid U : S256x256.Idx → EReal) (ix2 (hi128 d) (hi128 h)) = U (ix2 d h) :=
  Cert.WindowScatter.diag_hh scatter_S256x256_S2_S128x128_01_n_01_0 rfl rfl rfl rfl
    (broadcastInDim S256x256 ![] bcast_S_S256x256 (constant (F := Ideal) S_ .f32 0x00000000#32)) (idxPair 0#32 0#32) (idxPair 128#32 128#32) U
    (idxPair_toInt_0 0#32 0#32 0 (by decide)) (idxPair_toInt_1 0#32 0#32 0 (by decide))
    (idxPair_toInt_0 128#32 128#32 128 (by decide)) (idxPair_toInt_1 128#32 128#32 128 (by decide)) rfl rfl
    (hi128 d) (hi128 h) d h rfl rfl

/-- The high-low block of `bdHid U` is zero. -/
theorem bdHid_hl (U : (⟨S128x128, .f32⟩ : BufTy).Contents (Elt Ideal)) (d : Fin 128) (h : Fin 128) :
    (bdHid U : S256x256.Idx → EReal) (ix2 (hi128 d) (lo128 h)) = (0 : EReal) :=
  (Cert.WindowScatter.diag_hl scatter_S256x256_S2_S128x128_01_n_01_0 rfl rfl rfl rfl
    (broadcastInDim S256x256 ![] bcast_S_S256x256 (constant (F := Ideal) S_ .f32 0x00000000#32)) (idxPair 0#32 0#32) (idxPair 128#32 128#32) U
    (idxPair_toInt_0 0#32 0#32 0 (by decide)) (idxPair_toInt_1 0#32 0#32 0 (by decide))
    (idxPair_toInt_0 128#32 128#32 128 (by decide)) (idxPair_toInt_1 128#32 128#32 128 (by decide)) rfl rfl
    (hi128 d) (lo128 h) (Nat.le_add_right _ _) h.isLt).trans (zeros_apply bcast_S_S256x256 (ix2 (hi128 d) (lo128 h)))

/-- The low-high block of `bdHid U` is zero. -/
theorem bdHid_lh (U : (⟨S128x128, .f32⟩ : BufTy).Contents (Elt Ideal)) (d : Fin 128) (h : Fin 128) :
    (bdHid U : S256x256.Idx → EReal) (ix2 (lo128 d) (hi128 h)) = (0 : EReal) :=
  (Cert.WindowScatter.diag_lh scatter_S256x256_S2_S128x128_01_n_01_0 rfl rfl rfl rfl
    (broadcastInDim S256x256 ![] bcast_S_S256x256 (constant (F := Ideal) S_ .f32 0x00000000#32)) (idxPair 0#32 0#32) (idxPair 128#32 128#32) U
    (idxPair_toInt_0 0#32 0#32 0 (by decide)) (idxPair_toInt_1 0#32 0#32 0 (by decide))
    (idxPair_toInt_0 128#32 128#32 128 (by decide)) (idxPair_toInt_1 128#32 128#32 128 (by decide)) rfl rfl
    (lo128 d) (hi128 h) d.isLt (Nat.le_add_right _ _)).trans (zeros_apply bcast_S_S256x256 (ix2 (lo128 d) (hi128 h)))

/-! ## The output layer's matrix: two copies of a `128 × 64` matrix in a `256 × 128` one -/

def bdOut (U : (⟨S128x64, .f32⟩ : BufTy).Contents (Elt Ideal)) : (⟨S256x128, .f32⟩ : BufTy).Contents (Elt Ideal) :=
  Host.scatter scatter_S256x128_S2_S128x64_01_n_01_0 (fun _ b => b)
    (Host.scatter scatter_S256x128_S2_S128x64_01_n_01_0 (fun _ b => b)
      (broadcastInDim S256x128 ![] bcast_S_S256x128 (constant (F := Ideal) S_ .f32 0x00000000#32)) (idxPair 0#32 0#32) U)
    (idxPair 128#32 64#32) U

/-- The low-low block of `bdOut U` is `U`. -/
theorem bdOut_ll (U : (⟨S128x64, .f32⟩ : BufTy).Contents (Elt Ideal)) (d : Fin 128) (o : Fin 64) :
    (bdOut U : S256x128.Idx → EReal) (ix2 (lo128 d) (lo64 o)) = U (ix2 d o) :=
  Cert.WindowScatter.diag_ll scatter_S256x128_S2_S128x64_01_n_01_0 rfl rfl rfl rfl
    (broadcastInDim S256x128 ![] bcast_S_S256x128 (constant (F := Ideal) S_ .f32 0x00000000#32)) (idxPair 0#32 0#32) (idxPair 128#32 64#32) U
    (idxPair_toInt_0 0#32 0#32 0 (by decide)) (idxPair_toInt_1 0#32 0#32 0 (by decide))
    (idxPair_toInt_0 128#32 64#32 128 (by decide)) (idxPair_toInt_1 128#32 64#32 64 (by decide)) rfl rfl
    (lo128 d) (lo64 o) d o rfl rfl

/-- The high-high block of `bdOut U` is `U`. -/
theorem bdOut_hh (U : (⟨S128x64, .f32⟩ : BufTy).Contents (Elt Ideal)) (d : Fin 128) (o : Fin 64) :
    (bdOut U : S256x128.Idx → EReal) (ix2 (hi128 d) (hi64 o)) = U (ix2 d o) :=
  Cert.WindowScatter.diag_hh scatter_S256x128_S2_S128x64_01_n_01_0 rfl rfl rfl rfl
    (broadcastInDim S256x128 ![] bcast_S_S256x128 (constant (F := Ideal) S_ .f32 0x00000000#32)) (idxPair 0#32 0#32) (idxPair 128#32 64#32) U
    (idxPair_toInt_0 0#32 0#32 0 (by decide)) (idxPair_toInt_1 0#32 0#32 0 (by decide))
    (idxPair_toInt_0 128#32 64#32 128 (by decide)) (idxPair_toInt_1 128#32 64#32 64 (by decide)) rfl rfl
    (hi128 d) (hi64 o) d o rfl rfl

/-- The high-low block of `bdOut U` is zero. -/
theorem bdOut_hl (U : (⟨S128x64, .f32⟩ : BufTy).Contents (Elt Ideal)) (d : Fin 128) (o : Fin 64) :
    (bdOut U : S256x128.Idx → EReal) (ix2 (hi128 d) (lo64 o)) = (0 : EReal) :=
  (Cert.WindowScatter.diag_hl scatter_S256x128_S2_S128x64_01_n_01_0 rfl rfl rfl rfl
    (broadcastInDim S256x128 ![] bcast_S_S256x128 (constant (F := Ideal) S_ .f32 0x00000000#32)) (idxPair 0#32 0#32) (idxPair 128#32 64#32) U
    (idxPair_toInt_0 0#32 0#32 0 (by decide)) (idxPair_toInt_1 0#32 0#32 0 (by decide))
    (idxPair_toInt_0 128#32 64#32 128 (by decide)) (idxPair_toInt_1 128#32 64#32 64 (by decide)) rfl rfl
    (hi128 d) (lo64 o) (Nat.le_add_right _ _) o.isLt).trans (zeros_apply bcast_S_S256x128 (ix2 (hi128 d) (lo64 o)))

/-- The low-high block of `bdOut U` is zero. -/
theorem bdOut_lh (U : (⟨S128x64, .f32⟩ : BufTy).Contents (Elt Ideal)) (d : Fin 128) (o : Fin 64) :
    (bdOut U : S256x128.Idx → EReal) (ix2 (lo128 d) (hi64 o)) = (0 : EReal) :=
  (Cert.WindowScatter.diag_lh scatter_S256x128_S2_S128x64_01_n_01_0 rfl rfl rfl rfl
    (broadcastInDim S256x128 ![] bcast_S_S256x128 (constant (F := Ideal) S_ .f32 0x00000000#32)) (idxPair 0#32 0#32) (idxPair 128#32 64#32) U
    (idxPair_toInt_0 0#32 0#32 0 (by decide)) (idxPair_toInt_1 0#32 0#32 0 (by decide))
    (idxPair_toInt_0 128#32 64#32 128 (by decide)) (idxPair_toInt_1 128#32 64#32 64 (by decide)) rfl rfl
    (lo128 d) (hi64 o) d.isLt (Nat.le_add_right _ _)).trans (zeros_apply bcast_S_S256x128 (ix2 (lo128 d) (hi64 o)))

end Cert.KernelIdeal.BD

end
-- ==== Proof.KI.PrologueW.lean ====
/-
  What the staged arrays hold when the region is entered, read at an index: the input layer's and the output
  layer's staged weight matrices.

  Each layer's weights (one row per output unit) are transposed (one row per input) and written twice into a zero
  matrix of twice the size on both axes: once at the top left, once at the bottom right. The result is the
  block-diagonal matrix carrying two copies of the transposed weights: on the low-low and high-high quadrants it
  reads the transposed weight, on the two mixed quadrants it reads zero. The final conversion to the narrower format
  is the identity on extended reals.
-/
import proofs.«174390_j25202868092982_2_alg».proof.Proof.KI.PrologueA
import proofs.«174390_j25202868092982_2_alg».proof.Proof.KI.BlockDiag
import Idealize.ShloMosaic.Lib.StableHlo.Run

noncomputable section

namespace Cert.KernelIdeal.Pro

open Idealize.ShloMosaic Idealize.ShloMosaic.TcCoe Idealize.SL.Sem Idealize.ShloMosaic.ValueIdx
open Cert.KernelIdeal Cert.KernelIdeal.Gen Cert.KernelIdeal.Fr Cert.Mlp

variable (m : (ℓ : Loc nD τ sig) → Buf (Elt Ideal) ℓ) (c : Dev nD)

/-! ## What the two staged weight arrays are, as terms over the argument arrays -/

section ExtractW
open Idealize.ShloMosaic.StableHlo

set_option maxRecDepth 4096 in
set_option maxHeartbeats 4000000 in
/-- The input layer's staged weights: the block-diagonal matrix of the transposed weights, converted. -/
theorem v10_eq : (V m c main_v10 : S128x256.Idx → EReal) = (truncf .bf16 (BD.bdIn (transpose S64x128 [1, 0] (m ((c : Thread nD τ).loc main_arg1)) transposes_S128x64_S64x128_1_0)) bitsLt_bf16_f32 : FVec Ideal S128x256 .bf16) := by
  dsimp only [V, V0]
  simp only [hostOps0, List.flatten_cons, List.flatten_nil, List.append_nil]
  after_results <;> rfl

set_option maxRecDepth 4096 in
set_option maxHeartbeats 4000000 in
/-- The output layer's staged weights: the block-diagonal matrix of the transposed weights, converted. -/
theorem v60_eq : (V m c main_v60 : S256x128.Idx → EReal) = (truncf .bf16 (BD.bdOut (transpose S128x64 [1, 0] (m ((c : Thread nD τ).loc main_arg5)) transposes_S64x128_S128x64_1_0)) bitsLt_bf16_f32 : FVec Ideal S256x128 .bf16) := by
  dsimp only [V, V0]
  simp only [hostOps0, List.flatten_cons, List.flatten_nil, List.append_nil]
  after_results <;> rfl

end ExtractW

/-! ## The staged weights read at an index

A conversion to the narrower format is the identity on extended reals; a block-diagonal matrix reads its block on the
two diagonal quadrants and zero on the other two; a transpose swaps the coordinates. -/

theorem win_ll (d : Fin 64) (h : Fin 128) : (V m c main_v10 : S128x256.Idx → EReal) (ix2 (lo64 d) (lo128 h)) = argWIn m c h d := by
  refine (congrFun (v10_eq m c) _).trans ?_
  refine (truncf_apply _ bitsLt_bf16_f32 _).trans ?_
  refine (BD.bdIn_ll _ d h).trans ?_
  exact transpose_ix2_apply _ transposes_S128x64_S64x128_1_0 d h

theorem win_hh (d : Fin 64) (h : Fin 128) : (V m c main_v10 : S128x256.Idx → EReal) (ix2 (hi64 d) (hi128 h)) = argWIn m c h d := by
  refine (congrFun (v10_eq m c) _).trans ?_
  refine (truncf_apply _ bitsLt_bf16_f32 _).trans ?_
  refine (BD.bdIn_hh _ d h).trans ?_
  exact transpose_ix2_apply _ transposes_S128x64_S64x128_1_0 d h

theorem win_hl (d : Fin 64) (h : Fin 128) : (V m c main_v10 : S128x256.Idx → EReal) (ix2 (hi64 d) (lo128 h)) = (0 : EReal) := by
  refine (congrFun (v10_eq m c) _).trans ?_
  refine (truncf_apply _ bitsLt_bf16_f32 _).trans ?_
  exact BD.bdIn_hl _ d h

theorem win_lh (d : Fin 64) (h : Fin 128) : (V m c main_v10 : S128x256.Idx → EReal) (ix2 (lo64 d) (hi128 h)) = (0 : EReal) := by
  refine (congrFun (v10_eq m c) _).trans ?_
  refine (truncf_apply _ bitsLt_bf16_f32 _).trans ?_
  exact BD.bdIn_lh _ d h

theorem wout_ll (d : Fin 128) (o : Fin 64) : (V m c main_v60 : S256x128.Idx → EReal) (ix2 (lo128 d) (lo64 o)) = argWOut m c o d := by
  refine (congrFun (v60_eq m c) _).trans ?_
  refine (truncf_apply _ bitsLt_bf16_f32 _).trans ?_
  refine (BD.bdOut_ll _ d o).trans ?_
  exact transpose_ix2_apply _ transposes_S64x128_S128x64_1_0 d o

theorem wout_hh (d : Fin 128) (o : Fin 64) : (V m c main_v60 : S256x128.Idx → EReal) (ix2 (hi128 d) (hi64 o)) = argWOut m c o d := by
  refine (congrFun (v60_eq m c) _).trans ?_
  refine (truncf_apply _ bitsLt_bf16_f32 _).trans ?_
  refine (BD.bdOut_hh _ d o).trans ?_
  exact transpose_ix2_apply _ transposes_S64x128_S128x64_1_0 d o

theorem wout_hl (d : Fin 128) (o : Fin 64) : (V m c main_v60 : S256x128.Idx → EReal) (ix2 (hi128 d) (lo64 o)) = (0 : EReal) := by
  refine (congrFun (v60_eq m c) _).trans ?_
  refine (truncf_apply _ bitsLt_bf16_f32 _).trans ?_
  exact BD.bdOut_hl _ d o

theorem wout_lh (d : Fin 128) (o : Fin 64) : (V m c main_v60 : S256x128.Idx → EReal) (ix2 (lo128 d) (hi64 o)) = (0 : EReal) := by
  refine (congrFun (v60_eq m c) _).trans ?_
  refine (truncf_apply _ bitsLt_bf16_f32 _).trans ?_
  exact BD.bdOut_lh _ d o

end Cert.KernelIdeal.Pro

end
-- ==== Proof.KI.PrologueCut.lean ====
/-
  The ninety host operations before the region, cut into seven consecutive stretches, and what the stretch that
  stages the hidden layers' weights computes.

  The contents of the buffers after a line of operations is a left fold of the operations over the contents before
  it, so the contents after two lines is the second line's fold over the first line's (`after_append`). A buffer
  written in one stretch is therefore read off that stretch alone, from whatever contents `X` the earlier stretches
  left; and a stretch that does not write a buffer leaves it as it was. The staged hidden weights come out as: the
  stacked weights as launched, reshaped to three matrices; of each, the transpose made block-diagonal (two copies);
  the three block-diagonal matrices stacked by rows; the stack converted.
-/
import proofs.«174390_j25202868092982_2_alg».proof.Proof.KI.Args
import Idealize.ShloMosaic.Lib.StableHlo.Run
import proofs.«174390_j25202868092982_2_alg».proof.Proof.KI.BlockDiag

set_option maxRecDepth 4096

noncomputable section

namespace Cert.KernelIdeal.ProH

open Idealize.ShloMosaic Idealize.ShloMosaic.TcCoe Idealize.SL.Sem
open Cert.KernelIdeal Cert.KernelIdeal.Gen Cert.KernelIdeal.Fr

/-- Running two lines one after the other is running their concatenation. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

/-- Operations 1 to 16: the input layer's block-diagonal matrix. -/
abbrev cIn : List (HloOp τ sig (Elt Ideal)) :=
  [ StableHlo.unary main_arg1 main_v0 ((transpose S64x128 [1, 0] · transposes_S128x64_S64x128_1_0) : (⟨S128x64, .f32⟩ : BufTy).Contents (Elt Ideal) → (⟨S64x128, .f32⟩ : BufTy).Contents (Elt Ideal)),
    StableHlo.nullary main_cst (constant (F := Ideal) S_ .f32 0x00000000#32),
    StableHlo.unary main_cst main_v1 (broadcastInDim S128x256 ![] bcast_S_S128x256 : (⟨S_, .f32⟩ : BufTy).Contents (Elt Ideal) → (⟨S128x256, .f32⟩ : BufTy).Contents (Elt Ideal)),
    StableHlo.nullary main_c (constantI S_ 32 0#32),
    StableHlo.unary main_c main_v2 (broadcastInDim S1 ![] bcast_S_S1 : (⟨S_, .i32⟩ : BufTy).Contents (Elt Ideal) → (⟨S1, .i32⟩ : BufTy).Contents (Elt Ideal)),
    StableHlo.nullary main_c_0 (constantI S_ 32 0#32),
    StableHlo.unary main_c_0 main_v3 (broadcastInDim S1 ![] bcast_S_S1 : (⟨S_, .i32⟩ : BufTy).Contents (Elt Ideal) → (⟨S1, .i32⟩ : BufTy).Contents (Elt Ideal)),
    StableHlo.binary main_v2 main_v3 main_v4 ((fun a b => concatenate S2 0 [⟨S1, a⟩, ⟨S1, b⟩] concatenates_S1_S1_S2_d0) : (⟨S1, .i32⟩ : BufTy).Contents (Elt Ideal) → (⟨S1, .i32⟩ : BufTy).Contents (Elt Ideal) → (⟨S2, .i32⟩ : BufTy).Contents (Elt Ideal)),
    StableHlo.ternary main_v1 main_v4 main_v0 main_v5 ((fun x i u => Host.scatter scatter_S128x256_S2_S64x128_01_n_01_0 (fun _ b => b) x i u) : (⟨S128x256, .f32⟩ : BufTy).Contents (Elt Ideal) → (⟨S2, .i32⟩ : BufTy).Contents (Elt Ideal) → (⟨S64x128, .f32⟩ : BufTy).Contents (Elt Ideal) → (⟨S128x256, .f32⟩ : BufTy).Contents (Elt Ideal)),
    StableHlo.nullary main_c_1 (constantI S_ 32 64#32),
    StableHlo.unary main_c_1 main_v6 (broadcastInDim S1 ![] bcast_S_S1 : (⟨S_, .i32⟩ : BufTy).Contents (Elt Ideal) → (⟨S1, .i32⟩ : BufTy).Contents (Elt Ideal)),
    StableHlo.nullary main_c_2 (constantI S_ 32 128#32),
    StableHlo.unary main_c_2 main_v7 (broadcastInDim S1 ![] bcast_S_S1 : (⟨S_, .i32⟩ : BufTy).Contents (Elt Ideal) → (⟨S1, .i32⟩ : BufTy).Contents (Elt Ideal)),
    StableHlo.binary main_v6 main_v7 main_v8 ((fun a b => concatenate S2 0 [⟨S1, a⟩, ⟨S1, b⟩] concatenates_S1_S1_S2_d0) : (⟨S1, .i32⟩ : BufTy).Contents (Elt Ideal) → (⟨S1, .i32⟩ : BufTy).Contents (Elt Ideal) → (⟨S2, .i32⟩ : BufTy).Contents (Elt Ideal)),
    StableHlo.ternary main_v5 main_v8 main_v0 main_v9 ((fun x i u => Host.scatter scatter_S128x256_S2_S64x128_01_n_01_0 (fun _ b => b) x i u) : (⟨S128x256, .f32⟩ : BufTy).Contents (Elt Ideal) → (⟨S2, .i32⟩ : BufTy).Contents (Elt Ideal) → (⟨S64x128, .f32⟩ : BufTy).Contents (Elt Ideal) → (⟨S128x256, .f32⟩ : BufTy).Contents (Elt Ideal)),
    StableHlo.unary main_v9 main_v10 ((truncf (F := Ideal) .bf16 · bitsLt_bf16_f32) : (⟨S128x256, .f32⟩ : BufTy).Contents (Elt Ideal) → (⟨S128x256, .bf16⟩ : BufTy).Contents (Elt Ideal)) ]

/-- Operation 17: the stacked hidden weights as three matrices. -/
abbrev cR : List (HloOp τ sig (Elt Ideal)) :=
  [ StableHlo.reshape main_arg3 main_v11 rfl shapeCasts_S384x128_S3x128x128 ]

/-- Operations 18 to 34: hidden layer 1's block-diagonal matrix. -/
abbrev cH0 : List (HloOp τ sig (Elt Ideal)) :=
  [ StableHlo.unary main_v11 main_v12 ((extractStridedSlice S1x128x128 ![0, 0, 0] · slices_S3x128x128_S1x128x128_0_0_0) : (⟨S3x128x128, .f32⟩ : BufTy).Contents (Elt Ideal) → (⟨S1x128x128, .f32⟩ : BufTy).Contents (Elt Ideal)),
    StableHlo.reshape main_v12 main_v13 rfl shapeCasts_S1x128x128_S128x128,
    StableHlo.unary main_v13 main_v14 ((transpose S128x128 [1, 0] · transposes_S128x128_S128x128_1_0) : (⟨S128x128, .f32⟩ : BufTy).Contents (Elt Ideal) → (⟨S128x128, .f32⟩ : BufTy).Contents (Elt Ideal)),
    StableHlo.nullary main_cst_3 (constant (F := Ideal) S_ .f32 0x00000000#32),
    StableHlo.unary main_cst_3 main_v15 (broadcastInDim S256x256 ![] bcast_S_S256x256 : (⟨S_, .f32⟩ : BufTy).Contents (Elt Ideal) → (⟨S256x256, .f32⟩ : BufTy).Contents (Elt Ideal)),
    StableHlo.nullary main_c_4 (constantI S_ 32 0#32),
    StableHlo.unary main_c_4 main_v16 (broadcastInDim S1 ![] bcast_S_S1 : (⟨S_, .i32⟩ : BufTy).Contents (Elt Ideal) → (⟨S1, .i32⟩ : BufTy).Contents (Elt Ideal)),
    StableHlo.nullary main_c_5 (constantI S_ 32 0#32),
    StableHlo.unary main_c_5 main_v17 (broadcastInDim S1 ![] bcast_S_S1 : (⟨S_, .i32⟩ : BufTy).Contents (Elt Ideal) → (⟨S1, .i32⟩ : BufTy).Contents (Elt Ideal)),
    StableHlo.binary main_v16 main_v17 main_v18 ((fun a b => concatenate S2 0 [⟨S1, a⟩, ⟨S1, b⟩] concatenates_S1_S1_S2_d0) : (⟨S1, .i32⟩ : BufTy).Contents (Elt Ideal) → (⟨S1, .i32⟩ : BufTy).Contents (Elt Ideal) → (⟨S2, .i32⟩ : BufTy).Contents (Elt Ideal)),
    StableHlo.ternary main_v15 main_v18 main_v14 main_v19 ((fun x i u => Host.scatter scatter_S256x256_S2_S128x128_01_n_01_0 (fun _ b => b) x i u) : (⟨S256x256, .f32⟩ : BufTy).Contents (Elt Ideal) → (⟨S2, .i32⟩ : BufTy).Contents (Elt Ideal) → (⟨S128x128, .f32⟩ : BufTy).Contents (Elt Ideal) → (⟨S256x256, .f32⟩ : BufTy).Contents (Elt Ideal)),
    StableHlo.nullary main_c_6 (constantI S_ 32 128#32),
    StableHlo.unary main_c_6 main_v20 (broadcastInDim S1 ![] bcast_S_S1 : (⟨S_, .i32⟩ : BufTy).Contents (Elt Ideal) → (⟨S1, .i32⟩ : BufTy).Contents (Elt Ideal)),
    StableHlo.nullary main_c_7 (constantI S_ 32 128#32),
    StableHlo.unary main_c_7 main_v21 (broadcastInDim S1 ![] bcast_S_S1 : (⟨S_, .i32⟩ : BufTy).Contents (Elt Ideal) → (⟨S1, .i32⟩ : BufTy).Contents (Elt Ideal)),
    StableHlo.binary main_v20 main_v21 main_v22 ((fun a b => concatenate S2 0 [⟨S1, a⟩, ⟨S1, b⟩] concatenates_S1_S1_S2_d0) : (⟨S1, .i32⟩ : BufTy).Contents (Elt Ideal) → (⟨S1, .i32⟩ : BufTy).Contents (Elt Ideal) → (⟨S2, .i32⟩ : BufTy).Contents (Elt Ideal)),
    StableHlo.ternary main_v19 main_v22 main_v14 main_v23 ((fun x i u => Host.scatter scatter_S256x256_S2_S128x128_01_n_01_0 (fun _ b => b) x i u) : (⟨S256x256, .f32⟩ : BufTy).Contents (Elt Ideal) → (⟨S2, .i32⟩ : BufTy).Contents (Elt Ideal) → (⟨S128x128, .f32⟩ : BufTy).Contents (Elt Ideal) → (⟨S256x256, .f32⟩ : BufTy).Contents (Elt Ideal)) ]

/-- Operations 35 to 51: hidden layer 2's block-diagonal matrix. -/
abbrev cH1 : List (HloOp τ sig (Elt Ideal)) :=
  [ StableHlo.unary main_v11 main_v24 ((extractStridedSlice S1x128x128 ![1, 0, 0] · slices_S3x128x128_S1x128x128_1_0_0) : (⟨S3x128x128, .f32⟩ : BufTy).Contents (Elt Ideal) → (⟨S1x128x128, .f32⟩ : BufTy).Contents (Elt Ideal)),
    StableHlo.reshape main_v24 main_v25 rfl shapeCasts_S1x128x128_S128x128,
    StableHlo.unary main_v25 main_v26 ((transpose S128x128 [1, 0] · transposes_S128x128_S128x128_1_0) : (⟨S128x128, .f32⟩ : BufTy).Contents (Elt Ideal) → (⟨S128x128, .f32⟩ : BufTy).Contents (Elt Ideal)),
    StableHlo.nullary main_cst_8 (constant (F := Ideal) S_ .f32 0x00000000#32),
    StableHlo.unary main_cst_8 main_v27 (broadcastInDim S256x256 ![] bcast_S_S256x256 : (⟨S_, .f32⟩ : BufTy).Contents (Elt Ideal) → (⟨S256x256, .f32⟩ : BufTy).Contents (Elt Ideal)),
    StableHlo.nullary main_c_9 (constantI S_ 32 0#32),
    StableHlo.unary main_c_9 main_v28 (broadcastInDim S1 ![] bcast_S_S1 : (⟨S_, .i32⟩ : BufTy).Contents (Elt Ideal) → (⟨S1, .i32⟩ : BufTy).Contents (Elt Ideal)),
    StableHlo.nullary main_c_10 (constantI S_ 32 0#32),
    StableHlo.unary main_c_10 main_v29 (broadcastInDim S1 ![] bcast_S_S1 : (⟨S_, .i32⟩ : BufTy).Contents (Elt Ideal) → (⟨S1, .i32⟩ : BufTy).Contents (Elt Ideal)),
    StableHlo.binary main_v28 main_v29 main_v30 ((fun a b => concatenate S2 0 [⟨S1, a⟩, ⟨S1, b⟩] concatenates_S1_S1_S2_d0) : (⟨S1, .i32⟩ : BufTy).Contents (Elt Ideal) → (⟨S1, .i32⟩ : BufTy).Contents (Elt Ideal) → (⟨S2, .i32⟩ : BufTy).Contents (Elt Ideal)),
    StableHlo.ternary main_v27 main_v30 main_v26 main_v31 ((fun x i u => Host.scatter scatter_S256x256_S2_S128x128_01_n_01_0 (fun _ b => b) x i u) : (⟨S256x256, .f32⟩ : BufTy).Contents (Elt Ideal) → (⟨S2, .i32⟩ : BufTy).Contents (Elt Ideal) → (⟨S128x128, .f32⟩ : BufTy).Contents (Elt Ideal) → (⟨S256x256, .f32⟩ : BufTy).Contents (Elt Ideal)),
    StableHlo.nullary main_c_11 (constantI S_ 32 128#32),
    StableHlo.unary main_c_11 main_v32 (broadcastInDim S1 ![] bcast_S_S1 : (⟨S_, .i32⟩ : BufTy).Contents (Elt Ideal) → (⟨S1, .i32⟩ : BufTy).Contents (Elt Ideal)),
    StableHlo.nullary main_c_12 (constantI S_ 32 128#32),
    StableHlo.unary main_c_12 main_v33 (broadcastInDim S1 ![] bcast_S_S1 : (⟨S_, .i32⟩ : BufTy).Contents (Elt Ideal) → (⟨S1, .i32⟩ : BufTy).Contents (Elt Ideal)),
    StableHlo.binary main_v32 main_v33 main_v34 ((fun a b => concatenate S2 0 [⟨S1, a⟩, ⟨S1, b⟩] concatenates_S1_S1_S2_d0) : (⟨S1, .i32⟩ : BufTy).Contents (Elt Ideal) → (⟨S1, .i32⟩ : BufTy).Contents (Elt Ideal) → (⟨S2, .i32⟩ : BufTy).Contents (Elt Ideal)),
    StableHlo.ternary main_v31 main_v34 main_v26 main_v35 ((fun x i u => Host.scatter scatter_S256x256_S2_S128x128_01_n_01_0 (fun _ b => b) x i u) : (⟨S256x256, .f32⟩ : BufTy).Contents (Elt Ideal) → (⟨S2, .i32⟩ : BufTy).Contents (Elt Ideal) → (⟨S128x128, .f32⟩ : BufTy).Contents (Elt Ideal) → (⟨S256x256, .f32⟩ : BufTy).Contents (Elt Ideal)) ]

/-- Operations 52 to 68: hidden layer 3's block-diagonal matrix. -/
abbrev cH2 : List (HloOp τ sig (Elt Ideal)) :=
  [ StableHlo.unary main_v11 main_v36 ((extractStridedSlice S1x128x128 ![2, 0, 0] · slices_S3x128x128_S1x128x128_2_0_0) : (⟨S3x128x128, .f32⟩ : BufTy).Contents (Elt Ideal) → (⟨S1x128x128, .f32⟩ : BufTy).Contents (Elt Ideal)),
    StableHlo.reshape main_v36 main_v37 rfl shapeCasts_S1x128x128_S128x128,
    StableHlo.unary main_v37 main_v38 ((transpose S128x128 [1, 0] · transposes_S128x128_S128x128_1_0) : (⟨S128x128, .f32⟩ : BufTy).Contents (Elt Ideal) → (⟨S128x128, .f32⟩ : BufTy).Contents (Elt Ideal)),
    StableHlo.nullary main_cst_13 (constant (F := Ideal) S_ .f32 0x00000000#32),
    StableHlo.unary main_cst_13 main_v39 (broadcastInDim S256x256 ![] bcast_S_S256x256 : (⟨S_, .f32⟩ : BufTy).Contents (Elt Ideal) → (⟨S256x256, .f32⟩ : BufTy).Contents (Elt Ideal)),
    StableHlo.nullary main_c_14 (constantI S_ 32 0#32),
    StableHlo.unary main_c_14 main_v40 (broadcastInDim S1 ![] bcast_S_S1 : (⟨S_, .i32⟩ : BufTy).Contents (Elt Ideal) → (⟨S1, .i32⟩ : BufTy).Contents (Elt Ideal)),
    StableHlo.nullary main_c_15 (constantI S_ 32 0#32),
    StableHlo.unary main_c_15 main_v41 (broadcastInDim S1 ![] bcast_S_S1 : (⟨S_, .i32⟩ : BufTy).Contents (Elt Ideal) → (⟨S1, .i32⟩ : BufTy).Contents (Elt Ideal)),
    StableHlo.binary main_v40 main_v41 main_v42 ((fun a b => concatenate S2 0 [⟨S1, a⟩, ⟨S1, b⟩] concatenates_S1_S1_S2_d0) : (⟨S1, .i32⟩ : BufTy).Contents (Elt Ideal) → (⟨S1, .i32⟩ : BufTy).Contents (Elt Ideal) → (⟨S2, .i32⟩ : BufTy).Contents (Elt Ideal)),
    StableHlo.ternary main_v39 main_v42 main_v38 main_v43 ((fun x i u => Host.scatter scatter_S256x256_S2_S128x128_01_n_01_0 (fun _ b => b) x i u) : (⟨S256x256, .f32⟩ : BufTy).Contents (Elt Ideal) → (⟨S2, .i32⟩ : BufTy).Contents (Elt Ideal) → (⟨S128x128, .f32⟩ : BufTy).Contents (Elt Ideal) → (⟨S256x256, .f32⟩ : BufTy).Contents (Elt Ideal)),
    StableHlo.nullary main_c_16 (constantI S_ 32 128#32),
    StableHlo.unary main_c_16 main_v44 (broadcastInDim S1 ![] bcast_S_S1 : (⟨S_, .i32⟩ : BufTy).Contents (Elt Ideal) → (⟨S1, .i32⟩ : BufTy).Contents (Elt Ideal)),
    StableHlo.nullary main_c_17 (constantI S_ 32 128#32),
    StableHlo.unary main_c_17 main_v45 (broadcastInDim S1 ![] bcast_S_S1 : (⟨S_, .i32⟩ : BufTy).Contents (Elt Ideal) → (⟨S1, .i32⟩ : BufTy).Contents (Elt Ideal)),
    StableHlo.binary main_v44 main_v45 main_v46 ((fun a b => concatenate S2 0 [⟨S1, a⟩, ⟨S1, b⟩] concatenates_S1_S1_S2_d0) : (⟨S1, .i32⟩ : BufTy).Contents (Elt Ideal) → (⟨S1, .i32⟩ : BufTy).Contents (Elt Ideal) → (⟨S2, .i32⟩ : BufTy).Contents (Elt Ideal)),
    StableHlo.ternary main_v43 main_v46 main_v38 main_v47 ((fun x i u => Host.scatter scatter_S256x256_S2_S128x128_01_n_01_0 (fun _ b => b) x i u) : (⟨S256x256, .f32⟩ : BufTy).Contents (Elt Ideal) → (⟨S2, .i32⟩ : BufTy).Contents (Elt Ideal) → (⟨S128x128, .f32⟩ : BufTy).Contents (Elt Ideal) → (⟨S256x256, .f32⟩ : BufTy).Contents (Elt Ideal)) ]

/-- Operations 69 and 70: the three matrices stacked, then converted. -/
abbrev cCat : List (HloOp τ sig (Elt Ideal)) :=
  [ StableHlo.nary ![main_v23, main_v35, main_v47] main_v48 (fun u => concatenate S768x256 0 [⟨S256x256, u 0⟩, ⟨S256x256, u 1⟩, ⟨S256x256, u 2⟩] concatenates_S256x256_S256x256_S256x256_S768x256_d0),
    StableHlo.unary main_v48 main_v49 ((truncf (F := Ideal) .bf16 · bitsLt_bf16_f32) : (⟨S768x256, .f32⟩ : BufTy).Contents (Elt Ideal) → (⟨S768x256, .bf16⟩ : BufTy).Contents (Elt Ideal)) ]

/-- Operations 71 to 90: the output layer's matrix, the doubled biases, the packed input. -/
abbrev cRest : List (HloOp τ sig (Elt Ideal)) :=
  [ StableHlo.unary main_arg5 main_v50 ((transpose S128x64 [1, 0] · transposes_S64x128_S128x64_1_0) : (⟨S64x128, .f32⟩ : BufTy).Contents (Elt Ideal) → (⟨S128x64, .f32⟩ : BufTy).Contents (Elt Ideal)),
    StableHlo.nullary main_cst_18 (constant (F := Ideal) S_ .f32 0x00000000#32),
    StableHlo.unary main_cst_18 main_v51 (broadcastInDim S256x128 ![] bcast_S_S256x128 : (⟨S_, .f32⟩ : BufTy).Contents (Elt Ideal) → (⟨S256x128, .f32⟩ : BufTy).Contents (Elt Ideal)),
    StableHlo.nullary main_c_19 (constantI S_ 32 0#32),
    StableHlo.unary main_c_19 main_v52 (broadcastInDim S1 ![] bcast_S_S1 : (⟨S_, .i32⟩ : BufTy).Contents (Elt Ideal) → (⟨S1, .i32⟩ : BufTy).Contents (Elt Ideal)),
    StableHlo.nullary main_c_20 (constantI S_ 32 0#32),
    StableHlo.unary main_c_20 main_v53 (broadcastInDim S1 ![] bcast_S_S1 : (⟨S_, .i32⟩ : BufTy).Contents (Elt Ideal) → (⟨S1, .i32⟩ : BufTy).Contents (Elt Ideal)),
    StableHlo.binary main_v52 main_v53 main_v54 ((fun a b => concatenate S2 0 [⟨S1, a⟩, ⟨S1, b⟩] concatenates_S1_S1_S2_d0) : (⟨S1, .i32⟩ : BufTy).Contents (Elt Ideal) → (⟨S1, .i32⟩ : BufTy).Contents (Elt Ideal) → (⟨S2, .i32⟩ : BufTy).Contents (Elt Ideal)),
    StableHlo.ternary main_v51 main_v54 main_v50 main_v55 ((fun x i u => Host.scatter scatter_S256x128_S2_S128x64_01_n_01_0 (fun _ b => b) x i u) : (⟨S256x128, .f32⟩ : BufTy).Contents (Elt Ideal) → (⟨S2, .i32⟩ : BufTy).Contents (Elt Ideal) → (⟨S128x64, .f32⟩ : BufTy).Contents (Elt Ideal) → (⟨S256x128, .f32⟩ : BufTy).Contents (Elt Ideal)),
    StableHlo.nullary main_c_21 (constantI S_ 32 128#32),
    StableHlo.unary main_c_21 main_v56 (broadcastInDim S1 ![] bcast_S_S1 : (⟨S_, .i32⟩ : BufTy).Contents (Elt Ideal) → (⟨S1, .i32⟩ : BufTy).Contents (Elt Ideal)),
    StableHlo.nullary main_c_22 (constantI S_ 32 64#32),
    StableHlo.unary main_c_22 main_v57 (broadcastInDim S1 ![] bcast_S_S1 : (⟨S_, .i32⟩ : BufTy).Contents (Elt Ideal) → (⟨S1, .i32⟩ : BufTy).Contents (Elt Ideal)),
    StableHlo.binary main_v56 main_v57 main_v58 ((fun a b => concatenate S2 0 [⟨S1, a⟩, ⟨S1, b⟩] concatenates_S1_S1_S2_d0) : (⟨S1, .i32⟩ : BufTy).Contents (Elt Ideal) → (⟨S1, .i32⟩ : BufTy).Contents (Elt Ideal) → (⟨S2, .i32⟩ : BufTy).Contents (Elt Ideal)),
    StableHlo.ternary main_v55 main_v58 main_v50 main_v59 ((fun x i u => Host.scatter scatter_S256x128_S2_S128x64_01_n_01_0 (fun _ b => b) x i u) : (⟨S256x128, .f32⟩ : BufTy).Contents (Elt Ideal) → (⟨S2, .i32⟩ : BufTy).Contents (Elt Ideal) → (⟨S128x64, .f32⟩ : BufTy).Contents (Elt Ideal) → (⟨S256x128, .f32⟩ : BufTy).Contents (Elt Ideal)),
    StableHlo.unary main_v59 main_v60 ((truncf (F := Ideal) .bf16 · bitsLt_bf16_f32) : (⟨S256x128, .f32⟩ : BufTy).Contents (Elt Ideal) → (⟨S256x128, .bf16⟩ : BufTy).Contents (Elt Ideal)),
    StableHlo.binary main_arg2 main_arg2 main_v61 ((fun a b => concatenate S256 0 [⟨S128, a⟩, ⟨S128, b⟩] concatenates_S128_S128_S256_d0) : (⟨S128, .f32⟩ : BufTy).Contents (Elt Ideal) → (⟨S128, .f32⟩ : BufTy).Contents (Elt Ideal) → (⟨S256, .f32⟩ : BufTy).Contents (Elt Ideal)),
    StableHlo.binary main_arg4 main_arg4 main_v62 ((fun a b => concatenate S3x256 1 [⟨S3x128, a⟩, ⟨S3x128, b⟩] concatenates_S3x128_S3x128_S3x256_d1) : (⟨S3x128, .f32⟩ : BufTy).Contents (Elt Ideal) → (⟨S3x128, .f32⟩ : BufTy).Contents (Elt Ideal) → (⟨S3x256, .f32⟩ : BufTy).Contents (Elt Ideal)),
    StableHlo.binary main_arg6 main_arg6 main_v63 ((fun a b => concatenate S128 0 [⟨S64, a⟩, ⟨S64, b⟩] concatenates_S64_S64_S128_d0) : (⟨S64, .f32⟩ : BufTy).Contents (Elt Ideal) → (⟨S64, .f32⟩ : BufTy).Contents (Elt Ideal) → (⟨S128, .f32⟩ : BufTy).Contents (Elt Ideal)),
    StableHlo.reshape main_arg0 main_v64 rfl shapeCasts_S1048576x64_S524288x128 ]

set_option maxHeartbeats 4000000 in
/-- The ninety operations are these seven stretches in order. -/
theorem hostOps0_cut : (hostOps0 : List (HloOp τ sig (Elt Ideal))) = cIn ++ (cR ++ (cH0 ++ (cH1 ++ (cH2 ++ (cCat ++ cRest))))) := rfl

/-! ## What a stretch leaves alone -/

theorem cIn_keeps_arg3 (X : Valuation τ sig (Elt Ideal)) :
    StableHlo.after cIn X (Proc.devRef .tc main_arg3) = X (Proc.devRef .tc main_arg3) :=
  StableHlo.after_of_forall_not_mem (b := Proc.devRef .tc main_arg3) _ _ (List.forall_iff_forall_mem.mp (by
    simp only [cIn, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

theorem cH0_keeps_v11 (X : Valuation τ sig (Elt Ideal)) :
    StableHlo.after cH0 X (Proc.devRef .tc main_v11) = X (Proc.devRef .tc main_v11) :=
  StableHlo.after_of_forall_not_mem (b := Proc.devRef .tc main_v11) _ _ (List.forall_iff_forall_mem.mp (by
    simp only [cH0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

theorem cH1_keeps_v11 (X : Valuation τ sig (Elt Ideal)) :
    StableHlo.after cH1 X (Proc.devRef .tc main_v11) = X (Proc.devRef .tc main_v11) :=
  StableHlo.after_of_forall_not_mem (b := Proc.devRef .tc main_v11) _ _ (List.forall_iff_forall_mem.mp (by
    simp only [cH1, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

theorem cH1_keeps_v23 (X : Valuation τ sig (Elt Ideal)) :
    StableHlo.after cH1 X (Proc.devRef .tc main_v23) = X (Proc.devRef .tc main_v23) :=
  StableHlo.after_of_forall_not_mem (b := Proc.devRef .tc main_v23) _ _ (List.forall_iff_forall_mem.mp (by
    simp only [cH1, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

theorem cH2_keeps_v23 (X : Valuation τ sig (Elt Ideal)) :
    StableHlo.after cH2 X (Proc.devRef .tc main_v23) = X (Proc.devRef .tc main_v23) :=
  StableHlo.after_of_forall_not_mem (b := Proc.devRef .tc main_v23) _ _ (List.forall_iff_forall_mem.mp (by
    simp only [cH2, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

theorem cH2_keeps_v35 (X : Valuation τ sig (Elt Ideal)) :
    StableHlo.after cH2 X (Proc.devRef .tc main_v35) = X (Proc.devRef .tc main_v35) :=
  StableHlo.after_of_forall_not_mem (b := Proc.devRef .tc main_v35) _ _ (List.forall_iff_forall_mem.mp (by
    simp only [cH2, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

theorem cRest_keeps_v49 (X : Valuation τ sig (Elt Ideal)) :
    StableHlo.after cRest X (Proc.devRef .tc main_v49) = X (Proc.devRef .tc main_v49) :=
  StableHlo.after_of_forall_not_mem (b := Proc.devRef .tc main_v49) _ _ (List.forall_iff_forall_mem.mp (by
    simp only [cRest, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-! ## What a stretch computes, from any contents before it -/

/-- The stacked hidden weights as three matrices. -/
theorem cR_v11 (X : Valuation τ sig (Elt Ideal)) :
    StableHlo.after cR X (Proc.devRef .tc main_v11)
      = shapeCast S3x128x128 (X (Proc.devRef .tc main_arg3)) shapeCasts_S384x128_S3x128x128 := by
  after_results
  rfl

set_option maxHeartbeats 1000000 in
/-- Hidden layer 1's matrix: the block-diagonal matrix of slice 0 of the three, transposed. -/
theorem cH0_v23 (X : Valuation τ sig (Elt Ideal)) :
    StableHlo.after cH0 X (Proc.devRef .tc main_v23)
      = BD.bdHid (transpose S128x128 [1, 0] (shapeCast S128x128 (extractStridedSlice S1x128x128 ![0, 0, 0] (X (Proc.devRef .tc main_v11)) slices_S3x128x128_S1x128x128_0_0_0) shapeCasts_S1x128x128_S128x128) transposes_S128x128_S128x128_1_0) := by
  after_results
  rfl

set_option maxHeartbeats 1000000 in
/-- Hidden layer 2's matrix: the same of slice 1. -/
theorem cH1_v35 (X : Valuation τ sig (Elt Ideal)) :
    StableHlo.after cH1 X (Proc.devRef .tc main_v35)
      = BD.bdHid (transpose S128x128 [1, 0] (shapeCast S128x128 (extractStridedSlice S1x128x128 ![1, 0, 0] (X (Proc.devRef .tc main_v11)) slices_S3x128x128_S1x128x128_1_0_0) shapeCasts_S1x128x128_S128x128) transposes_S128x128_S128x128_1_0) := by
  after_results
  rfl

set_option maxHeartbeats 1000000 in
/-- Hidden layer 3's matrix: the same of slice 2. -/
theorem cH2_v47 (X : Valuation τ sig (Elt Ideal)) :
    StableHlo.after cH2 X (Proc.devRef .tc main_v47)
      = BD.bdHid (transpose S128x128 [1, 0] (shapeCast S128x128 (extractStridedSlice S1x128x128 ![2, 0, 0] (X (Proc.devRef .tc main_v11)) slices_S3x128x128_S1x128x128_2_0_0) shapeCasts_S1x128x128_S128x128) transposes_S128x128_S128x128_1_0) := by
  after_results
  rfl

/-- The three matrices stacked by rows, then converted. -/
theorem cCat_v49 (X : Valuation τ sig (Elt Ideal)) :
    StableHlo.after cCat X (Proc.devRef .tc main_v49)
      = truncf (F := Ideal) .bf16 (concatenate S768x256 0 [⟨S256x256, X (Proc.devRef .tc main_v23)⟩, ⟨S256x256, X (Proc.devRef .tc main_v35)⟩, ⟨S256x256, X (Proc.devRef .tc main_v47)⟩] concatenates_S256x256_S256x256_S256x256_S768x256_d0) bitsLt_bf16_f32 := by
  after_results
  rfl

/-! ## The staged hidden weights when the region is entered -/

variable (m : (ℓ : Loc nD τ sig) → Buf (Elt Ideal) ℓ) (c : Dev nD)

/-- The stacked hidden weights as launched, as three matrices. -/
abbrev w3 : (⟨S3x128x128, .f32⟩ : BufTy).Contents (Elt Ideal) :=
  shapeCast S3x128x128 (m ((c : Thread nD τ).loc main_arg3)) shapeCasts_S384x128_S3x128x128

/-- When the region is entered the staged hidden weights are the three block-diagonal matrices, stacked and converted. -/
theorem V_v49 : V m c main_v49
    = truncf (F := Ideal) .bf16 (concatenate S768x256 0
        [⟨S256x256, BD.bdHid (transpose S128x128 [1, 0] (shapeCast S128x128 (extractStridedSlice S1x128x128 ![0, 0, 0] (w3 m c) slices_S3x128x128_S1x128x128_0_0_0) shapeCasts_S1x128x128_S128x128) transposes_S128x128_S128x128_1_0)⟩,
         ⟨S256x256, BD.bdHid (transpose S128x128 [1, 0] (shapeCast S128x128 (extractStridedSlice S1x128x128 ![1, 0, 0] (w3 m c) slices_S3x128x128_S1x128x128_1_0_0) shapeCasts_S1x128x128_S128x128) transposes_S128x128_S128x128_1_0)⟩,
         ⟨S256x256, BD.bdHid (transpose S128x128 [1, 0] (shapeCast S128x128 (extractStridedSlice S1x128x128 ![2, 0, 0] (w3 m c) slices_S3x128x128_S1x128x128_2_0_0) shapeCasts_S1x128x128_S128x128) transposes_S128x128_S128x128_1_0)⟩]
        concatenates_S256x256_S256x256_S256x256_S768x256_d0) bitsLt_bf16_f32 := by
  show StableHlo.after (List.flatten [hostOps0]) (fun b => m (c, b)) (Proc.devRef .tc main_v49) = _
  rw [List.flatten_cons, List.flatten_nil, List.append_nil, hostOps0_cut, after_append, after_append, after_append,
    after_append, after_append, after_append, cRest_keeps_v49, cCat_v49, cH2_keeps_v23, cH1_keeps_v23, cH0_v23,
    cH2_keeps_v35, cH1_v35, cH2_v47, cH1_keeps_v11, cH0_keeps_v11, cR_v11, cIn_keeps_arg3]

end Cert.KernelIdeal.ProH

end
-- ==== Proof.KI.PrologueH.lean ====
/-
  The staged hidden weights when the region is entered, read at an index.

  Row `256 l + k`, column `j` of the staged stack is element `(k, j)` of hidden layer `l`'s block-diagonal matrix:
  the matrix `(d, h) ↦ w (128 l + h, d)` — slice `l` of the stacked weights, transposed — on the low-low and the
  high-high block, zero on the two others.
-/
import proofs.«174390_j25202868092982_2_alg».proof.Proof.KI.PrologueCut
import Idealize.ShloMosaic.Lib.Pipeline.Value
import Idealize.ShloMosaic.Lib.ValueLayout
import Idealize.ShloMosaic.Lib.ValueIdx

set_option maxRecDepth 65536

noncomputable section

namespace Cert.KernelIdeal.ProH

open Idealize.ShloMosaic Idealize.ShloMosaic.TcCoe Idealize.SL.Sem Idealize.ShloMosaic.ValueIdx
open Cert.KernelIdeal Cert.KernelIdeal.Gen Cert.KernelIdeal.Fr Cert.Mlp

/-! ## The pieces read at an index -/

/-- Slice 0 of three stacked matrices, as one matrix, transposed: element `(d, h)` is element `(0, h, d)`. -/
theorem tl0_apply (Y : (⟨S3x128x128, .f32⟩ : BufTy).Contents (Elt Ideal)) (d h : Fin 128) :
    ((transpose S128x128 [1, 0] (shapeCast S128x128 (extractStridedSlice S1x128x128 ![0, 0, 0] (Y) slices_S3x128x128_S1x128x128_0_0_0) shapeCasts_S1x128x128_S128x128) transposes_S128x128_S128x128_1_0) : S128x128.Idx → EReal) (ix2 d h) = Y (ix3 (0 : Fin 3) h d) := by
  rw [transpose_ix2_apply]
  rw [shapeCast_apply _ shapeCasts_S1x128x128_S128x128 (ix2 h d) (ix3 (0 : Fin 1) h d)
    (by rw [Shape.rowMajor_val_three, Shape.rowMajor_val_two]; show (0 * 128 + h.val) * 128 + d.val = h.val * 128 + d.val; omega)]
  exact extractStridedSlice_apply ![0, 0, 0] Y slices_S3x128x128_S1x128x128_0_0_0 (ix3 (0 : Fin 1) h d) (ix3 (0 : Fin 3) h d)
    (fun a => match a with
      | ⟨0, _⟩ => rfl
      | ⟨1, _⟩ => by show h.val = 0 + h.val; omega
      | ⟨2, _⟩ => by show d.val = 0 + d.val; omega)

/-- Slice 1 of three stacked matrices, as one matrix, transposed: element `(d, h)` is element `(1, h, d)`. -/
theorem tl1_apply (Y : (⟨S3x128x128, .f32⟩ : BufTy).Contents (Elt Ideal)) (d h : Fin 128) :
    ((transpose S128x128 [1, 0] (shapeCast S128x128 (extractStridedSlice S1x128x128 ![1, 0, 0] (Y) slices_S3x128x128_S1x128x128_1_0_0) shapeCasts_S1x128x128_S128x128) transposes_S128x128_S128x128_1_0) : S128x128.Idx → EReal) (ix2 d h) = Y (ix3 (1 : Fin 3) h d) := by
  rw [transpose_ix2_apply]
  rw [shapeCast_apply _ shapeCasts_S1x128x128_S128x128 (ix2 h d) (ix3 (0 : Fin 1) h d)
    (by rw [Shape.rowMajor_val_three, Shape.rowMajor_val_two]; show (0 * 128 + h.val) * 128 + d.val = h.val * 128 + d.val; omega)]
  exact extractStridedSlice_apply ![1, 0, 0] Y slices_S3x128x128_S1x128x128_1_0_0 (ix3 (0 : Fin 1) h d) (ix3 (1 : Fin 3) h d)
    (fun a => match a with
      | ⟨0, _⟩ => rfl
      | ⟨1, _⟩ => by show h.val = 0 + h.val; omega
      | ⟨2, _⟩ => by show d.val = 0 + d.val; omega)

/-- Slice 2 of three stacked matrices, as one matrix, transposed: element `(d, h)` is element `(2, h, d)`. -/
theorem tl2_apply (Y : (⟨S3x128x128, .f32⟩ : BufTy).Contents (Elt Ideal)) (d h : Fin 128) :
    ((transpose S128x128 [1, 0] (shapeCast S128x128 (extractStridedSlice S1x128x128 ![2, 0, 0] (Y) slices_S3x128x128_S1x128x128_2_0_0) shapeCasts_S1x128x128_S128x128) transposes_S128x128_S128x128_1_0) : S128x128.Idx → EReal) (ix2 d h) = Y (ix3 (2 : Fin 3) h d) := by
  rw [transpose_ix2_apply]
  rw [shapeCast_apply _ shapeCasts_S1x128x128_S128x128 (ix2 h d) (ix3 (0 : Fin 1) h d)
    (by rw [Shape.rowMajor_val_three, Shape.rowMajor_val_two]; show (0 * 128 + h.val) * 128 + d.val = h.val * 128 + d.val; omega)]
  exact extractStridedSlice_apply ![2, 0, 0] Y slices_S3x128x128_S1x128x128_2_0_0 (ix3 (0 : Fin 1) h d) (ix3 (2 : Fin 3) h d)
    (fun a => match a with
      | ⟨0, _⟩ => rfl
      | ⟨1, _⟩ => by show h.val = 0 + h.val; omega
      | ⟨2, _⟩ => by show d.val = 0 + d.val; omega)

/-- Three `256 × 256` matrices stacked by rows: row `256 l + k` is row `k` of matrix `l`. -/
theorem cat3_0 (A B C : S256x256.Idx → EReal) (k j : Fin 256) :
    concatenate S768x256 0 [⟨S256x256, A⟩, ⟨S256x256, B⟩, ⟨S256x256, C⟩]
      concatenates_S256x256_S256x256_S256x256_S768x256_d0 (ix2 (hrow 0 k) j) = A (ix2 k j) :=
  concatenate_apply_piece (t := S768x256) (0 : Fin 2) [⟨S256x256, A⟩, ⟨S256x256, B⟩, ⟨S256x256, C⟩]
    concatenates_S256x256_S256x256_S256x256_S768x256_d0 (ix2 (hrow 0 k) j) 0 (by show (0 : Nat) < 3; omega) S256x256 A rfl rfl 0 rfl (ix2 k j)
    (fun b hb => by match b with | ⟨0, _⟩ => exact absurd rfl hb | ⟨1, _⟩ => rfl)
    (by show 0 + k.val = 256 * 0 + k.val; omega)

theorem cat3_1 (A B C : S256x256.Idx → EReal) (k j : Fin 256) :
    concatenate S768x256 0 [⟨S256x256, A⟩, ⟨S256x256, B⟩, ⟨S256x256, C⟩]
      concatenates_S256x256_S256x256_S256x256_S768x256_d0 (ix2 (hrow 1 k) j) = B (ix2 k j) :=
  concatenate_apply_piece (t := S768x256) (0 : Fin 2) [⟨S256x256, A⟩, ⟨S256x256, B⟩, ⟨S256x256, C⟩]
    concatenates_S256x256_S256x256_S256x256_S768x256_d0 (ix2 (hrow 1 k) j) 1 (by show (1 : Nat) < 3; omega) S256x256 B rfl rfl 256 rfl (ix2 k j)
    (fun b hb => by match b with | ⟨0, _⟩ => exact absurd rfl hb | ⟨1, _⟩ => rfl)
    (by show 256 + k.val = 256 * 1 + k.val; omega)

theorem cat3_2 (A B C : S256x256.Idx → EReal) (k j : Fin 256) :
    concatenate S768x256 0 [⟨S256x256, A⟩, ⟨S256x256, B⟩, ⟨S256x256, C⟩]
      concatenates_S256x256_S256x256_S256x256_S768x256_d0 (ix2 (hrow 2 k) j) = C (ix2 k j) :=
  concatenate_apply_piece (t := S768x256) (0 : Fin 2) [⟨S256x256, A⟩, ⟨S256x256, B⟩, ⟨S256x256, C⟩]
    concatenates_S256x256_S256x256_S256x256_S768x256_d0 (ix2 (hrow 2 k) j) 2 (by show (2 : Nat) < 3; omega) S256x256 C rfl rfl 512 rfl (ix2 k j)
    (fun b hb => by match b with | ⟨0, _⟩ => exact absurd rfl hb | ⟨1, _⟩ => rfl)
    (by show 512 + k.val = 256 * 2 + k.val; omega)

/-- A hidden layer is the first, the second or the third. -/
theorem fin3_cases (l : Fin 3) : l = 0 ∨ l = 1 ∨ l = 2 := by
  match l with
  | ⟨0, _⟩ => exact Or.inl rfl
  | ⟨1, _⟩ => exact Or.inr (Or.inl rfl)
  | ⟨2, _⟩ => exact Or.inr (Or.inr rfl)

variable (m : (ℓ : Loc nD τ sig) → Buf (Elt Ideal) ℓ) (c : Dev nD)

/-- The stacked weights as three matrices: element `(l, h, d)` is row `128 l + h`, column `d` of the stack. -/
theorem w3_apply (l : Fin 3) (h d : Fin 128) : w3 m c (ix3 l h d) = hidW (argWHid m c) l h d :=
  shapeCast_apply (s := S384x128) (t := S3x128x128) (m ((c : Thread nD τ).loc main_arg3) : S384x128.Idx → EReal)
    shapeCasts_S384x128_S3x128x128 (ix3 l h d) (ix2 (hidRow l h) d)
    (show (S384x128.rowMajor (ix2 (hidRow l h) d)).val = (S3x128x128.rowMajor (ix3 l h d)).val by
      rw [Shape.rowMajor_val_two, Shape.rowMajor_val_three]
      show (128 * l.val + h.val) * 128 + d.val = (l.val * 128 + h.val) * 128 + d.val
      omega)

/-! ## The four blocks of a hidden layer's staged weights, layer by layer -/

set_option maxHeartbeats 1000000 in
theorem whid_ll0 (d h : Fin 128) :
    (V m c main_v49 : S768x256.Idx → EReal) (ix2 (hrow 0 (lo128 d)) (lo128 h)) = hidW (argWHid m c) 0 h d := by
  rw [V_v49, truncf_apply, cat3_0, BD.bdHid_ll, tl0_apply, w3_apply]

set_option maxHeartbeats 1000000 in
theorem whid_ll1 (d h : Fin 128) :
    (V m c main_v49 : S768x256.Idx → EReal) (ix2 (hrow 1 (lo128 d)) (lo128 h)) = hidW (argWHid m c) 1 h d := by
  rw [V_v49, truncf_apply, cat3_1, BD.bdHid_ll, tl1_apply, w3_apply]

set_option maxHeartbeats 1000000 in
theorem whid_ll2 (d h : Fin 128) :
    (V m c main_v49 : S768x256.Idx → EReal) (ix2 (hrow 2 (lo128 d)) (lo128 h)) = hidW (argWHid m c) 2 h d := by
  rw [V_v49, truncf_apply, cat3_2, BD.bdHid_ll, tl2_apply, w3_apply]

set_option maxHeartbeats 1000000 in
theorem whid_hh0 (d h : Fin 128) :
    (V m c main_v49 : S768x256.Idx → EReal) (ix2 (hrow 0 (hi128 d)) (hi128 h)) = hidW (argWHid m c) 0 h d := by
  rw [V_v49, truncf_apply, cat3_0, BD.bdHid_hh, tl0_apply, w3_apply]

set_option maxHeartbeats 1000000 in
theorem whid_hh1 (d h : Fin 128) :
    (V m c main_v49 : S768x256.Idx → EReal) (ix2 (hrow 1 (hi128 d)) (hi128 h)) = hidW (argWHid m c) 1 h d := by
  rw [V_v49, truncf_apply, cat3_1, BD.bdHid_hh, tl1_apply, w3_apply]

set_option maxHeartbeats 1000000 in
theorem whid_hh2 (d h : Fin 128) :
    (V m c main_v49 : S768x256.Idx → EReal) (ix2 (hrow 2 (hi128 d)) (hi128 h)) = hidW (argWHid m c) 2 h d := by
  rw [V_v49, truncf_apply, cat3_2, BD.bdHid_hh, tl2_apply, w3_apply]

set_option maxHeartbeats 1000000 in
theorem whid_hl0 (d h : Fin 128) :
    (V m c main_v49 : S768x256.Idx → EReal) (ix2 (hrow 0 (hi128 d)) (lo128 h)) = (0 : EReal) := by
  rw [V_v49, truncf_apply, cat3_0, BD.bdHid_hl]

set_option maxHeartbeats 1000000 in
theorem whid_hl1 (d h : Fin 128) :
    (V m c main_v49 : S768x256.Idx → EReal) (ix2 (hrow 1 (hi128 d)) (lo128 h)) = (0 : EReal) := by
  rw [V_v49, truncf_apply, cat3_1, BD.bdHid_hl]

set_option maxHeartbeats 1000000 in
theorem whid_hl2 (d h : Fin 128) :
    (V m c main_v49 : S768x256.Idx → EReal) (ix2 (hrow 2 (hi128 d)) (lo128 h)) = (0 : EReal) := by
  rw [V_v49, truncf_apply, cat3_2, BD.bdHid_hl]

set_option maxHeartbeats 1000000 in
theorem whid_lh0 (d h : Fin 128) :
    (V m c main_v49 : S768x256.Idx → EReal) (ix2 (hrow 0 (lo128 d)) (hi128 h)) = (0 : EReal) := by
  rw [V_v49, truncf_apply, cat3_0, BD.bdHid_lh]

set_option maxHeartbeats 1000000 in
theorem whid_lh1 (d h : Fin 128) :
    (V m c main_v49 : S768x256.Idx → EReal) (ix2 (hrow 1 (lo128 d)) (hi128 h)) = (0 : EReal) := by
  rw [V_v49, truncf_apply, cat3_1, BD.bdHid_lh]

set_option maxHeartbeats 1000000 in
theorem whid_lh2 (d h : Fin 128) :
    (V m c main_v49 : S768x256.Idx → EReal) (ix2 (hrow 2 (lo128 d)) (hi128 h)) = (0 : EReal) := by
  rw [V_v49, truncf_apply, cat3_2, BD.bdHid_lh]

/-! ## The four blocks of a hidden layer's staged weights -/

/-- The low-low block of hidden layer `l`'s staged weights holds the layer's weights, transposed. -/
theorem whid_ll (l : Fin 3) (d h : Fin 128) :
    (V m c main_v49 : S768x256.Idx → EReal) (ix2 (hrow l (lo128 d)) (lo128 h)) = hidW (argWHid m c) l h d := by
  obtain rfl | rfl | rfl := fin3_cases l
  · exact whid_ll0 m c d h
  · exact whid_ll1 m c d h
  · exact whid_ll2 m c d h

/-- So does the high-high block. -/
theorem whid_hh (l : Fin 3) (d h : Fin 128) :
    (V m c main_v49 : S768x256.Idx → EReal) (ix2 (hrow l (hi128 d)) (hi128 h)) = hidW (argWHid m c) l h d := by
  obtain rfl | rfl | rfl := fin3_cases l
  · exact whid_hh0 m c d h
  · exact whid_hh1 m c d h
  · exact whid_hh2 m c d h

/-- The high-low block is zero. -/
theorem whid_hl (l : Fin 3) (d h : Fin 128) :
    (V m c main_v49 : S768x256.Idx → EReal) (ix2 (hrow l (hi128 d)) (lo128 h)) = (0 : EReal) := by
  obtain rfl | rfl | rfl := fin3_cases l
  · exact whid_hl0 m c d h
  · exact whid_hl1 m c d h
  · exact whid_hl2 m c d h

/-- The low-high block is zero. -/
theorem whid_lh (l : Fin 3) (d h : Fin 128) :
    (V m c main_v49 : S768x256.Idx → EReal) (ix2 (hrow l (lo128 d)) (hi128 h)) = (0 : EReal) := by
  obtain rfl | rfl | rfl := fin3_cases l
  · exact whid_lh0 m c d h
  · exact whid_lh1 m c d h
  · exact whid_lh2 m c d h

end Cert.KernelIdeal.ProH

end
-- ==== Proof.Packed.lean ====
/-
  Two samples on one row.

  A packed row holds two samples: the first in its low half, the second in its high half. A packed layer's weight
  matrix is block-diagonal — the original layer's weights (transposed) in the low-low block and again in the
  high-high block, zero in the two off-diagonal blocks — and its bias is the original bias twice. Such a layer acts
  on each half of the row as the original layer acts on that half alone: the products against the off-diagonal
  blocks are products with zero. The activation acts position by position, so it keeps the halves apart too. Hence
  the five packed layers applied to a packed row give, in the low half, the network's output for the sample in the
  low half of the row, and in the high half the network's output for the sample in the high half.
-/
import proofs.«174390_j25202868092982_2_alg».proof.Proof.Spec

noncomputable section

namespace Cert.Mlp

/-- The network on ONE sample's row. -/
def rowOut (xr : Fin 64 → EReal) (wIn : Fin 128 → Fin 64 → EReal) (bIn : Fin 128 → EReal) (wHid : Fin 384 → Fin 128 → EReal)
    (bHid : Fin 3 → Fin 128 → EReal) (wOut : Fin 64 → Fin 128 → EReal) (bOut : Fin 64 → EReal) (o : Fin 64) : EReal :=
  dense (fun h => relu (dense (fun h => relu (dense (fun h => relu (dense (fun h => relu (dense xr wIn bIn h)) (hidW wHid 0) (bHid 0) h)) (hidW wHid 1) (bHid 1) h)) (hidW wHid 2) (bHid 2) h)) wOut bOut o

/-- The network's output for sample `n` is the network on that sample's row. -/
theorem mlp_eq_rowOut (x : Fin 1048576 → Fin 64 → EReal) (wIn : Fin 128 → Fin 64 → EReal) (bIn : Fin 128 → EReal)
    (wHid : Fin 384 → Fin 128 → EReal) (bHid : Fin 3 → Fin 128 → EReal) (wOut : Fin 64 → Fin 128 → EReal)
    (bOut : Fin 64 → EReal) (n : Fin 1048576) (o : Fin 64) :
    mlp x wIn bIn wHid bHid wOut bOut n o = rowOut (x n) wIn bIn wHid bHid wOut bOut o := rfl

/-- The low and the high copy of an axis of 64 on the axis of 128, and of an axis of 128 on the axis of 256. -/
abbrev lo64 : Fin 64 → Fin 128 := lo (K := 64) (K2 := 128) rfl
abbrev hi64 : Fin 64 → Fin 128 := hi (K := 64) (K2 := 128) rfl
abbrev lo128 : Fin 128 → Fin 256 := lo (K := 128) (K2 := 256) rfl
abbrev hi128 : Fin 128 → Fin 256 := hi (K := 128) (K2 := 256) rfl

/-- One packed row through the five packed layers (the shape in which the kernel body's stored value reads). -/
def prow (sX : Fin 128 → EReal) (sW1 : Fin 128 → Fin 256 → EReal) (sB1 : Fin 256 → EReal) (sWa : Fin 256 → Fin 256 → EReal)
    (sBa : Fin 256 → EReal) (sWb : Fin 256 → Fin 256 → EReal) (sBb : Fin 256 → EReal) (sWc : Fin 256 → Fin 256 → EReal)
    (sBc : Fin 256 → EReal) (sW5 : Fin 256 → Fin 128 → EReal) (sB5 : Fin 128 → EReal) (j : Fin 128) : EReal :=
  pdense (fun k => relu (pdense (fun k => relu (pdense (fun k => relu (pdense (fun k => relu (pdense sX sW1 sB1 k)) sWa sBa k)) sWb sBb k)) sWc sBc k)) sW5 sB5 j

/-- What the staged arrays are to the arguments: block-diagonal weights, doubled biases. -/
structure Staged (sW1 : Fin 128 → Fin 256 → EReal) (sB1 : Fin 256 → EReal) (sWa : Fin 256 → Fin 256 → EReal) (sBa : Fin 256 → EReal)
    (sWb : Fin 256 → Fin 256 → EReal) (sBb : Fin 256 → EReal) (sWc : Fin 256 → Fin 256 → EReal) (sBc : Fin 256 → EReal)
    (sW5 : Fin 256 → Fin 128 → EReal) (sB5 : Fin 128 → EReal)
    (wIn : Fin 128 → Fin 64 → EReal) (bIn : Fin 128 → EReal) (wHid : Fin 384 → Fin 128 → EReal) (bHid : Fin 3 → Fin 128 → EReal)
    (wOut : Fin 64 → Fin 128 → EReal) (bOut : Fin 64 → EReal) : Prop where
  w1_ll : ∀ (d : Fin 64) (h : Fin 128), sW1 (lo64 d) (lo128 h) = wIn h d
  w1_hh : ∀ (d : Fin 64) (h : Fin 128), sW1 (hi64 d) (hi128 h) = wIn h d
  w1_hl : ∀ (d : Fin 64) (h : Fin 128), sW1 (hi64 d) (lo128 h) = 0
  w1_lh : ∀ (d : Fin 64) (h : Fin 128), sW1 (lo64 d) (hi128 h) = 0
  b1_lo : ∀ h : Fin 128, sB1 (lo128 h) = bIn h
  b1_hi : ∀ h : Fin 128, sB1 (hi128 h) = bIn h
  wa_ll : ∀ d h : Fin 128, sWa (lo128 d) (lo128 h) = hidW wHid 0 h d
  wa_hh : ∀ d h : Fin 128, sWa (hi128 d) (hi128 h) = hidW wHid 0 h d
  wa_hl : ∀ d h : Fin 128, sWa (hi128 d) (lo128 h) = 0
  wa_lh : ∀ d h : Fin 128, sWa (lo128 d) (hi128 h) = 0
  ba_lo : ∀ h : Fin 128, sBa (lo128 h) = bHid 0 h
  ba_hi : ∀ h : Fin 128, sBa (hi128 h) = bHid 0 h
  wb_ll : ∀ d h : Fin 128, sWb (lo128 d) (lo128 h) = hidW wHid 1 h d
  wb_hh : ∀ d h : Fin 128, sWb (hi128 d) (hi128 h) = hidW wHid 1 h d
  wb_hl : ∀ d h : Fin 128, sWb (hi128 d) (lo128 h) = 0
  wb_lh : ∀ d h : Fin 128, sWb (lo128 d) (hi128 h) = 0
  bb_lo : ∀ h : Fin 128, sBb (lo128 h) = bHid 1 h
  bb_hi : ∀ h : Fin 128, sBb (hi128 h) = bHid 1 h
  wc_ll : ∀ d h : Fin 128, sWc (lo128 d) (lo128 h) = hidW wHid 2 h d
  wc_hh : ∀ d h : Fin 128, sWc (hi128 d) (hi128 h) = hidW wHid 2 h d
  wc_hl : ∀ d h : Fin 128, sWc (hi128 d) (lo128 h) = 0
  wc_lh : ∀ d h : Fin 128, sWc (lo128 d) (hi128 h) = 0
  bc_lo : ∀ h : Fin 128, sBc (lo128 h) = bHid 2 h
  bc_hi : ∀ h : Fin 128, sBc (hi128 h) = bHid 2 h
  w5_ll : ∀ (d : Fin 128) (o : Fin 64), sW5 (lo128 d) (lo64 o) = wOut o d
  w5_hh : ∀ (d : Fin 128) (o : Fin 64), sW5 (hi128 d) (hi64 o) = wOut o d
  w5_hl : ∀ (d : Fin 128) (o : Fin 64), sW5 (hi128 d) (lo64 o) = 0
  w5_lh : ∀ (d : Fin 128) (o : Fin 64), sW5 (lo128 d) (hi64 o) = 0
  b5_lo : ∀ o : Fin 64, sB5 (lo64 o) = bOut o
  b5_hi : ∀ o : Fin 64, sB5 (hi64 o) = bOut o

section Halves
variable {sW1 : Fin 128 → Fin 256 → EReal} {sB1 : Fin 256 → EReal} {sWa : Fin 256 → Fin 256 → EReal} {sBa : Fin 256 → EReal}
  {sWb : Fin 256 → Fin 256 → EReal} {sBb : Fin 256 → EReal} {sWc : Fin 256 → Fin 256 → EReal} {sBc : Fin 256 → EReal}
  {sW5 : Fin 256 → Fin 128 → EReal} {sB5 : Fin 128 → EReal}
  {wIn : Fin 128 → Fin 64 → EReal} {bIn : Fin 128 → EReal} {wHid : Fin 384 → Fin 128 → EReal} {bHid : Fin 3 → Fin 128 → EReal}
  {wOut : Fin 64 → Fin 128 → EReal} {bOut : Fin 64 → EReal}

/-- The low half of a packed row through the five packed layers is the network on the sample in the row's low half:
    layer by layer, the low half of a packed layer's output is the original layer on the low half of its input. -/
theorem prow_lo (st : Staged sW1 sB1 sWa sBa sWb sBb sWc sBc sW5 sB5 wIn bIn wHid bHid wOut bOut) (sX : Fin 128 → EReal) (o : Fin 64) :
    prow sX sW1 sB1 sWa sBa sWb sBb sWc sBc sW5 sB5 (lo64 o) = rowOut (fun d => sX (lo64 d)) wIn bIn wHid bHid wOut bOut o := by
  unfold prow rowOut
  have e1 : (fun d => relu (pdense sX sW1 sB1 (lo128 d)))
      = fun h => relu (dense (fun d => sX (lo64 d)) wIn bIn h) :=
    funext fun h => congrArg relu (pdense_lo (K := 64) (H := 128) (K2 := 128) (H2 := 256) rfl rfl sX sW1 sB1 wIn bIn st.w1_ll st.w1_hl st.b1_lo h)
  have e2 : (fun d => relu (pdense (fun k => relu (pdense sX sW1 sB1 k)) sWa sBa (lo128 d)))
      = fun h => relu (dense (fun h => relu (dense (fun d => sX (lo64 d)) wIn bIn h)) (hidW wHid 0) (bHid 0) h) :=
    funext fun h => congrArg relu ((pdense_lo (K := 128) (H := 128) (K2 := 256) (H2 := 256) rfl rfl _ sWa sBa (hidW wHid 0) (bHid 0) st.wa_ll st.wa_hl st.ba_lo h).trans
      (congrArg (fun f => dense f (hidW wHid 0) (bHid 0) h) e1))
  have e3 : (fun d => relu (pdense (fun k => relu (pdense (fun k => relu (pdense sX sW1 sB1 k)) sWa sBa k)) sWb sBb (lo128 d)))
      = fun h => relu (dense (fun h => relu (dense (fun h => relu (dense (fun d => sX (lo64 d)) wIn bIn h)) (hidW wHid 0) (bHid 0) h))
          (hidW wHid 1) (bHid 1) h) :=
    funext fun h => congrArg relu ((pdense_lo (K := 128) (H := 128) (K2 := 256) (H2 := 256) rfl rfl _ sWb sBb (hidW wHid 1) (bHid 1) st.wb_ll st.wb_hl st.bb_lo h).trans
      (congrArg (fun f => dense f (hidW wHid 1) (bHid 1) h) e2))
  have e4 : (fun d => relu (pdense (fun k => relu (pdense (fun k => relu (pdense (fun k => relu (pdense sX sW1 sB1 k)) sWa sBa k)) sWb sBb k))
        sWc sBc (lo128 d)))
      = fun h => relu (dense (fun h => relu (dense (fun h => relu (dense (fun h => relu (dense (fun d => sX (lo64 d)) wIn bIn h))
          (hidW wHid 0) (bHid 0) h)) (hidW wHid 1) (bHid 1) h)) (hidW wHid 2) (bHid 2) h) :=
    funext fun h => congrArg relu ((pdense_lo (K := 128) (H := 128) (K2 := 256) (H2 := 256) rfl rfl _ sWc sBc (hidW wHid 2) (bHid 2) st.wc_ll st.wc_hl st.bc_lo h).trans
      (congrArg (fun f => dense f (hidW wHid 2) (bHid 2) h) e3))
  exact (pdense_lo (K := 128) (H := 64) (K2 := 256) (H2 := 128) rfl rfl _ sW5 sB5 wOut bOut st.w5_ll st.w5_hl st.b5_lo o).trans
    (congrArg (fun f => dense f wOut bOut o) e4)

/-- The same for the high half. -/
theorem prow_hi (st : Staged sW1 sB1 sWa sBa sWb sBb sWc sBc sW5 sB5 wIn bIn wHid bHid wOut bOut) (sX : Fin 128 → EReal) (o : Fin 64) :
    prow sX sW1 sB1 sWa sBa sWb sBb sWc sBc sW5 sB5 (hi64 o) = rowOut (fun d => sX (hi64 d)) wIn bIn wHid bHid wOut bOut o := by
  unfold prow rowOut
  have e1 : (fun d => relu (pdense sX sW1 sB1 (hi128 d)))
      = fun h => relu (dense (fun d => sX (hi64 d)) wIn bIn h) :=
    funext fun h => congrArg relu (pdense_hi (K := 64) (H := 128) (K2 := 128) (H2 := 256) rfl rfl sX sW1 sB1 wIn bIn st.w1_hh st.w1_lh st.b1_hi h)
  have e2 : (fun d => relu (pdense (fun k => relu (pdense sX sW1 sB1 k)) sWa sBa (hi128 d)))
      = fun h => relu (dense (fun h => relu (dense (fun d => sX (hi64 d)) wIn bIn h)) (hidW wHid 0) (bHid 0) h) :=
    funext fun h => congrArg relu ((pdense_hi (K := 128) (H := 128) (K2 := 256) (H2 := 256) rfl rfl _ sWa sBa (hidW wHid 0) (bHid 0) st.wa_hh st.wa_lh st.ba_hi h).trans
      (congrArg (fun f => dense f (hidW wHid 0) (bHid 0) h) e1))
  have e3 : (fun d => relu (pdense (fun k => relu (pdense (fun k => relu (pdense sX sW1 sB1 k)) sWa sBa k)) sWb sBb (hi128 d)))
      = fun h => relu (dense (fun h => relu (dense (fun h => relu (dense (fun d => sX (hi64 d)) wIn bIn h)) (hidW wHid 0) (bHid 0) h))
          (hidW wHid 1) (bHid 1) h) :=
    funext fun h => congrArg relu ((pdense_hi (K := 128) (H := 128) (K2 := 256) (H2 := 256) rfl rfl _ sWb sBb (hidW wHid 1) (bHid 1) st.wb_hh st.wb_lh st.bb_hi h).trans
      (congrArg (fun f => dense f (hidW wHid 1) (bHid 1) h) e2))
  have e4 : (fun d => relu (pdense (fun k => relu (pdense (fun k => relu (pdense (fun k => relu (pdense sX sW1 sB1 k)) sWa sBa k)) sWb sBb k))
        sWc sBc (hi128 d)))
      = fun h => relu (dense (fun h => relu (dense (fun h => relu (dense (fun h => relu (dense (fun d => sX (hi64 d)) wIn bIn h))
          (hidW wHid 0) (bHid 0) h)) (hidW wHid 1) (bHid 1) h)) (hidW wHid 2) (bHid 2) h) :=
    funext fun h => congrArg relu ((pdense_hi (K := 128) (H := 128) (K2 := 256) (H2 := 256) rfl rfl _ sWc sBc (hidW wHid 2) (bHid 2) st.wc_hh st.wc_lh st.bc_hi h).trans
      (congrArg (fun f => dense f (hidW wHid 2) (bHid 2) h) e3))
  exact (pdense_hi (K := 128) (H := 64) (K2 := 256) (H2 := 128) rfl rfl _ sW5 sB5 wOut bOut st.w5_hh st.w5_lh st.b5_hi o).trans
    (congrArg (fun f => dense f wOut bOut o) e4)

end Halves

end Cert.Mlp

end
-- ==== Proof.KI.Bridge.lean ====
/-
  The packed result is the network, sample by sample.

  The staged weights are block-diagonal with two copies of the transposed argument weights, the staged biases two
  copies of the argument biases (the reads of the host prologue), and packed row `p` of the input holds sample
  `2p` in its low half and sample `2p + 1` in its high half. So the low half of row `p` of the packed result is
  the network's output for sample `2p`, the high half for sample `2p + 1`: five applications of "a
  block-diagonal layer acts on each half as the original layer".
-/
import proofs.«174390_j25202868092982_2_alg».proof.Proof.KI.Final
import proofs.«174390_j25202868092982_2_alg».proof.Proof.KI.PrologueA
import proofs.«174390_j25202868092982_2_alg».proof.Proof.KI.PrologueW
import proofs.«174390_j25202868092982_2_alg».proof.Proof.KI.PrologueH
import proofs.«174390_j25202868092982_2_alg».proof.Proof.Packed

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx

variable (m : (ℓ : Loc nD τ sig) → Buf (Elt Ideal) ℓ)

/-- What the staged arrays are to the arguments. -/
theorem staged (c : Dev nD) : Cert.Mlp.Staged (sW1 m c) (sB1 m c) (sWH m c 0) (sBH m c 0) (sWH m c 1) (sBH m c 1)
    (sWH m c 2) (sBH m c 2) (sW5 m c) (sB5 m c)
    (argWIn m c) (argBIn m c) (argWHid m c) (argBHid m c) (argWOut m c) (argBOut m c) where
  w1_ll := Cert.KernelIdeal.Pro.win_ll m c
  w1_hh := Cert.KernelIdeal.Pro.win_hh m c
  w1_hl := Cert.KernelIdeal.Pro.win_hl m c
  w1_lh := Cert.KernelIdeal.Pro.win_lh m c
  b1_lo := Cert.KernelIdeal.Pro.bin_lo m c
  b1_hi := Cert.KernelIdeal.Pro.bin_hi m c
  wa_ll := Cert.KernelIdeal.ProH.whid_ll m c 0
  wa_hh := Cert.KernelIdeal.ProH.whid_hh m c 0
  wa_hl := Cert.KernelIdeal.ProH.whid_hl m c 0
  wa_lh := Cert.KernelIdeal.ProH.whid_lh m c 0
  ba_lo := Cert.KernelIdeal.Pro.bhid_lo m c 0
  ba_hi := Cert.KernelIdeal.Pro.bhid_hi m c 0
  wb_ll := Cert.KernelIdeal.ProH.whid_ll m c 1
  wb_hh := Cert.KernelIdeal.ProH.whid_hh m c 1
  wb_hl := Cert.KernelIdeal.ProH.whid_hl m c 1
  wb_lh := Cert.KernelIdeal.ProH.whid_lh m c 1
  bb_lo := Cert.KernelIdeal.Pro.bhid_lo m c 1
  bb_hi := Cert.KernelIdeal.Pro.bhid_hi m c 1
  wc_ll := Cert.KernelIdeal.ProH.whid_ll m c 2
  wc_hh := Cert.KernelIdeal.ProH.whid_hh m c 2
  wc_hl := Cert.KernelIdeal.ProH.whid_hl m c 2
  wc_lh := Cert.KernelIdeal.ProH.whid_lh m c 2
  bc_lo := Cert.KernelIdeal.Pro.bhid_lo m c 2
  bc_hi := Cert.KernelIdeal.Pro.bhid_hi m c 2
  w5_ll := Cert.KernelIdeal.Pro.wout_ll m c
  w5_hh := Cert.KernelIdeal.Pro.wout_hh m c
  w5_hl := Cert.KernelIdeal.Pro.wout_hl m c
  w5_lh := Cert.KernelIdeal.Pro.wout_lh m c
  b5_lo := Cert.KernelIdeal.Pro.bout_lo m c
  b5_hi := Cert.KernelIdeal.Pro.bout_hi m c

/-- The network on the arguments as launched. -/
abbrev net (c : Dev nD) : Fin 1048576 → Fin 64 → EReal :=
  Cert.Mlp.mlp (argX m c) (argWIn m c) (argBIn m c) (argWHid m c) (argBHid m c) (argWOut m c) (argBOut m c)

/-- The low half of packed result row `p` is the network's output for sample `2p`. -/
theorem G_lo (c : Dev nD) (p : Fin 524288) (o : Fin 64) :
    G m c (ix2 p (Cert.KernelIdeal.Fr.lo64 o)) = net m c (Cert.Mlp.smp p 0) o := by
  refine (show G m c (ix2 p (Cert.KernelIdeal.Fr.lo64 o)) = Cert.Mlp.prow (sX m c p) (sW1 m c) (sB1 m c) (sWH m c 0) (sBH m c 0)
    (sWH m c 1) (sBH m c 1) (sWH m c 2) (sBH m c 2) (sW5 m c) (sB5 m c) (Cert.Mlp.lo64 o) from rfl).trans ?_
  rw [Cert.Mlp.prow_lo (staged m c)]
  refine Eq.trans ?_ (Cert.Mlp.mlp_eq_rowOut (argX m c) (argWIn m c) (argBIn m c) (argWHid m c) (argBHid m c) (argWOut m c)
    (argBOut m c) (Cert.Mlp.smp p 0) o).symm
  refine congrArg (fun xr => Cert.Mlp.rowOut xr (argWIn m c) (argBIn m c) (argWHid m c) (argBHid m c) (argWOut m c) (argBOut m c) o) ?_
  funext d
  exact Cert.KernelIdeal.Pro.x_lo m c p d

/-- The high half is the output for sample `2p + 1`. -/
theorem G_hi (c : Dev nD) (p : Fin 524288) (o : Fin 64) :
    G m c (ix2 p (Cert.KernelIdeal.Fr.hi64 o)) = net m c (Cert.Mlp.smp p 1) o := by
  refine (show G m c (ix2 p (Cert.KernelIdeal.Fr.hi64 o)) = Cert.Mlp.prow (sX m c p) (sW1 m c) (sB1 m c) (sWH m c 0) (sBH m c 0)
    (sWH m c 1) (sBH m c 1) (sWH m c 2) (sBH m c 2) (sW5 m c) (sB5 m c) (Cert.Mlp.hi64 o) from rfl).trans ?_
  rw [Cert.Mlp.prow_hi (staged m c)]
  refine Eq.trans ?_ (Cert.Mlp.mlp_eq_rowOut (argX m c) (argWIn m c) (argBIn m c) (argWHid m c) (argBHid m c) (argWOut m c)
    (argBOut m c) (Cert.Mlp.smp p 1) o).symm
  refine congrArg (fun xr => Cert.Mlp.rowOut xr (argWIn m c) (argBIn m c) (argWHid m c) (argBHid m c) (argWOut m c) (argBOut m c) o) ?_
  funext d
  exact Cert.KernelIdeal.Pro.x_hi m c p d

end Cert.KernelIdeal.Val

end
-- ==== Proof.RefIsSpec.lean ====
/-
  The reference program computes the network of `Spec.lean`, index by index, over the extended reals.

  Each layer of the reference is a contraction of the previous activations (sample `n`, all `k`) against a weight
  operand (unit `h`, all `k`), plus a bias operand that depends on `h` only, and — except after the last layer —
  a maximum with the constant zero. The weight operand of hidden layer `l` is slice `l` of the stacked weights
  reshaped to three axes: element `(h, k)` of it is element `(128 l + h, k)` of the stacked matrix, because
  `((l · 128 + h) · 128 + k) / 128 = 128 l + h` and `… % 128 = k`. The bias operand is row `l` of the stacked biases.
  With the operands read off, each layer is the specification's layer word for word.
-/
import proofs.«174390_j25202868092982_2_alg».proof.Proof.Gen.ReferenceIdeal.Read
import proofs.«174390_j25202868092982_2_alg».proof.Proof.Spec
import Idealize.ShloMosaic.Lib.ValueIdx
import Idealize.ShloMosaic.PureOps.Ideal.Laws

noncomputable section

namespace Cert.ReferenceIdeal.RefSpec

open Idealize.ShloMosaic Idealize.ShloMosaic.ValueIdx Cert.ReferenceIdeal Cert.ReferenceIdeal.Read
open scoped BigOperators

/-! ### Input layer -/

/-- The bias operand of the input layer: the bias vector, whatever the sample. -/
theorem inB (x2 : (⟨S128, .f32⟩ : BufTy).Contents (Elt Ideal)) (n : Fin 1048576) (h : Fin 128) :
    val_main_v3 (F := Ideal) x2 (ix2 n h) = x2 (ix1 h) := by
  rw [val_main_v3_apply, val_main_v2_apply]
  exact congrArg x2 (funext fun a => by match a with | ⟨0, _⟩ => rfl)

/-- The activation's second operand is the constant zero. -/
theorem zero0 (i : S1048576x128.Idx) : val_main_call0_v0 (F := Ideal) i = (0 : EReal) := by
  rw [val_main_call0_v0_apply, val_main_call0_cst_apply]
  exact Ideal.ofBits_zero_f32

/-- After the input layer the reference holds the network's activations. -/
theorem v5_is_act0 (x0 : (⟨S1048576x64, .f32⟩ : BufTy).Contents (Elt Ideal)) (x1 : (⟨S128x64, .f32⟩ : BufTy).Contents (Elt Ideal)) (x2 : (⟨S128, .f32⟩ : BufTy).Contents (Elt Ideal)) (n : Fin 1048576) (h : Fin 128) :
    val_main_v5 (F := Ideal) x0 x1 x2 (ix2 n h) = Cert.Mlp.act0 (fun n d => x0 (ix2 n d)) (fun h d => x1 (ix2 h d)) (fun h => x2 (ix1 h)) n h := by
  rw [val_main_v5_apply, val_main_v4_apply, val_main_v1_apply, inB, zero0]
  have el : ∀ k : Fin 64, lidx_main_v1 (ix2 n h) k = ix2 n k := fun k =>
    funext fun a => by match a with | ⟨0, _⟩ => rfl | ⟨1, _⟩ => rfl
  have er : ∀ k : Fin 64, ridx_main_v1 (ix2 n h) k = ix2 h k := fun k =>
    funext fun a => by match a with | ⟨0, _⟩ => rfl | ⟨1, _⟩ => rfl
  simp only [el, er]
  rfl

/-! ### Hidden layer 1 -/

/-- The weight operand of hidden layer 1: slice 0 of the stacked weights, i.e. rows `128·0 + h`. -/
theorem hidW0 (x3 : (⟨S384x128, .f32⟩ : BufTy).Contents (Elt Ideal)) (h k : Fin 128) :
    val_main_v7 (F := Ideal) x3 (ix2 h k) = x3 (ix2 (Cert.Mlp.hidRow 0 h) k) := by
  rw [val_main_v7_apply, val_main_v6_apply, val_main_v0_apply]
  refine congrArg x3 (funext fun a => Fin.ext ?_)
  have hh := h.isLt
  have hk := k.isLt
  match a with
  | ⟨0, _⟩ =>
    show (((0) * 128 + (h.val * 128 + k.val) / 128 % 128) * 128 + (h.val * 128 + k.val) % 128) / 128 = 128 * 0 + h.val
    omega
  | ⟨1, _⟩ =>
    show (((0) * 128 + (h.val * 128 + k.val) / 128 % 128) * 128 + (h.val * 128 + k.val) % 128) % 128 = k.val
    omega

/-- The bias operand of hidden layer 1: row 0 of the stacked biases, whatever the sample. -/
theorem hidB0 (x4 : (⟨S3x128, .f32⟩ : BufTy).Contents (Elt Ideal)) (n : Fin 1048576) (h : Fin 128) :
    val_main_v12 (F := Ideal) x4 (ix2 n h) = x4 (ix2 (0 : Fin 3) h) := by
  rw [val_main_v12_apply, val_main_v11_apply, val_main_v10_apply, val_main_v9_apply]
  refine congrArg x4 (funext fun a => Fin.ext ?_)
  have hh := h.isLt
  match a with
  | ⟨0, _⟩ =>
    show 0 = 0
    omega
  | ⟨1, _⟩ =>
    show h.val % 128 = h.val
    omega

/-- The activation's second operand is the constant zero. -/
theorem zero1 (i : S1048576x128.Idx) : val_main_call1_v0 (F := Ideal) i = (0 : EReal) := by
  rw [val_main_call1_v0_apply, val_main_call1_cst_apply]
  exact Ideal.ofBits_zero_f32

/-- After hidden layer 1 the reference holds the network's activations. -/
theorem v14_is_act1 (x0 : (⟨S1048576x64, .f32⟩ : BufTy).Contents (Elt Ideal)) (x1 : (⟨S128x64, .f32⟩ : BufTy).Contents (Elt Ideal)) (x2 : (⟨S128, .f32⟩ : BufTy).Contents (Elt Ideal)) (x3 : (⟨S384x128, .f32⟩ : BufTy).Contents (Elt Ideal)) (x4 : (⟨S3x128, .f32⟩ : BufTy).Contents (Elt Ideal)) (n : Fin 1048576) (h : Fin 128) :
    val_main_v14 (F := Ideal) x0 x1 x2 x3 x4 (ix2 n h) = Cert.Mlp.act1 (fun n d => x0 (ix2 n d)) (fun h d => x1 (ix2 h d)) (fun h => x2 (ix1 h)) (fun r k => x3 (ix2 r k)) (fun l h => x4 (ix2 l h)) n h := by
  rw [val_main_v14_apply, val_main_v13_apply, val_main_v8_apply, hidB0, zero1]
  have el : ∀ k : Fin 128, lidx_main_v8 (ix2 n h) k = ix2 n k := fun k =>
    funext fun a => by match a with | ⟨0, _⟩ => rfl | ⟨1, _⟩ => rfl
  have er : ∀ k : Fin 128, ridx_main_v8 (ix2 n h) k = ix2 h k := fun k =>
    funext fun a => by match a with | ⟨0, _⟩ => rfl | ⟨1, _⟩ => rfl
  simp only [el, er, v5_is_act0, hidW0]
  rfl

/-! ### Hidden layer 2 -/

/-- The weight operand of hidden layer 2: slice 1 of the stacked weights, i.e. rows `128·1 + h`. -/
theorem hidW1 (x3 : (⟨S384x128, .f32⟩ : BufTy).Contents (Elt Ideal)) (h k : Fin 128) :
    val_main_v16 (F := Ideal) x3 (ix2 h k) = x3 (ix2 (Cert.Mlp.hidRow 1 h) k) := by
  rw [val_main_v16_apply, val_main_v15_apply, val_main_v0_apply]
  refine congrArg x3 (funext fun a => Fin.ext ?_)
  have hh := h.isLt
  have hk := k.isLt
  match a with
  | ⟨0, _⟩ =>
    show (((1 + 0) * 128 + (h.val * 128 + k.val) / 128 % 128) * 128 + (h.val * 128 + k.val) % 128) / 128 = 128 * 1 + h.val
    omega
  | ⟨1, _⟩ =>
    show (((1 + 0) * 128 + (h.val * 128 + k.val) / 128 % 128) * 128 + (h.val * 128 + k.val) % 128) % 128 = k.val
    omega

/-- The bias operand of hidden layer 2: row 1 of the stacked biases, whatever the sample. -/
theorem hidB1 (x4 : (⟨S3x128, .f32⟩ : BufTy).Contents (Elt Ideal)) (n : Fin 1048576) (h : Fin 128) :
    val_main_v21 (F := Ideal) x4 (ix2 n h) = x4 (ix2 (1 : Fin 3) h) := by
  rw [val_main_v21_apply, val_main_v20_apply, val_main_v19_apply, val_main_v18_apply]
  refine congrArg x4 (funext fun a => Fin.ext ?_)
  have hh := h.isLt
  match a with
  | ⟨0, _⟩ =>
    show 1 + 0 = 1
    omega
  | ⟨1, _⟩ =>
    show h.val % 128 = h.val
    omega

/-- The activation's second operand is the constant zero. -/
theorem zero2 (i : S1048576x128.Idx) : val_main_call2_v0 (F := Ideal) i = (0 : EReal) := by
  rw [val_main_call2_v0_apply, val_main_call2_cst_apply]
  exact Ideal.ofBits_zero_f32

/-- After hidden layer 2 the reference holds the network's activations. -/
theorem v23_is_act2 (x0 : (⟨S1048576x64, .f32⟩ : BufTy).Contents (Elt Ideal)) (x1 : (⟨S128x64, .f32⟩ : BufTy).Contents (Elt Ideal)) (x2 : (⟨S128, .f32⟩ : BufTy).Contents (Elt Ideal)) (x3 : (⟨S384x128, .f32⟩ : BufTy).Contents (Elt Ideal)) (x4 : (⟨S3x128, .f32⟩ : BufTy).Contents (Elt Ideal)) (n : Fin 1048576) (h : Fin 128) :
    val_main_v23 (F := Ideal) x0 x1 x2 x3 x4 (ix2 n h) = Cert.Mlp.act2 (fun n d => x0 (ix2 n d)) (fun h d => x1 (ix2 h d)) (fun h => x2 (ix1 h)) (fun r k => x3 (ix2 r k)) (fun l h => x4 (ix2 l h)) n h := by
  rw [val_main_v23_apply, val_main_v22_apply, val_main_v17_apply, hidB1, zero2]
  have el : ∀ k : Fin 128, lidx_main_v17 (ix2 n h) k = ix2 n k := fun k =>
    funext fun a => by match a with | ⟨0, _⟩ => rfl | ⟨1, _⟩ => rfl
  have er : ∀ k : Fin 128, ridx_main_v17 (ix2 n h) k = ix2 h k := fun k =>
    funext fun a => by match a with | ⟨0, _⟩ => rfl | ⟨1, _⟩ => rfl
  simp only [el, er, v14_is_act1, hidW1]
  rfl

/-! ### Hidden layer 3 -/

/-- The weight operand of hidden layer 3: slice 2 of the stacked weights, i.e. rows `128·2 + h`. -/
theorem hidW2 (x3 : (⟨S384x128, .f32⟩ : BufTy).Contents (Elt Ideal)) (h k : Fin 128) :
    val_main_v25 (F := Ideal) x3 (ix2 h k) = x3 (ix2 (Cert.Mlp.hidRow 2 h) k) := by
  rw [val_main_v25_apply, val_main_v24_apply, val_main_v0_apply]
  refine congrArg x3 (funext fun a => Fin.ext ?_)
  have hh := h.isLt
  have hk := k.isLt
  match a with
  | ⟨0, _⟩ =>
    show (((2 + 0) * 128 + (h.val * 128 + k.val) / 128 % 128) * 128 + (h.val * 128 + k.val) % 128) / 128 = 128 * 2 + h.val
    omega
  | ⟨1, _⟩ =>
    show (((2 + 0) * 128 + (h.val * 128 + k.val) / 128 % 128) * 128 + (h.val * 128 + k.val) % 128) % 128 = k.val
    omega

/-- The bias operand of hidden layer 3: row 2 of the stacked biases, whatever the sample. -/
theorem hidB2 (x4 : (⟨S3x128, .f32⟩ : BufTy).Contents (Elt Ideal)) (n : Fin 1048576) (h : Fin 128) :
    val_main_v30 (F := Ideal) x4 (ix2 n h) = x4 (ix2 (2 : Fin 3) h) := by
  rw [val_main_v30_apply, val_main_v29_apply, val_main_v28_apply, val_main_v27_apply]
  refine congrArg x4 (funext fun a => Fin.ext ?_)
  have hh := h.isLt
  match a with
  | ⟨0, _⟩ =>
    show 2 + 0 = 2
    omega
  | ⟨1, _⟩ =>
    show h.val % 128 = h.val
    omega

/-- The activation's second operand is the constant zero. -/
theorem zero3 (i : S1048576x128.Idx) : val_main_call3_v0 (F := Ideal) i = (0 : EReal) := by
  rw [val_main_call3_v0_apply, val_main_call3_cst_apply]
  exact Ideal.ofBits_zero_f32

/-- After hidden layer 3 the reference holds the network's activations. -/
theorem v32_is_act3 (x0 : (⟨S1048576x64, .f32⟩ : BufTy).Contents (Elt Ideal)) (x1 : (⟨S128x64, .f32⟩ : BufTy).Contents (Elt Ideal)) (x2 : (⟨S128, .f32⟩ : BufTy).Contents (Elt Ideal)) (x3 : (⟨S384x128, .f32⟩ : BufTy).Contents (Elt Ideal)) (x4 : (⟨S3x128, .f32⟩ : BufTy).Contents (Elt Ideal)) (n : Fin 1048576) (h : Fin 128) :
    val_main_v32 (F := Ideal) x0 x1 x2 x3 x4 (ix2 n h) = Cert.Mlp.act3 (fun n d => x0 (ix2 n d)) (fun h d => x1 (ix2 h d)) (fun h => x2 (ix1 h)) (fun r k => x3 (ix2 r k)) (fun l h => x4 (ix2 l h)) n h := by
  rw [val_main_v32_apply, val_main_v31_apply, val_main_v26_apply, hidB2, zero3]
  have el : ∀ k : Fin 128, lidx_main_v26 (ix2 n h) k = ix2 n k := fun k =>
    funext fun a => by match a with | ⟨0, _⟩ => rfl | ⟨1, _⟩ => rfl
  have er : ∀ k : Fin 128, ridx_main_v26 (ix2 n h) k = ix2 h k := fun k =>
    funext fun a => by match a with | ⟨0, _⟩ => rfl | ⟨1, _⟩ => rfl
  simp only [el, er, v23_is_act2, hidW2]
  rfl

/-! ### Output layer -/

/-- The bias operand of the output layer: the bias vector, whatever the sample. -/
theorem outB (x6 : (⟨S64, .f32⟩ : BufTy).Contents (Elt Ideal)) (n : Fin 1048576) (o : Fin 64) :
    val_main_v35 (F := Ideal) x6 (ix2 n o) = x6 (ix1 o) := by
  rw [val_main_v35_apply, val_main_v34_apply]
  exact congrArg x6 (funext fun a => by match a with | ⟨0, _⟩ => rfl)

/-- The reference's result is the network's output, index by index. -/
theorem ref_is_mlp (x0 : (⟨S1048576x64, .f32⟩ : BufTy).Contents (Elt Ideal)) (x1 : (⟨S128x64, .f32⟩ : BufTy).Contents (Elt Ideal)) (x2 : (⟨S128, .f32⟩ : BufTy).Contents (Elt Ideal)) (x3 : (⟨S384x128, .f32⟩ : BufTy).Contents (Elt Ideal)) (x4 : (⟨S3x128, .f32⟩ : BufTy).Contents (Elt Ideal)) (x5 : (⟨S64x128, .f32⟩ : BufTy).Contents (Elt Ideal)) (x6 : (⟨S64, .f32⟩ : BufTy).Contents (Elt Ideal)) (n : Fin 1048576) (o : Fin 64) :
    val_main_v36 (F := Ideal) x0 x1 x2 x3 x4 x5 x6 (ix2 n o)
      = Cert.Mlp.mlp (fun n d => x0 (ix2 n d)) (fun h d => x1 (ix2 h d)) (fun h => x2 (ix1 h)) (fun r k => x3 (ix2 r k)) (fun l h => x4 (ix2 l h)) (fun o k => x5 (ix2 o k)) (fun o => x6 (ix1 o)) n o := by
  rw [val_main_v36_apply, val_main_v33_apply, outB]
  have el : ∀ k : Fin 128, lidx_main_v33 (ix2 n o) k = ix2 n k := fun k =>
    funext fun a => by match a with | ⟨0, _⟩ => rfl | ⟨1, _⟩ => rfl
  have er : ∀ k : Fin 128, ridx_main_v33 (ix2 n o) k = ix2 o k := fun k =>
    funext fun a => by match a with | ⟨0, _⟩ => rfl | ⟨1, _⟩ => rfl
  simp only [el, er, v32_is_act3]
  rfl

end Cert.ReferenceIdeal.RefSpec

end
-- ==== Proof.lean ====
/-
  A five-layer perceptron on 1 048 576 samples of 64 features — an input layer 64 → 128, three hidden layers
  128 → 128, an output layer 128 → 64, each layer `y = x · Wᵀ + b`, the first four followed by `max · 0` — computed
  two ways, and the two results are equal on the extended reals, element by element.

  The reference computes it sample by sample: four times a product with a weight matrix, a bias and a maximum with
  zero, then a last product and bias.

  The kernel program packs two samples into each row of 128 lanes (sample `2p` in the low half of row `p`, sample
  `2p + 1` in the high half: a row-major reshape), replaces every weight matrix by the block-diagonal matrix
  carrying two copies of its transpose and every bias by two copies of itself (host operations before the
  region), runs one region over a grid of 128 points, each point putting 4096 packed rows through the five packed
  layers, and unpacks the result by the inverse reshape (a host operation after the region). Over the extended
  reals a sum over a doubled axis is the sum over its low half plus the sum over its high half, and against a
  block-diagonal matrix one of the two halves is a sum of products with zero, which is zero whatever the other
  factor is; so each half of a packed row goes through each layer exactly as its own sample goes through the
  original layer. Rounding a matrix product's operands to a shorter format is the identity on the extended reals.
  No step uses that the inputs are finite.

  The modules: `Spec` (the network as one function of the arguments, and the algebra of the two halves), `Packed`
  (five packed layers on a row give the network on each half), `RefIsSpec` (the reference's result is the
  network), `KI/Entry` … `KI/Frame` and their `K/` twins (each program runs to the end, faults nowhere and leaves
  its arguments as they were), `KI/Payload` (the body's stored value at a position of its block as five packed
  layers of its loads), `KI/Blocks`, `KI/Final` (the result array after the region as one function of the staged
  arrays), `LibScatterSet`, `LibWindowScatter`, `KI/BlockDiag`, `KI/PrologueA`, `KI/PrologueW`, `KI/PrologueCut`,
  `KI/PrologueH` (what the staged arrays hold in terms of the arguments: the host operations before the region cut
  into consecutive stretches, each buffer read off the stretch that writes it), `KI/Tail` (the reshape after the region), `KI/Bridge` (the packed result
  is the network).
-/
import proofs.«174390_j25202868092982_2_alg».proof.Defs
import proofs.«174390_j25202868092982_2_alg».proof.Proof.Gen.Kernel
import proofs.«174390_j25202868092982_2_alg».proof.Proof.Gen.KernelIdeal
import proofs.«174390_j25202868092982_2_alg».proof.Proof.Gen.ReferenceIdeal
import proofs.«174390_j25202868092982_2_alg».proof.Proof.Gen.ReferenceIdeal.Run
import proofs.«174390_j25202868092982_2_alg».proof.Proof.Gen.ReferenceIdeal.Read
import proofs.«174390_j25202868092982_2_alg».proof.Proof.Gen.Pre_finite_inputs
import proofs.«174390_j25202868092982_2_alg».proof.Proof.K.Frame
import proofs.«174390_j25202868092982_2_alg».proof.Proof.KI.Frame
import proofs.«174390_j25202868092982_2_alg».proof.Proof.KI.Tail
import proofs.«174390_j25202868092982_2_alg».proof.Proof.KI.Bridge
import proofs.«174390_j25202868092982_2_alg».proof.Proof.RefIsSpec

noncomputable section

namespace Cert.Proof

open Idealize.ShloMosaic Idealize.ShloMosaic.TcCoe Idealize.SL.Sem Idealize.ShloMosaic.ValueIdx

/-- The kernel program as printed runs to the end, faults nowhere and leaves its arguments unchanged. -/
theorem frame_k : Cert.frame_Kernel (hKernel := Cert.Kernel.Gen.facts) (hPre_finite_inputs := Cert.Pre_finite_inputs.Gen.facts) :=
  fun m ρ _ => Cert.Kernel.Fr.frame m ρ

/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.Fr.frame m ρ

/-- And the reference: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the network's outputs of the arguments, sample by sample and unit by unit: the kernel's
    result buffer is the unpacking of the packed result array, whose row `p` holds the outputs for samples `2p` and
    `2p + 1`; the reference's result is the network by its own text. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (fun i => Cert.KernelIdeal.Val.net m c (i 0) (i 1)), ?_, ?_⟩
  · refine (θ_run Cert.KernelIdeal.defs _ _).mono (fun r h c => ⟨(h c).1.trans ?_, (h c).2⟩)
      (Cert.KernelIdeal.Val.run_of m ρ (Cert.KernelIdeal.Val.G m) (Cert.KernelIdeal.Val.final m))
    funext i
    obtain ⟨n, o, rfl⟩ : ∃ (n : Fin 1048576) (o : Fin 64), i = ix2 n o := ⟨i 0, i 1, eq_ix2 i⟩
    obtain ⟨p, s, rfl⟩ := Cert.KernelIdeal.Val.smp_surj n
    show _ = Cert.KernelIdeal.Val.net m c (Cert.Mlp.smp p s) o
    match s with
    | ⟨0, _⟩ =>
      exact (Cert.KernelIdeal.Val.unpack_lo (Cert.KernelIdeal.Val.G m c) p o).trans (Cert.KernelIdeal.Val.G_lo m c p o)
    | ⟨1, _⟩ =>
      exact (Cert.KernelIdeal.Val.unpack_hi (Cert.KernelIdeal.Val.G m c) p o).trans (Cert.KernelIdeal.Val.G_hi m c p o)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v36_eq _ _ _ _ _ _ _).trans ?_
    obtain ⟨a0, a1, a2, a3, a4, a5, a6⟩ := hagree c
    rw [a0, a1, a2, a3, a4, a5, a6]
    funext i
    obtain ⟨n, o, rfl⟩ : ∃ (n : Fin 1048576) (o : Fin 64), i = ix2 n o := ⟨i 0, i 1, eq_ix2 i⟩
    exact Cert.ReferenceIdeal.RefSpec.ref_is_mlp _ _ _ _ _ _ _ n o

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
